-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  IdealRules.named_const.Statement Cert.KernelIdeal.κ "inv_temperature" .f32 0x41200000#32 ((134217728 / 13421773 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x256 : Shape := ⟨2, ![8192, 256]⟩
abbrev S8192 : Shape := ⟨1, ![8192]⟩
abbrev S_ : Shape := ⟨0, ![]⟩

class Facts : Prop where
  bcast_S_S8192x256 : S_.BroadcastsInDim S8192x256 (![] : Fin 0 → Fin S8192x256.rank)
  reducesTo_S8192x256_S_d0_1 : S8192x256.ReducesTo [0, 1] S_
  h_S_ : 0 < S_.numel

variable [Facts]

def fn {F : FTy → Type} [FloatOps F] (main_arg0 : FVec F S8192x256 .f32) (main_arg1 : IVec S8192 32) : IVec S_ 1 :=
  let main_v0 : FVec F S8192x256 .f32 := Host.absf main_arg0
  let main_cst : FVec F S_ .f32 := constant S_ .f32 0x7F800000#32
  let main_v1 : FVec F S8192x256 .f32 := broadcastInDim S8192x256 ![] bcast_S_S8192x256 main_cst
  let main_v2 : IVec S8192x256 1 := cmpf .olt main_v0 main_v1
  let main_c : IVec S_ 1 := constantI S_ 1 1#1
  let main_v3 : IVec S_ 1 := (fun x v => Host.reduce IntOp.andi x v reducesTo_S8192x256_S_d0_1 h_S_) main_v2 main_c
  main_v3
-- ==== Kernel.lean ====
abbrev S8192x256 : Shape := ⟨2, ![8192, 256]⟩
abbrev S8192 : Shape := ⟨1, ![8192]⟩
abbrev S_ : Shape := ⟨0, ![]⟩
abbrev S8192x1 : Shape := ⟨2, ![8192, 1]⟩
abbrev S1x8192 : Shape := ⟨2, ![1, 8192]⟩
abbrev S1024x256 : Shape := ⟨2, ![1024, 256]⟩
abbrev S1024x1 : Shape := ⟨2, ![1024, 1]⟩
abbrev S1x1024 : Shape := ⟨2, ![1, 1024]⟩
abbrev S1024x1024 : Shape := ⟨2, ![1024, 1024]⟩
abbrev S1024 : Shape := ⟨1, ![1024]⟩

abbrev nBuf : Space → Nat
  | .hbm => 20
  | .vmem => 11
  | .smem => 0
  | _ => 0

abbrev bufTy : (tb : Table) → Fin (tcTables nBuf tb) → BufTy
  | .hbm, ⟨0, _⟩ => ⟨S8192x256, .f32⟩
  | .hbm, ⟨1, _⟩ => ⟨S8192, .i32⟩
  | .hbm, ⟨2, _⟩ => ⟨S8192x256, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S8192x256, .f32⟩
  | .hbm, ⟨11, _⟩ => ⟨S8192x256, .f32⟩
  | .hbm, ⟨12, _⟩ => ⟨S8192x256, .bf16⟩
  | .hbm, ⟨13, _⟩ => ⟨S8192x1, .i32⟩
  | .hbm, ⟨14, _⟩ => ⟨S1x8192, .i32⟩
  | .hbm, ⟨15, _⟩ => ⟨S8192x1, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .local _ .vmem, ⟨0, _⟩ => ⟨S1024x256, .bf16⟩
  | .local _ .vmem, ⟨1, _⟩ => ⟨S1024x256, .bf16⟩
  | .local _ .vmem, ⟨2, _⟩ => ⟨S8192x256, .bf16⟩
  | .local _ .vmem, ⟨3, _⟩ => ⟨S1024x1, .i32⟩
  | .local _ .vmem, ⟨4, _⟩ => ⟨S1024x1, .i32⟩
  | .local _ .vmem, ⟨5, _⟩ => ⟨S1x1024, .i32⟩
  | .local _ .vmem, ⟨6, _⟩ => ⟨S1x1024, .i32⟩
  | .local _ .vmem, ⟨7, _⟩ => ⟨S1024x1, .f32⟩
  | .local _ .vmem, ⟨8, _⟩ => ⟨S1024x1, .f32⟩
  | .local _ .vmem, ⟨9, _⟩ => ⟨S1024x1, .f32⟩
  | .local _ .vmem, ⟨10, _⟩ => ⟨S1024x1, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_call0_v2 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_scratch1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![8, 8], ![false, false]⟩

def k0_mult1 (i : grid0.Coords) : BitVec 32 :=
  let arg1 : BitVec 32 := BitVec.ofNat 32 (i 1).val
  let c1024_i32 : BitVec 32 := 1024#32
  let v3 : BitVec 32 := Scalar.muli arg1 c1024_i32
  v3
def k0_off1 (i : grid0.Coords) : Fin 2 → Nat :=
  let arg1 : BitVec 32 := BitVec.ofNat 32 (i 1).val
  let c1024_i32 : BitVec 32 := 1024#32
  let v3 : BitVec 32 := Scalar.muli arg1 c1024_i32
  let v4 : BitVec 32 := v3
  let v5 : Index := Scalar.indexCast v4
  let c0 : Index := 0#32
  ![v5.toNat, 0]
def k0_cond2 (i : grid0.Coords) : BitVec 1 :=
  let arg1 : BitVec 32 := BitVec.ofNat 32 (i 1).val
  let c7_i32 : BitVec 32 := 7#32
  let v37 : BitVec 1 := Scalar.cmpi .eq arg1 c7_i32
  let v38 : BitVec 32 := Scalar.extui v37
  let c0_i32_19 : BitVec 32 := 0#32
  let v39 : BitVec 1 := Scalar.cmpi .ne v38 c0_i32_19
  v39

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S8192x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  reducesTo_S8192x256_S8192_d1 : S8192x256.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x256_0_1 : S8192x1.BroadcastsInDim S8192x256 (![0, 1] : Fin 2 → Fin S8192x256.rank)
  bitsLt_bf16_f32 : FTy.bits .bf16 < FTy.bits .f32
  shapeCasts_S8192_S8192x1 : S8192.ShapeCasts S8192x1
  shapeCasts_S8192_S1x8192 : S8192.ShapeCasts S1x8192
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  h_S1024x256 : 0 < S1024x256.numel
  shapeCasts_S1024x256_S1024x256 : S1024x256.ShapeCasts S1024x256
  inb_S1024x256_S1024x256_0_0 : ∀ a, (![0, 0] : Fin 2 → Nat) a + S1024x256.size a ≤ S1024x256.size a
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1024x1_S1024x1024 : S1024x1.Broadcasts S1024x1024
  broadcasts_S1x1024_S1024x1024 : S1x1024.Broadcasts S1024x1024
  reduces_S1024x1024_S1024 : S1024x1024.Reduces [1] S1024
  shapeCasts_S1024_S1024x1 : S1024.ShapeCasts S1024x1
  reducesTo_S8192x1_S_d0_1 : S8192x1.ReducesTo [0, 1] S_
  dot_S1024x256_S1024x256_S1024x1024_1_1_0_0_n_n_wf : DotDims.WF S1024x256 S1024x256 S1024x1024 [1] [1] [0] [0] [] []
  hrank0 : 0 < grid0.rank
  k0_mult1_dvd : ∀ i : grid0.Coords, 1024 ∣ (k0_mult1 i).toNat
  k0_off1_inb : ∀ i : grid0.Coords, ∀ a, (k0_off1 i) a + S1024x256.size a ≤ S8192x256.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S8192x256.size a
  hwx0_0 : ∀ i : grid0.Coords, EltTy.bits .bf16 = 32 ∨ (Rect.block (s := S8192x256) S1024x256.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8192x256.size a ≤ S8192x256.size a
  hwx0_1 : ∀ i : grid0.Coords, EltTy.bits .bf16 = 32 ∨ (Rect.block (s := S8192x256) S8192x256.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S8192x1.size a
  hwx0_2 : ∀ i : grid0.Coords, EltTy.bits .i32 = 32 ∨ (Rect.block (s := S8192x1) S1024x1.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x8192.size a
  hwx0_3 : ∀ i : grid0.Coords, EltTy.bits .i32 = 32 ∨ (Rect.block (s := S1x8192) S1x1024.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1.size a ≤ S8192x1.size a
  hwx0_4 : ∀ i : grid0.Coords, EltTy.bits .f32 = 32 ∨ (Rect.block (s := S8192x1) S1024x1.size (cc0_transform_4 i) (hinb0_4 i)).WholeWords (EltTy.packing .f32)

variable [Facts₀]

def dot_S1024x256_S1024x256_S1024x1024_1_1_0_0_n_n : DotDims S1024x256 S1024x256 S1024x1024 where
  lhsContracting := [1]
  rhsContracting := [1]
  lhsNonContracting := [0]
  rhsNonContracting := [0]
  lhsBatch := []
  rhsBatch := []
  wf := dot_S1024x256_S1024x256_S1024x1024_1_1_0_0_n_n_wf

abbrev win0_0 : Pipeline.Window sig grid0 :=
  Pipeline.Window.ofSpec (Memref.whole main_v5) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S8192x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v6) S1024x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v7) S1x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v8) S1024x1.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S8192x256 : Shape := ⟨2, ![8192, 256]⟩
abbrev S8192 : Shape := ⟨1, ![8192]⟩
abbrev S_ : Shape := ⟨0, ![]⟩
abbrev S8192x1 : Shape := ⟨2, ![8192, 1]⟩
abbrev S256x8192 : Shape := ⟨2, ![256, 8192]⟩
abbrev S8192x8192 : Shape := ⟨2, ![8192, 8192]⟩
abbrev S1x8192 : Shape := ⟨2, ![1, 8192]⟩

abbrev nBuf : Space → Nat
  | .hbm => 41
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S8192, .i32⟩
  | .hbm, ⟨2, _⟩ => ⟨S8192x256, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S8192x256, .f32⟩
  | .hbm, ⟨11, _⟩ => ⟨S8192x256, .f32⟩
  | .hbm, ⟨12, _⟩ => ⟨S256x8192, .f32⟩
  | .hbm, ⟨13, _⟩ => ⟨S8192x8192, .f32⟩
  | .hbm, ⟨14, _⟩ => ⟨S_, .f32⟩
  | .hbm, ⟨15, _⟩ => ⟨S8192x8192, .f32⟩
  | .hbm, ⟨16, _⟩ => ⟨S8192x8192, .f32⟩
  | .hbm, ⟨17, _⟩ => ⟨S8192x8192, .f32⟩
  | .hbm, ⟨18, _⟩ => ⟨S8192x1, .i32⟩
  | .hbm, ⟨19, _⟩ => ⟨S1x8192, .i32⟩
  | .hbm, ⟨20, _⟩ => ⟨S8192x8192, .i32⟩
  | .hbm, ⟨21, _⟩ => ⟨S8192x8192, .i32⟩
  | .hbm, ⟨22, _⟩ => ⟨S8192x8192, .i1⟩
  | .hbm, ⟨23, _⟩ => ⟨S8192x8192, .f32⟩
  | .hbm, ⟨24, _⟩ => ⟨S8192x8192, .f32⟩
  | .hbm, ⟨25, _⟩ => ⟨S_, .f32⟩
  | .hbm, ⟨26, _⟩ => ⟨S8192, .f32⟩
  | .hbm, ⟨27, _⟩ => ⟨S_, .f32⟩
  | .hbm, ⟨28, _⟩ => ⟨S8192x8192, .f32⟩
  | .hbm, ⟨29, _⟩ => ⟨S8192x8192, .f32⟩
  | .hbm, ⟨30, _⟩ => ⟨S8192x8192, .f32⟩
  | .hbm, ⟨31, _⟩ => ⟨S_, .f32⟩
  | .hbm, ⟨32, _⟩ => ⟨S8192, .f32⟩
  | .hbm, ⟨33, _⟩ => ⟨S8192, .f32⟩
  | .hbm, ⟨34, _⟩ => ⟨S8192, .f32⟩
  | .hbm, ⟨35, _⟩ => ⟨S8192, .f32⟩
  | .hbm, ⟨36, _⟩ => ⟨S8192, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_call0_v2 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_1 : Ref sig .tc := ⟨.hbm, 25, rfl⟩
abbrev main_v17 : Ref sig .tc := ⟨.hbm, 26, rfl⟩
abbrev main_cst_2 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_3 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_4 : Ref sig .tc := ⟨.hbm, 37, rfl⟩
abbrev main_v26 : Ref sig .tc := ⟨.hbm, 38, rfl⟩
abbrev main_cst_5 : Ref sig .tc := ⟨.hbm, 39, rfl⟩
abbrev main_v27 : Ref sig .tc := ⟨.hbm, 40, rfl⟩

abbrev nD : Nat := 1
abbrev τ : Topo := Topo.v7x

variable {F : FTy → Type} [FloatOps F]

class Facts₀ : Prop where
  reducesTo_S8192x256_S8192_d1 : S8192x256.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x256_0_1 : S8192x1.BroadcastsInDim S8192x256 (![0, 1] : Fin 2 → Fin S8192x256.rank)
  transposes_S8192x256_S256x8192_1_0 : S8192x256.Transposes [1, 0] S256x8192
  bcast_S_S8192x8192 : S_.BroadcastsInDim S8192x8192 (![] : Fin 0 → Fin S8192x8192.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  reducesTo_S8192x8192_S8192_d1 : S8192x8192.ReducesTo [1] S8192
  reducesTo_S8192_S_d0 : S8192.ReducesTo [0] S_
  dot_S8192x256_S256x8192_S8192x8192_1_0_0_1_n_n_wf : DotDims.WF S8192x256 S256x8192 S8192x8192 [1] [0] [0] [1] [] []

variable [Facts₀]

def dot_S8192x256_S256x8192_S8192x8192_1_0_0_1_n_n : DotDims S8192x256 S256x8192 S8192x8192 where
  lhsContracting := [1]
  rhsContracting := [0]
  lhsNonContracting := [0]
  rhsNonContracting := [1]
  lhsBatch := []
  rhsBatch := []
  wf := dot_S8192x256_S256x8192_S8192x8192_1_0_0_1_n_n_wf

class Facts : Prop extends Facts₀ where

variable [Facts]
-- ==== Proof.K.Kit.lean ====
import proofs.«117188_j4672924418475_2_alg».proof.Proof.Gen.Kernel.Launch
import proofs.«117188_j4672924418475_2_alg».proof.Proof.Gen.Kernel.Skeleton
import proofs.«117188_j4672924418475_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

/-!
# What the three runs of the contrastive-loss kernel share

The grid is 8 row blocks by 8 column blocks, walked row block by row block: point `t` is column step `t % 8` of row
block `t / 8`. The body zeroes its two running sums at the first column step of a row block, adds the step's two
partial row sums at every step, and writes `log tot - log pos` into the output block at the last step only. So a
point is in one of three cases — first step, a middle step, last step — decided by `t % 8`.

The normalised features reach the body through two windows on ONE array: row block `t / 8` of it, and the whole of
it, of which the body slices the rows of column step `t % 8`.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- Core `c`'s buffer contents when the region is entered: after the row norms, the normalisation and the two
    reshapes of the labels. -/
abbrev V0 (c : Dev nD) : Valuation τ sig (Elt F) := StableHlo.after (List.flatten [hostOps0, hostOps0_1]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the host lines before the region, the region, and the mean after it: it reduces to the region continued by
    the mean, at the contents the earlier lines leave. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0, hostOps0_1] [hostOps1] ⟨hostOps0_sub, hostOps0_1_sub⟩
    ⟨hostOps0_fresh, hostOps0_1_fresh⟩ main_chain

/-- The mean's lines touch TensorCore references only, -/
theorem sfx_sub : ∀ ops ∈ ([hostOps1] : List (List (HloOp τ sig (Elt F)))), ∀ op ∈ ops, op.bufs ⊆ StableHlo.tcRefs τ sig := by
  intro ops hops op hop
  simp only [List.mem_cons, List.mem_nil_iff, or_false] at hops
  rcases hops with rfl
  exact (List.forall_iff_forall_mem.mp hostOps1_sub) op hop
/-- allocate nothing, -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop
/-- and write none of the windows' arrays (each writes its own result buffer). -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  simp only [hostOps1, List.mem_cons, List.mem_nil_iff, or_false] at hop
  rcases hop with rfl | rfl | rfl | rfl
  all_goals intro w; fin_cases w <;> simp only [StableHlo.nullary_writes, StableHlo.unary_writes, StableHlo.binary_writes, Finset.mem_singleton] <;> exact StableHlo.devRef_ne_of_ne (by decide)

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not — for any proof data
    whose array is the region-entry contents and whose body leaves the block in place (the window uncut, never idle). -/
theorem before_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The body's two conditions, in closed form over the grid -/

/-- The first `pl.when`: this is the first column step of its row block. -/
abbrev condFirst (i : grid0.Coords) : Prop := (Scalar.cmpi .ne (Scalar.extui (Scalar.cmpi .eq (BitVec.ofNat 32 (i 1).val) 0#32)) 0#32) = 1#1
theorem hcondFirst : ∀ t : Fin cfg0.N, condFirst (grid0.coords t) ↔ t.val % 8 = 0 :=
  (by decide +kernel : ∀ t : Fin grid0.N, condFirst (grid0.coords t) ↔ t.val % 8 = 0)
/-- The second `pl.when`: this is the last column step of its row block. -/
abbrev condLast (i : grid0.Coords) : Prop := k0_cond2 i = 1#1
theorem hcondLast : ∀ t : Fin cfg0.N, condLast (grid0.coords t) ↔ t.val % 8 = 7 :=
  (by decide +kernel : ∀ t : Fin grid0.N, condLast (grid0.coords t) ↔ t.val % 8 = 7)

/-! ## Where the windows are idle -/

theorem liveAt_0 : ∀ t : Fin cfg0.N, cfg0.idle 0 (grid0.coords t) = false := by decide +kernel
theorem liveAt_1 : ∀ t : Fin cfg0.N, cfg0.idle 1 (grid0.coords t) = false := by decide +kernel
theorem liveAt_2 : ∀ t : Fin cfg0.N, cfg0.idle 2 (grid0.coords t) = false := by decide +kernel
theorem liveAt_3 : ∀ t : Fin cfg0.N, cfg0.idle 3 (grid0.coords t) = false := by decide +kernel
/-- The output block is stored at the last column step only: elsewhere the window is idle and not written back. -/
theorem idleAt_4 : ∀ t : Fin cfg0.N, ¬condLast (grid0.coords t) → cfg0.idle 4 (grid0.coords t) = true := by decide +kernel
theorem noFlush_4 : ∀ t : Fin cfg0.N, ¬condLast (grid0.coords t) → (cfg0.win 4).flush t = false := by decide +kernel
theorem liveAt_4 : ∀ t : Fin cfg0.N, condLast (grid0.coords t) → cfg0.idle 4 (grid0.coords t) = false := by decide +kernel

/-! ## The staging memrefs at a point, and the two running sums' buffers -/

abbrev ms_0 (t : Fin cfg0.N) : Memref sig .tc .vmem S1024x256 .bf16 := win0_0.stage (cfg0.slots t 0)
abbrev hs_0 (t : Fin cfg0.N) : (ms_0 t).IsWhole := hstage0_0 ((cfg0.slots t 0).cast nbuf0_0)
abbrev ms_1 (t : Fin cfg0.N) : Memref sig .tc .vmem S8192x256 .bf16 := win0_1.stage (cfg0.slots t 1)
abbrev hs_1 (t : Fin cfg0.N) : (ms_1 t).IsWhole := hstage0_1 ((cfg0.slots t 1).cast nbuf0_1)
abbrev ms_2 (t : Fin cfg0.N) : Memref sig .tc .vmem S1024x1 .i32 := win0_2.stage (cfg0.slots t 2)
abbrev hs_2 (t : Fin cfg0.N) : (ms_2 t).IsWhole := hstage0_2 ((cfg0.slots t 2).cast nbuf0_2)
abbrev ms_3 (t : Fin cfg0.N) : Memref sig .tc .vmem S1x1024 .i32 := win0_3.stage (cfg0.slots t 3)
abbrev hs_3 (t : Fin cfg0.N) : (ms_3 t).IsWhole := hstage0_3 ((cfg0.slots t 3).cast nbuf0_3)
abbrev ms_4 (t : Fin cfg0.N) : Memref sig .tc .vmem S1024x1 .f32 := win0_4.stage (cfg0.slots t 4)
abbrev hs_4 (t : Fin cfg0.N) : (ms_4 t).IsWhole := hstage0_4 ((cfg0.slots t 4).cast nbuf0_4)
/-- The running sum of the same-label terms, and of all terms: whole scoped buffers of the kernel's own. -/
abbrev scPos : Memref sig .tc .vmem S1024x1 .f32 := Memref.whole cc0_scratch0
abbrev scTot : Memref sig .tc .vmem S1024x1 .f32 := Memref.whole cc0_scratch1
/-- One staging buffer of the output window, through which its contents are stated. -/
abbrev VOut : View sig .tc .vmem S1024x1 .f32 := (Memref.whole cc0_stg4_0 : Memref sig .tc .vmem S1024x1 .f32).view

/-- The class's invariant with the two running sums' buffers owned at some contents. -/
theorem PhiA_eq (c : Dev nD) :
    (Pipeline.ΦA spec0 c : sProp 𝕄)
      = iprop(iprop((∃ d, owns (c : Thread nD τ) scPos fullShare d) ∗ (∃ d, owns (c : Thread nD τ) scTot fullShare d)) ∗ (∃ r, prngReg c r)) := by
  unfold Pipeline.ΦA; rw [scopedRest0_eq]; simp only [scPos, scTot, owns_whole]; try rfl

end Cert.Kernel.Hand

end
-- ==== Proof.K.RunFirst.lean ====
import proofs.«117188_j4672924418475_2_alg».proof.Proof.K.Kit

/-! The body's run at the first column step of a row block: the two running sums are zeroed, then take the step's partial row sums; the output block is left as found. What each buffer ends with is found by running the body: the stored pieces, last first. -/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- On whole staging memrefs — the four inputs at their contents, the output's at contents handed back untouched, the two running sums' buffers at
    anything — the body runs to its end holding the inputs as they were and each stored buffer with its pieces written. -/
noncomputable def runFirst (c : Dev nD) (i : grid0.Coords) (arg2 : Memref sig .tc .vmem S1024x256 .bf16) (harg2 : arg2.IsWhole) (arg3 : Memref sig .tc .vmem S8192x256 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc0 : condFirst i) (hc1 : ¬condLast i)
    (x0 : Vec F S1024x256 .bf16) (x1 : Vec F S8192x256 .bf16) (x2 : Vec F S1024x1 .i32) (x3 : Vec F S1x1024 .i32) :
    Σ' (LS0 : List (View.Piece (Elt F) S1024x1 .f32)), { LS1 : List (View.Piece (Elt F) S1024x1 .f32) //
      ∀ (xi4 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare xi4 ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3
                ∗ owns (c : Thread nD τ) arg6 fullShare xi4
                ∗ (∃ f, arg7.view.loc (c : Thread nD τ) ↦[arg7.view.set]{fullShare} arg7.view.writes (Elt F) f LS0)
                ∗ (∃ f, arg8.view.loc (c : Thread nD τ) ↦[arg8.view.set]{fullShare} arg8.view.writes (Elt F) f LS1)) -∗ K ⟨⟩))
          ⊢ wp frame (wpE (defs₀ (F := F)) Variants.none c none) E (cc0__contrastive_kernel i arg2 harg2 arg3 harg3 arg4 harg4 arg5 harg5 arg6 harg6 arg7 harg7 arg8 harg8) K } := by
  refine ⟨?_, ?_, fun xi4 E K => ?run⟩
  case run =>
    simp only [cc0__contrastive_kernel_eq_skeleton]; unfold cc0__contrastive_kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, %hfs0, HS0⟩, ⟨%ds1, %fs1, %hfs1, HS1⟩, Hk⟩
    obtain rfl := harg2.eq_unread hf0; obtain rfl := harg3.eq_unread hf1; obtain rfl := harg4.eq_unread hf2; obtain rfl := harg5.eq_unread hf3
    obtain rfl := harg6.eq_unread hf4; obtain rfl := harg7.eq_unread hfs0; obtain rfl := harg8.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS0]
    · iexists _; iexact HS0
    · iexists _; iexact HS1

end Cert.Kernel.Hand

end
-- ==== Proof.K.RunMid.lean ====
import proofs.«117188_j4672924418475_2_alg».proof.Proof.K.Kit

/-! The body's run at a middle column step: the two running sums take the step's partial row sums; the output block is left as found. What each buffer ends with is found by running the body: the stored pieces, last first. -/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- On whole staging memrefs — the four inputs at their contents, the output's at contents handed back untouched, the two running sums' buffers at
    what the step before left — the body runs to its end holding the inputs as they were and each stored buffer with its pieces written. -/
noncomputable def runMid (c : Dev nD) (i : grid0.Coords) (arg2 : Memref sig .tc .vmem S1024x256 .bf16) (harg2 : arg2.IsWhole) (arg3 : Memref sig .tc .vmem S8192x256 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc0 : ¬condFirst i) (hc1 : ¬condLast i)
    (x0 : Vec F S1024x256 .bf16) (x1 : Vec F S8192x256 .bf16) (x2 : Vec F S1024x1 .i32) (x3 : Vec F S1x1024 .i32) (xs0 xs1 : Vec F S1024x1 .f32) :
    Σ' (LS0 : List (View.Piece (Elt F) S1024x1 .f32)), { LS1 : List (View.Piece (Elt F) S1024x1 .f32) //
      ∀ (xi4 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare xi4 ∗ owns (c : Thread nD τ) arg7 fullShare xs0 ∗ owns (c : Thread nD τ) arg8 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3
                ∗ owns (c : Thread nD τ) arg6 fullShare xi4
                ∗ (∃ f, arg7.view.loc (c : Thread nD τ) ↦[arg7.view.set]{fullShare} arg7.view.writes (Elt F) f LS0)
                ∗ (∃ f, arg8.view.loc (c : Thread nD τ) ↦[arg8.view.set]{fullShare} arg8.view.writes (Elt F) f LS1)) -∗ K ⟨⟩))
          ⊢ wp frame (wpE (defs₀ (F := F)) Variants.none c none) E (cc0__contrastive_kernel i arg2 harg2 arg3 harg3 arg4 harg4 arg5 harg5 arg6 harg6 arg7 harg7 arg8 harg8) K } := by
  refine ⟨?_, ?_, fun xi4 E K => ?run⟩
  case run =>
    simp only [cc0__contrastive_kernel_eq_skeleton]; unfold cc0__contrastive_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3
    obtain rfl := harg6.eq_unread hf4; obtain rfl := harg7.eq_unread hfs0; obtain rfl := harg8.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS0]
    · iexists _; iexact HS0
    · iexists _; iexact HS1

end Cert.Kernel.Hand

end
-- ==== Proof.K.RunLast.lean ====
import proofs.«117188_j4672924418475_2_alg».proof.Proof.K.Kit

/-! The body's run at the last column step of a row block: the two running sums take the step's partial row sums, and the output block is stored with the difference of their logarithms. What each buffer ends with is found by running the body: the stored pieces, last first. -/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- On whole staging memrefs — the four inputs at their contents, the output's at anything, the two running sums' buffers at
    what the step before left — the body runs to its end holding the inputs as they were and each stored buffer with its pieces written. -/
noncomputable def runLast (c : Dev nD) (i : grid0.Coords) (arg2 : Memref sig .tc .vmem S1024x256 .bf16) (harg2 : arg2.IsWhole) (arg3 : Memref sig .tc .vmem S8192x256 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc0 : ¬condFirst i) (hc1 : condLast i)
    (x0 : Vec F S1024x256 .bf16) (x1 : Vec F S8192x256 .bf16) (x2 : Vec F S1024x1 .i32) (x3 : Vec F S1x1024 .i32) (xs0 xs1 : Vec F S1024x1 .f32) :
    Σ' (L4 : List (View.Piece (Elt F) S1024x1 .f32)) (LS0 : List (View.Piece (Elt F) S1024x1 .f32)), { LS1 : List (View.Piece (Elt F) S1024x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ (∃ d, owns (c : Thread nD τ) arg6 fullShare d) ∗ owns (c : Thread nD τ) arg7 fullShare xs0 ∗ owns (c : Thread nD τ) arg8 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3
                ∗ (∃ f, arg6.view.loc (c : Thread nD τ) ↦[arg6.view.set]{fullShare} arg6.view.writes (Elt F) f L4)
                ∗ (∃ f, arg7.view.loc (c : Thread nD τ) ↦[arg7.view.set]{fullShare} arg7.view.writes (Elt F) f LS0)
                ∗ (∃ f, arg8.view.loc (c : Thread nD τ) ↦[arg8.view.set]{fullShare} arg8.view.writes (Elt F) f LS1)) -∗ K ⟨⟩))
          ⊢ wp frame (wpE (defs₀ (F := F)) Variants.none c none) E (cc0__contrastive_kernel i arg2 harg2 arg3 harg3 arg4 harg4 arg5 harg5 arg6 harg6 arg7 harg7 arg8 harg8) K } := by
  refine ⟨?_, ?_, ?_, fun E K => ?run⟩
  case run =>
    simp only [cc0__contrastive_kernel_eq_skeleton]; unfold cc0__contrastive_kernel_skel
    unfold owns
    iintro ⟨⟨%f0, %hf0, H0⟩, ⟨%f1, %hf1, H1⟩, ⟨%f2, %hf2, H2⟩, ⟨%f3, %hf3, H3⟩, ⟨%d4, %f4, %hf4, H4⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3
    obtain rfl := harg6.eq_unread hf4; obtain rfl := harg7.eq_unread hfs0; obtain rfl := harg8.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; iexact H4
    isplitl [HS0]
    · iexists _; iexact HS0
    · iexists _; iexact HS1

end Cert.Kernel.Hand

end
-- ==== Proof.K.Data.lean ====
import proofs.«117188_j4672924418475_2_alg».proof.Proof.K.RunFirst
import proofs.«117188_j4672924418475_2_alg».proof.Proof.K.RunMid
import proofs.«117188_j4672924418475_2_alg».proof.Proof.K.RunLast

/-!
# What the output block and the two running sums hold after each grid point

Point by point: at the first column step of a row block the running sums are what that step's run leaves from zero;
at every later step, what the step's run leaves from the sums the step before left; at the last step the output
block is what that run stores. Between row blocks nothing is carried: the first step starts from zero again.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Per case: what the run leaves -/

/-- First step: its pieces for the same-label running sum cover the buffer. -/
theorem coverFirst_pos (c : Dev nD) (i : grid0.Coords) (arg2 : Memref sig .tc .vmem S1024x256 .bf16) (harg2 : arg2.IsWhole) (arg3 : Memref sig .tc .vmem S8192x256 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc0 : condFirst i) (hc1 : ¬condLast i) (x0 : Vec F S1024x256 .bf16) (x1 : Vec F S8192x256 .bf16) (x2 : Vec F S1024x1 .i32) (x3 : Vec F S1x1024 .i32) (y : S1024x1.Idx) :
    ∃ pc ∈ (runFirst c i arg2 harg2 arg3 harg3 arg4 harg4 arg5 harg5 arg6 harg6 arg7 harg7 arg8 harg8 hc0 hc1 x0 x1 x2 x3).1, y ∈ pc.1.set :=
  View.cover_of_tiledL (runFirst c i arg2 harg2 arg3 harg3 arg4 harg4 arg5 harg5 arg6 harg6 arg7 harg7 arg8 harg8 hc0 hc1 x0 x1 x2 x3).1 S1024x1.size (by sl_kernel_rfl) y
/-- What the first step leaves in the same-label running sum: its pieces read back. -/
def posFirst (c : Dev nD) (i : grid0.Coords) (arg2 : Memref sig .tc .vmem S1024x256 .bf16) (harg2 : arg2.IsWhole) (arg3 : Memref sig .tc .vmem S8192x256 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc0 : condFirst i) (hc1 : ¬condLast i) (x0 : Vec F S1024x256 .bf16) (x1 : Vec F S8192x256 .bf16) (x2 : Vec F S1024x1 .i32) (x3 : Vec F S1x1024 .i32) : Vec F S1024x1 .f32 :=
  scPos.view.read (Elt F) (scPos.view.writes (Elt F) scPos.view.junk (runFirst c i arg2 harg2 arg3 harg3 arg4 harg4 arg5 harg5 arg6 harg6 arg7 harg7 arg8 harg8 hc0 hc1 x0 x1 x2 x3).1)
/-- First step: its pieces for the all-terms running sum cover the buffer. -/
theorem coverFirst_tot (c : Dev nD) (i : grid0.Coords) (arg2 : Memref sig .tc .vmem S1024x256 .bf16) (harg2 : arg2.IsWhole) (arg3 : Memref sig .tc .vmem S8192x256 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc0 : condFirst i) (hc1 : ¬condLast i) (x0 : Vec F S1024x256 .bf16) (x1 : Vec F S8192x256 .bf16) (x2 : Vec F S1024x1 .i32) (x3 : Vec F S1x1024 .i32) (y : S1024x1.Idx) :
    ∃ pc ∈ (runFirst c i arg2 harg2 arg3 harg3 arg4 harg4 arg5 harg5 arg6 harg6 arg7 harg7 arg8 harg8 hc0 hc1 x0 x1 x2 x3).2.1, y ∈ pc.1.set :=
  View.cover_of_tiledL (runFirst c i arg2 harg2 arg3 harg3 arg4 harg4 arg5 harg5 arg6 harg6 arg7 harg7 arg8 harg8 hc0 hc1 x0 x1 x2 x3).2.1 S1024x1.size (by sl_kernel_rfl) y
/-- What the first step leaves in the all-terms running sum. -/
def totFirst (c : Dev nD) (i : grid0.Coords) (arg2 : Memref sig .tc .vmem S1024x256 .bf16) (harg2 : arg2.IsWhole) (arg3 : Memref sig .tc .vmem S8192x256 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc0 : condFirst i) (hc1 : ¬condLast i) (x0 : Vec F S1024x256 .bf16) (x1 : Vec F S8192x256 .bf16) (x2 : Vec F S1024x1 .i32) (x3 : Vec F S1x1024 .i32) : Vec F S1024x1 .f32 :=
  scTot.view.read (Elt F) (scTot.view.writes (Elt F) scTot.view.junk (runFirst c i arg2 harg2 arg3 harg3 arg4 harg4 arg5 harg5 arg6 harg6 arg7 harg7 arg8 harg8 hc0 hc1 x0 x1 x2 x3).2.1)

/-- Mid step: its pieces for the same-label running sum cover the buffer. -/
theorem coverMid_pos (c : Dev nD) (i : grid0.Coords) (arg2 : Memref sig .tc .vmem S1024x256 .bf16) (harg2 : arg2.IsWhole) (arg3 : Memref sig .tc .vmem S8192x256 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc0 : ¬condFirst i) (hc1 : ¬condLast i) (x0 : Vec F S1024x256 .bf16) (x1 : Vec F S8192x256 .bf16) (x2 : Vec F S1024x1 .i32) (x3 : Vec F S1x1024 .i32) (xs0 xs1 : Vec F S1024x1 .f32) (y : S1024x1.Idx) :
    ∃ pc ∈ (runMid c i arg2 harg2 arg3 harg3 arg4 harg4 arg5 harg5 arg6 harg6 arg7 harg7 arg8 harg8 hc0 hc1 x0 x1 x2 x3 xs0 xs1).1, y ∈ pc.1.set :=
  View.cover_of_tiledL (runMid c i arg2 harg2 arg3 harg3 arg4 harg4 arg5 harg5 arg6 harg6 arg7 harg7 arg8 harg8 hc0 hc1 x0 x1 x2 x3 xs0 xs1).1 S1024x1.size (by sl_kernel_rfl) y
/-- What the mid step leaves in the same-label running sum: its pieces read back. -/
def posMid (c : Dev nD) (i : grid0.Coords) (arg2 : Memref sig .tc .vmem S1024x256 .bf16) (harg2 : arg2.IsWhole) (arg3 : Memref sig .tc .vmem S8192x256 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc0 : ¬condFirst i) (hc1 : ¬condLast i) (x0 : Vec F S1024x256 .bf16) (x1 : Vec F S8192x256 .bf16) (x2 : Vec F S1024x1 .i32) (x3 : Vec F S1x1024 .i32) (xs0 xs1 : Vec F S1024x1 .f32) : Vec F S1024x1 .f32 :=
  scPos.view.read (Elt F) (scPos.view.writes (Elt F) scPos.view.junk (runMid c i arg2 harg2 arg3 harg3 arg4 harg4 arg5 harg5 arg6 harg6 arg7 harg7 arg8 harg8 hc0 hc1 x0 x1 x2 x3 xs0 xs1).1)
/-- Mid step: its pieces for the all-terms running sum cover the buffer. -/
theorem coverMid_tot (c : Dev nD) (i : grid0.Coords) (arg2 : Memref sig .tc .vmem S1024x256 .bf16) (harg2 : arg2.IsWhole) (arg3 : Memref sig .tc .vmem S8192x256 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc0 : ¬condFirst i) (hc1 : ¬condLast i) (x0 : Vec F S1024x256 .bf16) (x1 : Vec F S8192x256 .bf16) (x2 : Vec F S1024x1 .i32) (x3 : Vec F S1x1024 .i32) (xs0 xs1 : Vec F S1024x1 .f32) (y : S1024x1.Idx) :
    ∃ pc ∈ (runMid c i arg2 harg2 arg3 harg3 arg4 harg4 arg5 harg5 arg6 harg6 arg7 harg7 arg8 harg8 hc0 hc1 x0 x1 x2 x3 xs0 xs1).2.1, y ∈ pc.1.set :=
  View.cover_of_tiledL (runMid c i arg2 harg2 arg3 harg3 arg4 harg4 arg5 harg5 arg6 harg6 arg7 harg7 arg8 harg8 hc0 hc1 x0 x1 x2 x3 xs0 xs1).2.1 S1024x1.size (by sl_kernel_rfl) y
/-- What the mid step leaves in the all-terms running sum. -/
def totMid (c : Dev nD) (i : grid0.Coords) (arg2 : Memref sig .tc .vmem S1024x256 .bf16) (harg2 : arg2.IsWhole) (arg3 : Memref sig .tc .vmem S8192x256 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc0 : ¬condFirst i) (hc1 : ¬condLast i) (x0 : Vec F S1024x256 .bf16) (x1 : Vec F S8192x256 .bf16) (x2 : Vec F S1024x1 .i32) (x3 : Vec F S1x1024 .i32) (xs0 xs1 : Vec F S1024x1 .f32) : Vec F S1024x1 .f32 :=
  scTot.view.read (Elt F) (scTot.view.writes (Elt F) scTot.view.junk (runMid c i arg2 harg2 arg3 harg3 arg4 harg4 arg5 harg5 arg6 harg6 arg7 harg7 arg8 harg8 hc0 hc1 x0 x1 x2 x3 xs0 xs1).2.1)

/-- Last step: its pieces for the same-label running sum cover the buffer. -/
theorem coverLast_pos (c : Dev nD) (i : grid0.Coords) (arg2 : Memref sig .tc .vmem S1024x256 .bf16) (harg2 : arg2.IsWhole) (arg3 : Memref sig .tc .vmem S8192x256 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc0 : ¬condFirst i) (hc1 : condLast i) (x0 : Vec F S1024x256 .bf16) (x1 : Vec F S8192x256 .bf16) (x2 : Vec F S1024x1 .i32) (x3 : Vec F S1x1024 .i32) (xs0 xs1 : Vec F S1024x1 .f32) (y : S1024x1.Idx) :
    ∃ pc ∈ (runLast c i arg2 harg2 arg3 harg3 arg4 harg4 arg5 harg5 arg6 harg6 arg7 harg7 arg8 harg8 hc0 hc1 x0 x1 x2 x3 xs0 xs1).2.1, y ∈ pc.1.set :=
  View.cover_of_tiledL (runLast c i arg2 harg2 arg3 harg3 arg4 harg4 arg5 harg5 arg6 harg6 arg7 harg7 arg8 harg8 hc0 hc1 x0 x1 x2 x3 xs0 xs1).2.1 S1024x1.size (by sl_kernel_rfl) y
/-- What the last step leaves in the same-label running sum: its pieces read back. -/
def posLast (c : Dev nD) (i : grid0.Coords) (arg2 : Memref sig .tc .vmem S1024x256 .bf16) (harg2 : arg2.IsWhole) (arg3 : Memref sig .tc .vmem S8192x256 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc0 : ¬condFirst i) (hc1 : condLast i) (x0 : Vec F S1024x256 .bf16) (x1 : Vec F S8192x256 .bf16) (x2 : Vec F S1024x1 .i32) (x3 : Vec F S1x1024 .i32) (xs0 xs1 : Vec F S1024x1 .f32) : Vec F S1024x1 .f32 :=
  scPos.view.read (Elt F) (scPos.view.writes (Elt F) scPos.view.junk (runLast c i arg2 harg2 arg3 harg3 arg4 harg4 arg5 harg5 arg6 harg6 arg7 harg7 arg8 harg8 hc0 hc1 x0 x1 x2 x3 xs0 xs1).2.1)
/-- Last step: its pieces for the all-terms running sum cover the buffer. -/
theorem coverLast_tot (c : Dev nD) (i : grid0.Coords) (arg2 : Memref sig .tc .vmem S1024x256 .bf16) (harg2 : arg2.IsWhole) (arg3 : Memref sig .tc .vmem S8192x256 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc0 : ¬condFirst i) (hc1 : condLast i) (x0 : Vec F S1024x256 .bf16) (x1 : Vec F S8192x256 .bf16) (x2 : Vec F S1024x1 .i32) (x3 : Vec F S1x1024 .i32) (xs0 xs1 : Vec F S1024x1 .f32) (y : S1024x1.Idx) :
    ∃ pc ∈ (runLast c i arg2 harg2 arg3 harg3 arg4 harg4 arg5 harg5 arg6 harg6 arg7 harg7 arg8 harg8 hc0 hc1 x0 x1 x2 x3 xs0 xs1).2.2.1, y ∈ pc.1.set :=
  View.cover_of_tiledL (runLast c i arg2 harg2 arg3 harg3 arg4 harg4 arg5 harg5 arg6 harg6 arg7 harg7 arg8 harg8 hc0 hc1 x0 x1 x2 x3 xs0 xs1).2.2.1 S1024x1.size (by sl_kernel_rfl) y
/-- What the last step leaves in the all-terms running sum. -/
def totLast (c : Dev nD) (i : grid0.Coords) (arg2 : Memref sig .tc .vmem S1024x256 .bf16) (harg2 : arg2.IsWhole) (arg3 : Memref sig .tc .vmem S8192x256 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc0 : ¬condFirst i) (hc1 : condLast i) (x0 : Vec F S1024x256 .bf16) (x1 : Vec F S8192x256 .bf16) (x2 : Vec F S1024x1 .i32) (x3 : Vec F S1x1024 .i32) (xs0 xs1 : Vec F S1024x1 .f32) : Vec F S1024x1 .f32 :=
  scTot.view.read (Elt F) (scTot.view.writes (Elt F) scTot.view.junk (runLast c i arg2 harg2 arg3 harg3 arg4 harg4 arg5 harg5 arg6 harg6 arg7 harg7 arg8 harg8 hc0 hc1 x0 x1 x2 x3 xs0 xs1).2.2.1)

/-- Last step: its one store into the output block covers it. -/
theorem coverLast_out (c : Dev nD) (i : grid0.Coords) (arg2 : Memref sig .tc .vmem S1024x256 .bf16) (harg2 : arg2.IsWhole) (arg3 : Memref sig .tc .vmem S8192x256 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc0 : ¬condFirst i) (hc1 : condLast i) (x0 : Vec F S1024x256 .bf16) (x1 : Vec F S8192x256 .bf16) (x2 : Vec F S1024x1 .i32) (x3 : Vec F S1x1024 .i32) (xs0 xs1 : Vec F S1024x1 .f32) (y : S1024x1.Idx) :
    ∃ pc ∈ (runLast c i arg2 harg2 arg3 harg3 arg4 harg4 arg5 harg5 arg6 harg6 arg7 harg7 arg8 harg8 hc0 hc1 x0 x1 x2 x3 xs0 xs1).1, y ∈ pc.1.set :=
  View.cover_of_tiledL (runLast c i arg2 harg2 arg3 harg3 arg4 harg4 arg5 harg5 arg6 harg6 arg7 harg7 arg8 harg8 hc0 hc1 x0 x1 x2 x3 xs0 xs1).1 S1024x1.size (by sl_kernel_rfl) y
/-- What the last step leaves in the output block. -/
def outLast (c : Dev nD) (i : grid0.Coords) (arg2 : Memref sig .tc .vmem S1024x256 .bf16) (harg2 : arg2.IsWhole) (arg3 : Memref sig .tc .vmem S8192x256 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc0 : ¬condFirst i) (hc1 : condLast i) (x0 : Vec F S1024x256 .bf16) (x1 : Vec F S8192x256 .bf16) (x2 : Vec F S1024x1 .i32) (x3 : Vec F S1x1024 .i32) (xs0 xs1 : Vec F S1024x1 .f32) : Vec F S1024x1 .f32 :=
  VOut.read (Elt F) (VOut.writes (Elt F) VOut.junk (runLast c i arg2 harg2 arg3 harg3 arg4 harg4 arg5 harg5 arg6 harg6 arg7 harg7 arg8 harg8 hc0 hc1 x0 x1 x2 x3 xs0 xs1).1)
/-- At a step that stores nothing into the output block nothing is stated of it: a placeholder nothing consults. -/
def outIdle : Vec F S1024x1 .f32 := VOut.read (Elt F) VOut.junk

/-! ## Point by point -/

/-- After the body at position `n`: the output block's buffer, the same-label running sum, the all-terms running sum. -/
def outsAt (c : Dev nD) : (n : ℕ) → n < cfg0.N → Vec F S1024x1 .f32 × Vec F S1024x1 .f32 × Vec F S1024x1 .f32
  | 0, hn => have h0 : (0 : ℕ) % 8 = 0 := rfl
    (outIdle, posFirst c (grid0.coords ⟨0, hn⟩) (ms_0 ⟨0, hn⟩) (hs_0 ⟨0, hn⟩) (ms_1 ⟨0, hn⟩) (hs_1 ⟨0, hn⟩) (ms_2 ⟨0, hn⟩) (hs_2 ⟨0, hn⟩) (ms_3 ⟨0, hn⟩) (hs_3 ⟨0, hn⟩) (ms_4 ⟨0, hn⟩) (hs_4 ⟨0, hn⟩) scPos (Memref.isWhole_whole _) scTot (Memref.isWhole_whole _) ((hcondFirst ⟨0, hn⟩).mpr h0) (fun h => absurd ((hcondLast ⟨0, hn⟩).mp h) (by show ¬ ((0 : ℕ) % 8 = 7); omega)) (iblk m c 0 ⟨0, hn⟩) (iblk m c 1 ⟨0, hn⟩) (iblk m c 2 ⟨0, hn⟩) (iblk m c 3 ⟨0, hn⟩), totFirst c (grid0.coords ⟨0, hn⟩) (ms_0 ⟨0, hn⟩) (hs_0 ⟨0, hn⟩) (ms_1 ⟨0, hn⟩) (hs_1 ⟨0, hn⟩) (ms_2 ⟨0, hn⟩) (hs_2 ⟨0, hn⟩) (ms_3 ⟨0, hn⟩) (hs_3 ⟨0, hn⟩) (ms_4 ⟨0, hn⟩) (hs_4 ⟨0, hn⟩) scPos (Memref.isWhole_whole _) scTot (Memref.isWhole_whole _) ((hcondFirst ⟨0, hn⟩).mpr h0) (fun h => absurd ((hcondLast ⟨0, hn⟩).mp h) (by show ¬ ((0 : ℕ) % 8 = 7); omega)) (iblk m c 0 ⟨0, hn⟩) (iblk m c 1 ⟨0, hn⟩) (iblk m c 2 ⟨0, hn⟩) (iblk m c 3 ⟨0, hn⟩))
  | n + 1, hn =>
    if h0 : (n + 1) % 8 = 0 then
      (outIdle, posFirst c (grid0.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) (ms_4 ⟨n + 1, hn⟩) (hs_4 ⟨n + 1, hn⟩) scPos (Memref.isWhole_whole _) scTot (Memref.isWhole_whole _) ((hcondFirst ⟨n + 1, hn⟩).mpr h0) (fun h => absurd ((hcondLast ⟨n + 1, hn⟩).mp h) (by show ¬ ((n + 1) % 8 = 7); omega)) (iblk m c 0 ⟨n + 1, hn⟩) (iblk m c 1 ⟨n + 1, hn⟩) (iblk m c 2 ⟨n + 1, hn⟩) (iblk m c 3 ⟨n + 1, hn⟩), totFirst c (grid0.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) (ms_4 ⟨n + 1, hn⟩) (hs_4 ⟨n + 1, hn⟩) scPos (Memref.isWhole_whole _) scTot (Memref.isWhole_whole _) ((hcondFirst ⟨n + 1, hn⟩).mpr h0) (fun h => absurd ((hcondLast ⟨n + 1, hn⟩).mp h) (by show ¬ ((n + 1) % 8 = 7); omega)) (iblk m c 0 ⟨n + 1, hn⟩) (iblk m c 1 ⟨n + 1, hn⟩) (iblk m c 2 ⟨n + 1, hn⟩) (iblk m c 3 ⟨n + 1, hn⟩))
    else if h1 : (n + 1) % 8 = 7 then
      (outLast c (grid0.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) (ms_4 ⟨n + 1, hn⟩) (hs_4 ⟨n + 1, hn⟩) scPos (Memref.isWhole_whole _) scTot (Memref.isWhole_whole _) (fun h => h0 ((hcondFirst ⟨n + 1, hn⟩).mp h)) ((hcondLast ⟨n + 1, hn⟩).mpr h1) (iblk m c 0 ⟨n + 1, hn⟩) (iblk m c 1 ⟨n + 1, hn⟩) (iblk m c 2 ⟨n + 1, hn⟩) (iblk m c 3 ⟨n + 1, hn⟩) (outsAt c n (Nat.lt_of_succ_lt hn)).2.1 (outsAt c n (Nat.lt_of_succ_lt hn)).2.2, posLast c (grid0.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) (ms_4 ⟨n + 1, hn⟩) (hs_4 ⟨n + 1, hn⟩) scPos (Memref.isWhole_whole _) scTot (Memref.isWhole_whole _) (fun h => h0 ((hcondFirst ⟨n + 1, hn⟩).mp h)) ((hcondLast ⟨n + 1, hn⟩).mpr h1) (iblk m c 0 ⟨n + 1, hn⟩) (iblk m c 1 ⟨n + 1, hn⟩) (iblk m c 2 ⟨n + 1, hn⟩) (iblk m c 3 ⟨n + 1, hn⟩) (outsAt c n (Nat.lt_of_succ_lt hn)).2.1 (outsAt c n (Nat.lt_of_succ_lt hn)).2.2, totLast c (grid0.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) (ms_4 ⟨n + 1, hn⟩) (hs_4 ⟨n + 1, hn⟩) scPos (Memref.isWhole_whole _) scTot (Memref.isWhole_whole _) (fun h => h0 ((hcondFirst ⟨n + 1, hn⟩).mp h)) ((hcondLast ⟨n + 1, hn⟩).mpr h1) (iblk m c 0 ⟨n + 1, hn⟩) (iblk m c 1 ⟨n + 1, hn⟩) (iblk m c 2 ⟨n + 1, hn⟩) (iblk m c 3 ⟨n + 1, hn⟩) (outsAt c n (Nat.lt_of_succ_lt hn)).2.1 (outsAt c n (Nat.lt_of_succ_lt hn)).2.2)
    else
      (outIdle, posMid c (grid0.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) (ms_4 ⟨n + 1, hn⟩) (hs_4 ⟨n + 1, hn⟩) scPos (Memref.isWhole_whole _) scTot (Memref.isWhole_whole _) (fun h => h0 ((hcondFirst ⟨n + 1, hn⟩).mp h)) (fun h => h1 ((hcondLast ⟨n + 1, hn⟩).mp h)) (iblk m c 0 ⟨n + 1, hn⟩) (iblk m c 1 ⟨n + 1, hn⟩) (iblk m c 2 ⟨n + 1, hn⟩) (iblk m c 3 ⟨n + 1, hn⟩) (outsAt c n (Nat.lt_of_succ_lt hn)).2.1 (outsAt c n (Nat.lt_of_succ_lt hn)).2.2, totMid c (grid0.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) (ms_4 ⟨n + 1, hn⟩) (hs_4 ⟨n + 1, hn⟩) scPos (Memref.isWhole_whole _) scTot (Memref.isWhole_whole _) (fun h => h0 ((hcondFirst ⟨n + 1, hn⟩).mp h)) (fun h => h1 ((hcondLast ⟨n + 1, hn⟩).mp h)) (iblk m c 0 ⟨n + 1, hn⟩) (iblk m c 1 ⟨n + 1, hn⟩) (iblk m c 2 ⟨n + 1, hn⟩) (iblk m c 3 ⟨n + 1, hn⟩) (outsAt c n (Nat.lt_of_succ_lt hn)).2.1 (outsAt c n (Nat.lt_of_succ_lt hn)).2.2)

theorem outsAt_first (c : Dev nD) (t : Fin cfg0.N) (h0 : t.val % 8 = 0) :
    outsAt m c t.val t.isLt = (outIdle, posFirst c (grid0.coords t) (ms_0 t) (hs_0 t) (ms_1 t) (hs_1 t) (ms_2 t) (hs_2 t) (ms_3 t) (hs_3 t) (ms_4 t) (hs_4 t) scPos (Memref.isWhole_whole _) scTot (Memref.isWhole_whole _) ((hcondFirst t).mpr h0) (fun h => by have := (hcondLast t).mp h; omega) (iblk m c 0 t) (iblk m c 1 t) (iblk m c 2 t) (iblk m c 3 t), totFirst c (grid0.coords t) (ms_0 t) (hs_0 t) (ms_1 t) (hs_1 t) (ms_2 t) (hs_2 t) (ms_3 t) (hs_3 t) (ms_4 t) (hs_4 t) scPos (Memref.isWhole_whole _) scTot (Memref.isWhole_whole _) ((hcondFirst t).mpr h0) (fun h => by have := (hcondLast t).mp h; omega) (iblk m c 0 t) (iblk m c 1 t) (iblk m c 2 t) (iblk m c 3 t)) := by
  obtain ⟨n, hn⟩ := t
  cases n with
  | zero => exact rfl
  | succ n => exact (dif_pos h0).trans rfl

theorem outsAt_mid (c : Dev nD) (t : Fin cfg0.N) (h0 : ¬t.val % 8 = 0) (h1 : ¬t.val % 8 = 7) :
    outsAt m c t.val t.isLt = (outIdle, posMid c (grid0.coords t) (ms_0 t) (hs_0 t) (ms_1 t) (hs_1 t) (ms_2 t) (hs_2 t) (ms_3 t) (hs_3 t) (ms_4 t) (hs_4 t) scPos (Memref.isWhole_whole _) scTot (Memref.isWhole_whole _) (fun h => h0 ((hcondFirst t).mp h)) (fun h => h1 ((hcondLast t).mp h)) (iblk m c 0 t) (iblk m c 1 t) (iblk m c 2 t) (iblk m c 3 t) (outsAt m c (t.val - 1) (Nat.lt_of_le_of_lt (Nat.sub_le _ _) t.isLt)).2.1 (outsAt m c (t.val - 1) (Nat.lt_of_le_of_lt (Nat.sub_le _ _) t.isLt)).2.2, totMid c (grid0.coords t) (ms_0 t) (hs_0 t) (ms_1 t) (hs_1 t) (ms_2 t) (hs_2 t) (ms_3 t) (hs_3 t) (ms_4 t) (hs_4 t) scPos (Memref.isWhole_whole _) scTot (Memref.isWhole_whole _) (fun h => h0 ((hcondFirst t).mp h)) (fun h => h1 ((hcondLast t).mp h)) (iblk m c 0 t) (iblk m c 1 t) (iblk m c 2 t) (iblk m c 3 t) (outsAt m c (t.val - 1) (Nat.lt_of_le_of_lt (Nat.sub_le _ _) t.isLt)).2.1 (outsAt m c (t.val - 1) (Nat.lt_of_le_of_lt (Nat.sub_le _ _) t.isLt)).2.2) := by
  obtain ⟨n, hn⟩ := t
  cases n with
  | zero => exact absurd (Nat.zero_mod _) h0
  | succ n => exact (dif_neg h0).trans ((dif_neg h1).trans rfl)

theorem outsAt_last (c : Dev nD) (t : Fin cfg0.N) (h0 : ¬t.val % 8 = 0) (h1 : t.val % 8 = 7) :
    outsAt m c t.val t.isLt = (outLast c (grid0.coords t) (ms_0 t) (hs_0 t) (ms_1 t) (hs_1 t) (ms_2 t) (hs_2 t) (ms_3 t) (hs_3 t) (ms_4 t) (hs_4 t) scPos (Memref.isWhole_whole _) scTot (Memref.isWhole_whole _) (fun h => h0 ((hcondFirst t).mp h)) ((hcondLast t).mpr h1) (iblk m c 0 t) (iblk m c 1 t) (iblk m c 2 t) (iblk m c 3 t) (outsAt m c (t.val - 1) (Nat.lt_of_le_of_lt (Nat.sub_le _ _) t.isLt)).2.1 (outsAt m c (t.val - 1) (Nat.lt_of_le_of_lt (Nat.sub_le _ _) t.isLt)).2.2, posLast c (grid0.coords t) (ms_0 t) (hs_0 t) (ms_1 t) (hs_1 t) (ms_2 t) (hs_2 t) (ms_3 t) (hs_3 t) (ms_4 t) (hs_4 t) scPos (Memref.isWhole_whole _) scTot (Memref.isWhole_whole _) (fun h => h0 ((hcondFirst t).mp h)) ((hcondLast t).mpr h1) (iblk m c 0 t) (iblk m c 1 t) (iblk m c 2 t) (iblk m c 3 t) (outsAt m c (t.val - 1) (Nat.lt_of_le_of_lt (Nat.sub_le _ _) t.isLt)).2.1 (outsAt m c (t.val - 1) (Nat.lt_of_le_of_lt (Nat.sub_le _ _) t.isLt)).2.2, totLast c (grid0.coords t) (ms_0 t) (hs_0 t) (ms_1 t) (hs_1 t) (ms_2 t) (hs_2 t) (ms_3 t) (hs_3 t) (ms_4 t) (hs_4 t) scPos (Memref.isWhole_whole _) scTot (Memref.isWhole_whole _) (fun h => h0 ((hcondFirst t).mp h)) ((hcondLast t).mpr h1) (iblk m c 0 t) (iblk m c 1 t) (iblk m c 2 t) (iblk m c 3 t) (outsAt m c (t.val - 1) (Nat.lt_of_le_of_lt (Nat.sub_le _ _) t.isLt)).2.1 (outsAt m c (t.val - 1) (Nat.lt_of_le_of_lt (Nat.sub_le _ _) t.isLt)).2.2) := by
  obtain ⟨n, hn⟩ := t
  cases n with
  | zero => exact absurd (Nat.zero_mod _) h0
  | succ n => exact (dif_neg h0).trans ((dif_pos h1).trans rfl)

/-! ## The invariant and the proof data -/

/-- Before position `n`: at the very first point the class's invariant (both running sums' buffers at anything);
    afterwards both buffers at what the point before left, and the generator register at some state. -/
def PhiS (c : Dev nD) : (n : ℕ) → n ≤ cfg0.N → sProp 𝕄
  | 0, _ => Pipeline.ΦA spec0 c
  | n + 1, hn => iprop(iprop(owns (c : Thread nD τ) scPos fullShare ((outsAt m c n hn).2.1) ∗ owns (c : Thread nD τ) scTot fullShare ((outsAt m c n hn).2.2)) ∗ (∃ r, prngReg c r))

theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) :
    PhiS m c (n + 1) hn = iprop(iprop(owns (c : Thread nD τ) scPos fullShare ((outsAt m c n hn).2.1) ∗ owns (c : Thread nD τ) scTot fullShare ((outsAt m c n hn).2.2)) ∗ (∃ r, prngReg c r)) := rfl
theorem PhiS_pos (c : Dev nD) (n : ℕ) (h : n ≤ cfg0.N) (hz : n ≠ 0) :
    PhiS m c n h = iprop(iprop(owns (c : Thread nD τ) scPos fullShare ((outsAt m c (n - 1) (by omega)).2.1) ∗ owns (c : Thread nD τ) scTot fullShare ((outsAt m c (n - 1) (by omega)).2.2)) ∗ (∃ r, prngReg c r)) := by
  cases n with
  | zero => exact absurd rfl hz
  | succ n => rfl

/-- The proof data: the arrays as the region finds them; after the body each input's buffer at its block and the
    output's at `outsAt`; the two windows on the normalised features hold it at one half share each. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt m c t.val t.isLt).1
  Φ t := PhiS m c t.val (Nat.le_of_lt_succ t.isLt)
  q w := match w with
    | ⟨0, _⟩ => fullShare.left
    | ⟨1, _⟩ => fullShare.right
    | _ => fullShare
  owed _ := 0

theorem A_eq (c : Dev nD) (w : Fin cfg0.W) : (dats m 0 c).A w = V m c (Pipeline.arrRef spec0 w) := by
  dsimp only [dats]
theorem PhiS_castSucc (c : Dev nD) (t : Fin cfg0.N) :
    (dats m 0 c).Φ t.castSucc = PhiS m c t.val (Nat.le_of_lt t.isLt) := by
  dsimp only [dats]; simp only [Fin.coe_castSucc]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = (outsAt m c t.val t.isLt).1 := by dsimp only [dats]
theorem before_0 (c : Dev nD) (t : Fin cfg0.N) (d) : (dats m 0 c).before 0 t d = iblk m c 0 t := before_0_of m (dats m 0 c) (A_eq m c 0) (after_0 m c) t d
theorem before_1 (c : Dev nD) (t : Fin cfg0.N) (d) : (dats m 0 c).before 1 t d = iblk m c 1 t := before_1_of m (dats m 0 c) (A_eq m c 1) (after_1 m c) t d
theorem before_2 (c : Dev nD) (t : Fin cfg0.N) (d) : (dats m 0 c).before 2 t d = iblk m c 2 t := before_2_of m (dats m 0 c) (A_eq m c 2) (after_2 m c) t d
theorem before_3 (c : Dev nD) (t : Fin cfg0.N) (d) : (dats m 0 c).before 3 t d = iblk m c 3 t := before_3_of m (dats m 0 c) (A_eq m c 3) (after_3 m c) t d

end Cert.Kernel.Hand

end
-- ==== Proof.LibSharedLaunch.lean ====
import Idealize.ShloMosaic.Lib.Pipeline.FrameSuffix

/-!
# The frame run around a region whose windows may share arrays

A pipeline may be handed ONE array through several input windows (a matrix read both block by block and whole).
The buffers behind the windows' arrays are then fewer than the windows, and what the launch holds of them — each
buffer whole, once — has to be dealt among the windows on it: an array read by two windows is held by each at a
share of its own, at the same contents.

`θ_run_frame_around_track_shared` is the run of such a program whose @main is host lines, the region, host lines.
The certificate says how the buffers behind the arrays and the windows' holdings turn into each other at any contents
on which windows of one array agree (`hdeal`); everything else is as for distinct arrays. At the region's exit the
holdings are gathered back into whole buffers (`V₁`: the arrays at what the write-backs left, the other buffers as
they were), the lines after the region run on those, and the whole buffers are dealt out once more for the final
reading. The post states every array at its final contents and every other unscoped buffer at what the later lines
leave.
-/

noncomputable section

namespace Idealize.ShloMosaic

open Idealize.SL
open Idealize.SL.BI (sProp bigSep bigSep_map bigSep_union bigSep_congr)
open scoped Idealize.SL.BI
open Idealize.SL.BI.BIBase Idealize.SL.BI.Laws Idealize.SL.Sem Idealize.SL.ProofMode
open Idealize.SL.RA
open TcCoe

variable {nD : Nat} {τ : Topo} {sig : RefSig} {Val : EltTy → Type}

namespace Pipeline

open Idealize.ShloMosaic.Rounds

section SharedFrame

variable {Λ₀ : SL.Sem.Labels} {P : Type} [Fintype P] [DecidableEq P] [∀ e, Nonempty (Val e)]

local notation "𝕄" => MT nD τ sig Unit Val ℕ (UR sig nD τ) ℕ

variable (cfgs : P → Cfg sig Λ₀)
  (dats : (p : P) → (c : Dev nD) → Dat τ Val Unit ℕ (UR sig nD τ) ℕ (cfgs p) c) (p : P)
  (defs₀ : Defs nD τ sig Val Λ₀) (𝒱₀ : Variants)

local notation "cfg" => cfgs p
local notation "𝔻" => Pipeline.defs (fun q => Cfg.toPCfg (Val := Val) (cfgs q)) defs₀

local notation "𝕍" => Variants.lift 𝒱₀

omit [Fintype P] [DecidableEq P] [∀ e, Nonempty (Val e)] in
/-- The core's unscoped buffers held at a valuation are the buffers behind the windows' arrays and the buffers that
    bypass the region, at it — the arrays distinct or not. -/
theorem held_ucRefs_split (hunsc : ∀ w, (arrRef (cfg).spec w).isScoped = false) (c : Dev nD) (Wv : Valuation τ sig Val) :
    (StableHlo.held (c.tc : Thread nD τ) (ucRefs τ sig) Wv : sProp 𝕄)
      = iprop((arrBufs (cfg).spec c (fun b => Wv (Proc.devRef .tc b)) : sProp 𝕄)
          ∗ unscopedRest (cfg).spec c (fun b => Wv (Proc.devRef .tc b))) := by
  rw [← unscopedBufs_held (Ix := Unit) (Name := ℕ) (U := UR sig nD τ) (Lvl := ℕ) c Wv]
  exact unscopedBufs_split₀ cfgs p hunsc c (fun b => Wv (Proc.devRef .tc b))

omit [Fintype P] [DecidableEq P] [∀ e, Nonempty (Val e)] in
/-- THE LINES AFTER THE REGION when windows may share arrays. At the region's exit the windows hold their arrays at what
    the write-backs left, each at its share, and the bypassing buffers are at their entry contents `V₀`. The holdings are
    gathered into whole buffers (`hdeal`, right to left, at `V₁`: on the arrays what the write-backs left, elsewhere
    `V₀`), the lines run within the core's unscoped buffers, writing no array (`hkeep`), and the buffers are dealt out to
    the windows again (`hdeal`, left to right), the bypassing ones now at what the lines left. -/
theorem tail_seqs_shared (hunsc : ∀ w, (arrRef (cfg).spec w).isScoped = false)
    (c : Dev nD) (V₀ V₁ : Valuation τ sig Val) (opss : List (List (HloOp τ sig Val)))
    (hsub : ∀ ops ∈ opss, ∀ op ∈ ops, op.bufs ⊆ StableHlo.tcRefs τ sig)
    (hfresh : ∀ ops ∈ opss, ∀ op ∈ ops, op.fresh = ∅)
    (hkeep : ∀ ops ∈ opss, ∀ op ∈ ops, ∀ w, Proc.devRef .tc (arrRef (cfg).spec w) ∉ op.writes)
    (hdeal : ∀ (Vv : (b : Ref sig .tc) → Buf Val ((c.tc : Thread nD τ).loc b))
        (F : (w : Fin (cfg).W) → Buf Val (((cfg).spec w).arr.view.loc (c.tc : Thread nD τ))),
        (∀ w, F w = Vv (arrRef (cfg).spec w)) → ((arrBufs (cfg).spec c Vv : sProp 𝕄) ⊣⊢ (dats p c).arrays F))
    (hV₁ : ∀ w, (dats p c).arrAt w (cfg).N = V₁ (Proc.devRef .tc (arrRef (cfg).spec w)))
    (hrest : ∀ b ∈ restRefs sig (cfg).spec, V₁ (Proc.devRef .tc b) = V₀ (Proc.devRef .tc b))
    (Q' : PUnit → sProp 𝕄) :
    iprop((iprop((dats p c).arrays ((dats p c).arrAt · (cfg).N)
              ∗ unscopedRest (cfg).spec c (fun b => StableHlo.after opss.flatten V₁ (Proc.devRef .tc b))) -∗ Q' ⟨⟩)
        ∗ boundary (c.tc : Thread nD τ) ∗ (dats p c).arrays ((dats p c).arrAt · (cfg).N)
        ∗ unscopedRest (cfg).spec c (fun b => V₀ (Proc.devRef .tc b)))
      ⊢ wp frame (wpE 𝔻 𝕍 (c.tc : Thread nD τ) none) Set.univ (chain (opss.map StableHlo.seq)) Q' := by
  classical
  have hsub' : ∀ ops ∈ opss, ∀ op ∈ ops, op.bufs ⊆ ucRefs τ sig := fun ops ho op h => sub_ucRefs op (hsub ops ho op h)
  -- the lines write no array: after them each array still holds what the write-backs left
  have hafter : ∀ w, StableHlo.after opss.flatten V₁ (Proc.devRef .tc (arrRef (cfg).spec w)) = (dats p c).arrAt w (cfg).N := fun w => by
    rw [StableHlo.after_of_forall_not_mem _ _ fun op hop => ?_, hV₁]
    obtain ⟨ops, hops, hop⟩ := List.mem_flatten.mp hop
    exact hkeep ops hops op hop w
  have hgather := (hdeal (fun b => V₁ (Proc.devRef .tc b)) (fun w => (dats p c).arrAt w (cfg).N) hV₁).2
  have hdealout := (hdeal (fun b => StableHlo.after opss.flatten V₁ (Proc.devRef .tc b)) (fun w => (dats p c).arrAt w (cfg).N)
    (fun w => (hafter w).symm)).1
  have hrestEq : (unscopedRest (Ix := Unit) (Name := ℕ) (U := UR sig nD τ) (Lvl := ℕ) (cfg).spec c (fun b => V₀ (Proc.devRef .tc b)) : sProp 𝕄)
      = unscopedRest (cfg).spec c (fun b => V₁ (Proc.devRef .tc b)) := by
    unfold unscopedRest
    exact bigSep_congr fun b hb => by simp only [hrest b hb]
  have hpre : iprop((dats p c).arrays ((dats p c).arrAt · (cfg).N)
        ∗ unscopedRest (Ix := Unit) (Name := ℕ) (U := UR sig nD τ) (Lvl := ℕ) (cfg).spec c (fun b => V₀ (Proc.devRef .tc b)))
      ⊢ (StableHlo.held (c.tc : Thread nD τ) (ucRefs τ sig) V₁ : sProp 𝕄) := by
    rw [held_ucRefs_split cfgs p hunsc c V₁, hrestEq]
    iintro ⟨Ha, Hz⟩
    isplitl [Ha]
    · iapply hgather; iexact Ha
    · iexact Hz
  have hpost : (StableHlo.held (c.tc : Thread nD τ) (ucRefs τ sig) (StableHlo.after opss.flatten V₁) : sProp 𝕄)
      ⊢ iprop((dats p c).arrays ((dats p c).arrAt · (cfg).N)
        ∗ unscopedRest (Ix := Unit) (Name := ℕ) (U := UR sig nD τ) (Lvl := ℕ) (cfg).spec c
            (fun b => StableHlo.after opss.flatten V₁ (Proc.devRef .tc b))) := by
    rw [held_ucRefs_split cfgs p hunsc c (StableHlo.after opss.flatten V₁)]
    iintro ⟨Ha, Hz⟩
    isplitl [Ha]
    · iapply hdealout; iexact Ha
    · iexact Hz
  rw [← List.append_nil (opss.map StableHlo.seq)]
  iintro ⟨Hk, Hb, Ha, Hz⟩
  ihave Hh := hpre $$ [Ha Hz]
  · isplitl [Ha]
    · iexact Ha
    · iexact Hz
  icombine Hb Hh as Hb
  iapply (wp_seqs_then (fun q => (cfgs q).toPCfg (Val := Val)) defs₀ 𝒱₀ c (ucRefs τ sig) [] opss hsub' hfresh V₁) $$ Hb
  iintro Hb
  rw [chain_nil, wp_pure]
  imodintro
  iapply Hk
  icases Hb with ⟨-, H⟩
  iapply hpost; iexact H

theorem θ_run_frame_around_track_shared
    (hcell : Function.Injective (cellOf (nD := nD) (τ := τ) cfgs)) (hw : WinFacts₀ (cfg).spec)
    (hne : ∀ w : Fin (cfg).W, 0 < ((cfg).spec w).block.numel)
    (harr : ∀ w, ((cfg).spec w).arr.IsWhole) (hstage : ∀ w s, (((cfg).spec w).stage s).IsWhole)
    (m : (ℓ : Loc nD τ sig) → Buf Val ℓ) (g : Dev nD → PrngReg)
    (main : Dev nD → Prog (TpuEff nD τ sig Val (Sig Λ₀ P fun p => ((cfgs p).toPCfg (Val := Val)).Adm) .tc) PUnit)
    (hbody : ∀ c, BodyObligationLoose (dats p c) defs₀ 𝒱₀ () Set.univ)
    (howed : ∀ c t, (dats p c).owed t = 0)
    (V₀ V₁ : Dev nD → Valuation τ sig Val) (opss : List (List (HloOp τ sig Val)))
    (hsub : ∀ ops ∈ opss, ∀ op ∈ ops, op.bufs ⊆ StableHlo.tcRefs τ sig)
    (hfresh : ∀ ops ∈ opss, ∀ op ∈ ops, op.fresh = ∅)
    (hkeep : ∀ ops ∈ opss, ∀ op ∈ ops, ∀ w, Proc.devRef .tc (arrRef (cfg).spec w) ∉ op.writes)
    (hmain : HMainK (Ix := Unit) (Name := ℕ) (U := UR sig nD τ) (Lvl := ℕ) cfgs p defs₀ 𝒱₀ m main
      (fun c b => V₀ c (Proc.devRef .tc b)) (fun _ => chain (opss.map StableHlo.seq)))
    (hdeal : ∀ c (Vv : (b : Ref sig .tc) → Buf Val ((c.tc : Thread nD τ).loc b))
        (F : (w : Fin (cfg).W) → Buf Val (((cfg).spec w).arr.view.loc (c.tc : Thread nD τ))),
        (∀ w, F w = Vv (arrRef (cfg).spec w)) → ((arrBufs (cfg).spec c Vv : sProp 𝕄) ⊣⊢ (dats p c).arrays F))
    (hA : ∀ c w, (dats p c).A w = V₀ c (Proc.devRef .tc (arrRef (cfg).spec w)))
    (hV₁ : ∀ c w, (dats p c).arrAt w (cfg).N = V₁ c (Proc.devRef .tc (arrRef (cfg).spec w)))
    (hrest : ∀ c, ∀ b ∈ restRefs sig (cfg).spec, V₁ c (Proc.devRef .tc b) = V₀ c (Proc.devRef .tc b))
    (hin : ∀ c, ΦA (cfg).spec c ⊢ (dats p c).Φ 0) (hout : ∀ c, (dats p c).Φ (Fin.last (cfg).N) ⊢ ΦA (cfg).spec c) :
    θ_run 𝔻 (onTc main) (s₀ m g)
      (FramePost cfgs dats p (fun c b => StableHlo.after opss.flatten (V₁ c) (Proc.devRef .tc b))) := by
  classical
  refine θ_run_region_pf_tail (fun q => (cfgs q).toPCfg (Val := Val)) (fun q => (cfgs q).toPCfg_adm) dats () hcell p hw
    (OwnSemFacts.none (cfg).spec) (PreFacts.none _) emb₁ defs₀ 𝒱₀ m g main (fun _ => chain (opss.map StableHlo.seq)) hbody hne harr hstage howed
    (G := fun _ => (BI.emp : sProp 𝕄)) (u₀ := initOf (cells cfgs hcell) (launchToks cfgs hcell)) (hu₀ := ?_)
    (V := fun c b => V₀ c (Proc.devRef .tc b)) (hmain := hmain)
    (hsplit := fun c => (hdeal c _ _ fun w => hA c w).1) (hpf := fun _ k => k.elim0)
    (X := fun c => iprop(∃ r, prngReg c r)) (Y := fun c => iprop(∃ r, prngReg c r))
    (Z := fun c => unscopedRest (Ix := Unit) (Name := ℕ) (U := UR sig nD τ) (Lvl := ℕ) (cfg).spec c (fun b => V₀ c (Proc.devRef .tc b)))
    (Z' := fun c => unscopedRest (Ix := Unit) (Name := ℕ) (U := UR sig nD τ) (Lvl := ℕ) (cfg).spec c
      (fun b => StableHlo.after opss.flatten (V₁ c) (Proc.devRef .tc b)))
    (hX := ?_) (hin := ?_) (hout := ?_)
    (htail := fun c Q' => tail_seqs_shared cfgs dats p defs₀ 𝒱₀ hw.arr_unscoped c (V₀ c) (V₁ c) opss hsub hfresh hkeep (hdeal c) (hV₁ c) (hrest c) Q')
    (QY := fun c s => ∀ b ∈ restRefs sig (cfg).spec, s.mem ((c.tc : Thread nD τ).loc b) = StableHlo.after opss.flatten (V₁ c) (Proc.devRef .tc b))
    (hY := ?_) (hQ := ?_)
  · -- the launch element is the pipeline's rounds copy, owned whole
    iintro Hu; imodintro
    isplitl [Hu]
    · iapply (show (ownU _ : sProp 𝕄) ⊢ BI.own (emb₁ _) from Entails.of_eq (ownU_emb₁ _)); iexact Hu
    · have hemp : (BI.emp : sProp 𝕄) ⊢ bigSep Finset.univ (fun _ : Dev nD => (BI.emp : sProp 𝕄)) := by
        rw [BI.bigSep_emp_const]
      iapply hemp; iempintro
  · -- of what the launch deals, the region's invariant takes the generator register; the bypassing buffers wait outside
    intro c
    rw [unscopedRestP_none]
    iintro ⟨HU, -, -, -, Hp, -⟩; imodintro
    isplitl [Hp]
    · iexists _; iexact Hp
    · iexact HU
  · intro c
    refine Entails.trans ?_ (hin c)
    unfold ΦA
    iintro ⟨Hp, -, Hr⟩
    isplitl [Hr]
    · iexact Hr
    · iexact Hp
  · intro c
    refine (hout c).trans ?_
    rw [ownSems0_none]; unfold ΦA
    iintro ⟨Hr, Hp⟩
    isplitl [Hp]
    · iexact Hp
    isplitr
    · iempintro
    · iexact Hr
  · -- the bypassing buffers are read back at what the later lines left
    intro c s'
    iintro ⟨-, HU, HSI⟩
    unfold unscopedRest
    imodintro
    iapply (pointsTo_read_all (restRefs sig (cfg).spec) (fun b => (c.tc : Thread nD τ).loc b)
      (fun b => StableHlo.after opss.flatten (V₁ c) (Proc.devRef .tc b)) s')
    isplitl [HU]
    · iexact HU
    · iexact HSI
  · intro s h c
    exact ⟨(h c).1, (h c).2.2⟩

end SharedFrame

end Pipeline

end Idealize.ShloMosaic

end
-- ==== Proof.K.Frame.lean ====
import proofs.«117188_j4672924418475_2_alg».proof.Proof.K.Data
import proofs.«117188_j4672924418475_2_alg».proof.Proof.LibSharedLaunch

/-!
# The body obligation, the run and the frame

At every point the body is handed the four inputs' buffers at their blocks, the output's buffer, and — through the
invariant — the two running sums' buffers at what the point before left; the point's case (first, middle or last
column step) says which run applies, and the run's pieces are what `outsAt` names. The normalised features' array is
held by its two windows at one half share each: the whole buffer splits into the halves at the region's entry and
the halves, still at the same contents, make the whole again at its exit.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms_0 t) fullShare ((dats m 0 c).before 0 t d))
    ∗ (∃ d, owns (c : Thread nD τ) (ms_1 t) fullShare ((dats m 0 c).before 1 t d))
    ∗ (∃ d, owns (c : Thread nD τ) (ms_2 t) fullShare ((dats m 0 c).before 2 t d))
    ∗ (∃ d, owns (c : Thread nD τ) (ms_3 t) fullShare ((dats m 0 c).before 3 t d))
    ∗ (∃ d, owns (c : Thread nD τ) (ms_4 t) fullShare ((dats m 0 c).before 4 t d)))

def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t
    ∗ (dats m 0 c).leavesExact 3 t ∗ (dats m 0 c).leavesExact 4 t)

set_option maxHeartbeats 8000000 in
/-- The body at any point: the inputs' buffers hold their blocks; `t % 8` says which case the point is in; the
    invariant hands the body the two running sums' buffers (at anything at the very first point, else at what the
    point before left) and takes them back at this point's contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3]
  rw [show (dats m 0 c).owesAt () t.succ = (dats m 0 c).owesAt () t.castSucc from rfl]
  rw [show (dats m 0 c).Φ t.succ = PhiS m c (t.val + 1) t.isLt from rfl, PhiS_succ]
  have hN : t.val < 64 := lt_of_lt_of_eq t.isLt (show cfg0.N = 64 from N_0)
  rw [show (dats m 0 c).leavesExact 0 t = owns (c : Thread nD τ) (ms_0 t) fullShare ((dats m 0 c).after 0 t) from by
    unfold Dat.leavesExact; rw [liveAt_0 t], after_0]
  rw [show (dats m 0 c).leavesExact 1 t = owns (c : Thread nD τ) (ms_1 t) fullShare ((dats m 0 c).after 1 t) from by
    unfold Dat.leavesExact; rw [liveAt_1 t], after_1]
  rw [show (dats m 0 c).leavesExact 2 t = owns (c : Thread nD τ) (ms_2 t) fullShare ((dats m 0 c).after 2 t) from by
    unfold Dat.leavesExact; rw [liveAt_2 t], after_2]
  rw [show (dats m 0 c).leavesExact 3 t = owns (c : Thread nD τ) (ms_3 t) fullShare ((dats m 0 c).after 3 t) from by
    unfold Dat.leavesExact; rw [liveAt_3 t], after_3]
  by_cases h0 : t.val % 8 = 0
  · have h1 : ¬t.val % 8 = 7 := by omega
    rw [Dat.leavesExact_idle (dats m 0 c) 4 t (idleAt_4 t (fun h => h1 ((hcondLast t).mp h))) (noFlush_4 t (fun h => h1 ((hcondLast t).mp h)))]
    rw [outsAt_first m c t h0]
    unfold posFirst totFirst; (try dsimp only)
    by_cases hz : t.val = 0
    · rw [PhiS_castSucc m c t, PhiS_zero m c _ _ hz, PhiA_eq]
      iintro ⟨⟨⟨HS0, HS1⟩, Hg⟩, Ho, ⟨%d0, H0⟩, ⟨%d1, H1⟩, ⟨%d2, H2⟩, ⟨%d3, H3⟩, ⟨%d4, H4⟩⟩
      iapply ((runFirst c (grid0.coords t) _ _ _ _ _ _ _ _ _ _ _ _ _ _ ((hcondFirst t).mpr h0) (fun h => h1 ((hcondLast t).mp h)) (iblk m c 0 t) (iblk m c 1 t) (iblk m c 2 t) (iblk m c 3 t)).2.2 _ Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      iintro ⟨H0, H1, H2, H3, H4, ⟨%es0, HS0⟩, ⟨%es1, HS1⟩⟩
      isplitl [HS0 HS1 Hg]
      · isplitl [HS0 HS1]
        · isplitl [HS0]
          · unfold owns; iexists _; isplitr
            swap; · iexact HS0
            ipureintro; exact View.read_writes_of_cover _ _ _ _ _ (coverFirst_pos c _ _ _ _ _ _ _ _ _ _ _ _ _ _ _ _ _ _ _ _ _)
          · unfold owns; iexists _; isplitr
            swap; · iexact HS1
            ipureintro; exact View.read_writes_of_cover _ _ _ _ _ (coverFirst_tot c _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      iexists _; iexact H4
    · rw [PhiS_castSucc m c t, PhiS_pos m c _ _ hz]
      iintro ⟨⟨⟨HS0, HS1⟩, Hg⟩, Ho, ⟨%d0, H0⟩, ⟨%d1, H1⟩, ⟨%d2, H2⟩, ⟨%d3, H3⟩, ⟨%d4, H4⟩⟩
      iapply ((runFirst c (grid0.coords t) _ _ _ _ _ _ _ _ _ _ _ _ _ _ ((hcondFirst t).mpr h0) (fun h => h1 ((hcondLast t).mp h)) (iblk m c 0 t) (iblk m c 1 t) (iblk m c 2 t) (iblk m c 3 t)).2.2 _ Set.univ _)
      isplitl [H0]; · iexact H0
      isplitl [H1]; · iexact H1
      isplitl [H2]; · iexact H2
      isplitl [H3]; · iexact H3
      isplitl [H4]; · iexact H4
      isplitl [HS0]; · iexists _; iexact HS0
      isplitl [HS1]; · iexists _; iexact HS1
      iintro ⟨H0, H1, H2, H3, H4, ⟨%es0, HS0⟩, ⟨%es1, HS1⟩⟩
      isplitl [HS0 HS1 Hg]
      · isplitl [HS0 HS1]
        · isplitl [HS0]
          · unfold owns; iexists _; isplitr
            swap; · iexact HS0
            ipureintro; exact View.read_writes_of_cover _ _ _ _ _ (coverFirst_pos c _ _ _ _ _ _ _ _ _ _ _ _ _ _ _ _ _ _ _ _ _)
          · unfold owns; iexists _; isplitr
            swap; · iexact HS1
            ipureintro; exact View.read_writes_of_cover _ _ _ _ _ (coverFirst_tot c _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      iexists _; iexact H4
  · have hz : t.val ≠ 0 := fun e => h0 (by rw [e])
    by_cases h1 : t.val % 8 = 7
    · rw [show (dats m 0 c).leavesExact 4 t = owns (c : Thread nD τ) (ms_4 t) fullShare ((dats m 0 c).after 4 t) from by
        unfold Dat.leavesExact; rw [liveAt_4 t ((hcondLast t).mpr h1)], after_4]
      rw [outsAt_last m c t h0 h1]
      unfold outLast posLast totLast; (try dsimp only)
      rw [PhiS_castSucc m c t, PhiS_pos m c _ _ hz]
      iintro ⟨⟨⟨HS0, HS1⟩, Hg⟩, Ho, ⟨%d0, H0⟩, ⟨%d1, H1⟩, ⟨%d2, H2⟩, ⟨%d3, H3⟩, ⟨%d4, H4⟩⟩
      iapply ((runLast c (grid0.coords t) _ _ _ _ _ _ _ _ _ _ _ _ _ _ (fun h => h0 ((hcondFirst t).mp h)) ((hcondLast t).mpr h1) (iblk m c 0 t) (iblk m c 1 t) (iblk m c 2 t) (iblk m c 3 t) _ _).2.2.2 Set.univ _)
      isplitl [H0]; · iexact H0
      isplitl [H1]; · iexact H1
      isplitl [H2]; · iexact H2
      isplitl [H3]; · iexact H3
      isplitl [H4]; · iexists _; iexact H4
      isplitl [HS0]; · iexact HS0
      isplitl [HS1]; · iexact HS1
      iintro ⟨H0, H1, H2, H3, ⟨%e4, H4⟩, ⟨%es0, HS0⟩, ⟨%es1, HS1⟩⟩
      isplitl [HS0 HS1 Hg]
      · isplitl [HS0 HS1]
        · isplitl [HS0]
          · unfold owns; iexists _; isplitr
            swap; · iexact HS0
            ipureintro; exact View.read_writes_of_cover _ _ _ _ _ (coverLast_pos c _ _ _ _ _ _ _ _ _ _ _ _ _ _ _ _ _ _ _ _ _ _ _)
          · unfold owns; iexists _; isplitr
            swap; · iexact HS1
            ipureintro; exact View.read_writes_of_cover _ _ _ _ _ (coverLast_tot c _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (coverLast_out c _ _ _ _ _ _ _ _ _ _ _ _ _ _ _ _ _ _ _ _ _ _ _)
    · rw [Dat.leavesExact_idle (dats m 0 c) 4 t (idleAt_4 t (fun h => h1 ((hcondLast t).mp h))) (noFlush_4 t (fun h => h1 ((hcondLast t).mp h)))]
      rw [outsAt_mid m c t h0 h1]
      unfold posMid totMid; (try dsimp only)
      rw [PhiS_castSucc m c t, PhiS_pos m c _ _ hz]
      iintro ⟨⟨⟨HS0, HS1⟩, Hg⟩, Ho, ⟨%d0, H0⟩, ⟨%d1, H1⟩, ⟨%d2, H2⟩, ⟨%d3, H3⟩, ⟨%d4, H4⟩⟩
      iapply ((runMid c (grid0.coords t) _ _ _ _ _ _ _ _ _ _ _ _ _ _ (fun h => h0 ((hcondFirst t).mp h)) (fun h => h1 ((hcondLast t).mp h)) (iblk m c 0 t) (iblk m c 1 t) (iblk m c 2 t) (iblk m c 3 t) _ _).2.2 _ Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      iintro ⟨H0, H1, H2, H3, H4, ⟨%es0, HS0⟩, ⟨%es1, HS1⟩⟩
      isplitl [HS0 HS1 Hg]
      · isplitl [HS0 HS1]
        · isplitl [HS0]
          · unfold owns; iexists _; isplitr
            swap; · iexact HS0
            ipureintro; exact View.read_writes_of_cover _ _ _ _ _ (coverMid_pos c _ _ _ _ _ _ _ _ _ _ _ _ _ _ _ _ _ _ _ _ _ _ _)
          · unfold owns; iexists _; isplitr
            swap; · iexact HS1
            ipureintro; exact View.read_writes_of_cover _ _ _ _ _ (coverMid_tot c _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives the class's back: the running sums' contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA_eq]
  iintro ⟨⟨HS0, HS1⟩, Hg⟩
  isplitl [HS0 HS1]
  · isplitl [HS0]
    · iexists _; iexact HS0
    · iexists _; iexact HS1
  iexact Hg

theorem hout (c : Dev nD) : (dats m 0 c).Φ (Fin.last cfg0.N) ⊢ Pipeline.ΦA spec0 c :=
  Phi_out m c _ (by rw [Fin.val_last]; have : cfg0.N = 64 := N_0; omega)

/-! ## One array, two windows -/

/-- The buffers behind the windows' arrays, each whole, are the windows' holdings at any contents on which the two
    windows of the normalised features agree: that buffer's full share is its two halves. -/
theorem hdeal (c : Dev nD) (Vv : (b : Ref sig .tc) → Buf (Elt F) ((c.tc : Thread nD τ).loc b))
    (G : (w : Fin cfg0.W) → Buf (Elt F) ((cfg0.spec w).arr.view.loc (c.tc : Thread nD τ)))
    (hG : ∀ w, G w = Vv (Pipeline.arrRef spec0 w)) :
    (Pipeline.arrBufs (Ix := Unit) (Name := ℕ) (U := UR sig nD τ) (Lvl := ℕ) spec0 c Vv : sProp 𝕄) ⊣⊢ (dats m 0 c).arrays G := by
  have hb : (Pipeline.arrBufs (Ix := Unit) (Name := ℕ) (U := UR sig nD τ) (Lvl := ℕ) spec0 c Vv : sProp 𝕄)
      = iprop((((c : Thread nD τ).loc main_v5) ↦{fullShare} Vv main_v5) ∗ (((c : Thread nD τ).loc main_v6) ↦{fullShare} Vv main_v6)
          ∗ (((c : Thread nD τ).loc main_v7) ↦{fullShare} Vv main_v7) ∗ (((c : Thread nD τ).loc main_v8) ↦{fullShare} Vv main_v8)) := by
    unfold Pipeline.arrBufs
    exact bigSep_eq_bigSepL_of_eq [main_v5, main_v6, main_v7, main_v8] (by decide) (by decide) _
  have ha : (dats m 0 c).arrays G
      = iprop((((c : Thread nD τ).loc main_v5) ↦{fullShare.left} Vv main_v5) ∗ (((c : Thread nD τ).loc main_v5) ↦{fullShare.right} Vv main_v5)
          ∗ (((c : Thread nD τ).loc main_v6) ↦{fullShare} Vv main_v6) ∗ (((c : Thread nD τ).loc main_v7) ↦{fullShare} Vv main_v7)
          ∗ (((c : Thread nD τ).loc main_v8) ↦{fullShare} Vv main_v8)) := by
    unfold Dat.arrays
    rw [bigSep_W0, hG 0, hG 1, hG 2, hG 3, hG 4, (arr_whole0 0).set_eq_univ, (arr_whole0 2).set_eq_univ,
      (arr_whole0 3).set_eq_univ, (arr_whole0 4).set_eq_univ]
    rfl
  rw [hb, ha]
  constructor
  · iintro ⟨H5, H6, H7, H8⟩
    ihave H5 := (pointsTo_share (PosShare.mem_left_op_right fullShare)).1 $$ H5
    icases H5 with ⟨Ha, Hb⟩
    isplitl [Ha]; · iexact Ha
    isplitl [Hb]; · iexact Hb
    isplitl [H6]; · iexact H6
    isplitl [H7]; · iexact H7
    iexact H8
  · iintro ⟨Ha, Hb, H6, H7, H8⟩
    isplitl [Ha Hb]
    · iapply (pointsTo_share (PosShare.mem_left_op_right fullShare)).2
      isplitl [Ha]; · iexact Ha
      iexact Hb
    isplitl [H6]; · iexact H6
    isplitl [H7]; · iexact H7
    iexact H8

/-! ## The contents at the region's exit -/

open Classical in
/-- Core `c`'s buffer contents when the region is left: the output array at what the write-backs made of it, every
    other buffer as the region found it. -/
def V1 (c : Dev nD) : Valuation τ sig (Elt F) :=
  Function.update (V0 m c) (Proc.devRef .tc main_v8) ((dats m 0 c).arrAt 4 cfg0.N)

theorem hV1 (c : Dev nD) (w : Fin cfg0.W) : (dats m 0 c).arrAt w cfg0.N = V1 m c (Proc.devRef .tc (Pipeline.arrRef spec0 w)) := by
  classical
  unfold V1
  have h8 : ∀ b : Ref sig .tc, b ≠ main_v8 → Function.update (V0 m c) (Proc.devRef .tc main_v8) ((dats m 0 c).arrAt 4 cfg0.N) (Proc.devRef .tc b)
      = V0 m c (Proc.devRef .tc b) :=
    fun b hb => Function.update_of_ne (fun e => hb (Proc.devRef_injective _ e)) _ _
  match w with
  | ⟨0, _⟩ => exact ((dats m 0 c).arrAt_in 0 rfl _).trans (h8 main_v5 (by decide)).symm
  | ⟨1, _⟩ => exact ((dats m 0 c).arrAt_in 1 rfl _).trans (h8 main_v5 (by decide)).symm
  | ⟨2, _⟩ => exact ((dats m 0 c).arrAt_in 2 rfl _).trans (h8 main_v6 (by decide)).symm
  | ⟨3, _⟩ => exact ((dats m 0 c).arrAt_in 3 rfl _).trans (h8 main_v7 (by decide)).symm
  | ⟨4, _⟩ => exact (Function.update_self (Proc.devRef .tc main_v8) _ (V0 m c)).symm

theorem hrest (c : Dev nD) : ∀ b ∈ Pipeline.restRefs sig spec0, V1 m c (Proc.devRef .tc b) = V0 m c (Proc.devRef .tc b) := by
  classical
  intro b hb
  unfold V1
  refine Function.update_of_ne (fun e => ?_) _ _
  have hb' := (Finset.mem_sdiff.mp hb).2
  exact hb' (Finset.mem_image.mpr ⟨4, Finset.mem_univ _, (Proc.devRef_injective _ e).symm⟩)

/-! ## The run and the frame -/

set_option backward.isDefEq.respectTransparency.types false in
/-- Every weakly fair execution of @main terminates, and ends with every array of the pipeline at what the library
    computes from the proof data and every other unscoped buffer as the mean's lines leave it. -/
theorem run_main : θ_run defs (onTc (τ := τ) (main (F := F))) (s₀ m ρ)
    (Pipeline.FramePost cfgs (dats m) 0 (fun c b => StableHlo.after ([hostOps1] : List (List (HloOp τ sig (Elt F)))).flatten (V1 m c) (Proc.devRef .tc b))) :=
  Pipeline.θ_run_frame_around_track_shared cfgs (dats m) (0 : Fin 1) defs₀ Variants.none cellOf_inj winFacts₀0 block_pos0 arr_whole0 stage_whole0 m ρ main
    (hbody := fun c => (body_obligation m c).loose) (howed := fun _ _ => rfl) (V₀ := V0 m) (V₁ := V1 m) (opss := [hostOps1])
    (hsub := sfx_sub) (hfresh := sfx_fresh) (hkeep := sfx_keeps) (hmain := hmain m Variants.none)
    (hdeal := hdeal m) (hA := A_eq m) (hV₁ := hV1 m) (hrest := hrest m) (hin := hin m) (hout := hout m)

end Cert.Kernel.Hand

end
-- ==== Proof.K.Claim.lean ====
import proofs.«117188_j4672924418475_2_alg».proof.Proof.K.Frame
import Idealize.ShloMosaic.Lib.StableHlo.Run

/-! The frame: no host line and no write-back touches the two argument arrays, so they end as they began. -/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.Sem
open Idealize.ShloMosaic.Pipeline (Dat Cfg Window)

variable {F : FTy → Type} [FloatOps F]

variable (m : (ℓ : Loc nD τ sig) → Buf (Elt F) ℓ) (ρ : Dev nD → PrngReg)

/-- The lines before the region write neither argument. -/
theorem V0_arg0 (c : Dev nD) : V0 m c (Proc.devRef .tc main_arg0) = m ((c.tc : Thread nD τ).loc main_arg0) := by
  dsimp only [V0]
  simp only [hostOps0, hostOps0_1, List.flatten_cons, List.flatten_nil, List.append_nil, List.cons_append, List.nil_append]
  after_results
theorem V0_arg1 (c : Dev nD) : V0 m c (Proc.devRef .tc main_arg1) = m ((c.tc : Thread nD τ).loc main_arg1) := by
  dsimp only [V0]
  simp only [hostOps0, hostOps0_1, List.flatten_cons, List.flatten_nil, List.append_nil, List.cons_append, List.nil_append]
  after_results

/-- Nor do the mean's lines, and the region writes back into the output array only. -/
theorem kept_arg0 (c : Dev nD) :
    StableHlo.after ([hostOps1] : List (List (HloOp τ sig (Elt F)))).flatten (V1 m c) (Proc.devRef .tc main_arg0) = m ((c.tc : Thread nD τ).loc main_arg0) := by
  have h : StableHlo.after ([hostOps1] : List (List (HloOp τ sig (Elt F)))).flatten (V1 m c) (Proc.devRef .tc main_arg0) = V1 m c (Proc.devRef .tc main_arg0) := by
    simp only [hostOps1, List.flatten_cons, List.flatten_nil, List.append_nil]
    after_results
  rw [h, hrest m c main_arg0 (Pipeline.mem_restRefs_of _ rfl (by decide)), V0_arg0]
theorem kept_arg1 (c : Dev nD) :
    StableHlo.after ([hostOps1] : List (List (HloOp τ sig (Elt F)))).flatten (V1 m c) (Proc.devRef .tc main_arg1) = m ((c.tc : Thread nD τ).loc main_arg1) := by
  have h : StableHlo.after ([hostOps1] : List (List (HloOp τ sig (Elt F)))).flatten (V1 m c) (Proc.devRef .tc main_arg1) = V1 m c (Proc.devRef .tc main_arg1) := by
    simp only [hostOps1, List.flatten_cons, List.flatten_nil, List.append_nil]
    after_results
  rw [h, hrest m c main_arg1 (Pipeline.mem_restRefs_of _ rfl (by decide)), V0_arg1]

/-- Every weakly fair execution of @main terminates, faults nowhere, and leaves the two argument arrays as they were. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_arg0 (Pipeline.mem_restRefs_of _ rfl (by decide))).trans (kept_arg0 m c),
     ((h c).2 main_arg1 (Pipeline.mem_restRefs_of _ rfl (by decide))).trans (kept_arg1 m c)⟩) (run_main m ρ)

end Cert.Kernel.Hand

end
-- ==== Proof.KI.Kit.lean ====
import proofs.«117188_j4672924418475_2_alg».proof.Proof.Gen.KernelIdeal.Launch
import proofs.«117188_j4672924418475_2_alg».proof.Proof.Gen.KernelIdeal.Skeleton
import proofs.«117188_j4672924418475_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

/-!
# What the three runs of the contrastive-loss kernel share

The grid is 8 row blocks by 8 column blocks, walked row block by row block: point `t` is column step `t % 8` of row
block `t / 8`. The body zeroes its two running sums at the first column step of a row block, adds the step's two
partial row sums at every step, and writes `log tot - log pos` into the output block at the last step only. So a
point is in one of three cases — first step, a middle step, last step — decided by `t % 8`.

The normalised features reach the body through two windows on ONE array: row block `t / 8` of it, and the whole of
it, of which the body slices the rows of column step `t % 8`.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## @main around the region -/

/-- Core `c`'s buffer contents when the region is entered: after the row norms, the normalisation and the two
    reshapes of the labels. -/
abbrev V0 (c : Dev nD) : Valuation τ sig (Elt F) := StableHlo.after (List.flatten [hostOps0, hostOps0_1]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the host lines before the region, the region, and the mean after it: it reduces to the region continued by
    the mean, at the contents the earlier lines leave. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0, hostOps0_1] [hostOps1] ⟨hostOps0_sub, hostOps0_1_sub⟩
    ⟨hostOps0_fresh, hostOps0_1_fresh⟩ main_chain

/-- The mean's lines touch TensorCore references only, -/
theorem sfx_sub : ∀ ops ∈ ([hostOps1] : List (List (HloOp τ sig (Elt F)))), ∀ op ∈ ops, op.bufs ⊆ StableHlo.tcRefs τ sig := by
  intro ops hops op hop
  simp only [List.mem_cons, List.mem_nil_iff, or_false] at hops
  rcases hops with rfl
  exact (List.forall_iff_forall_mem.mp hostOps1_sub) op hop
/-- allocate nothing, -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop
/-- and write none of the windows' arrays (each writes its own result buffer). -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  simp only [hostOps1, List.mem_cons, List.mem_nil_iff, or_false] at hop
  rcases hop with rfl | rfl | rfl | rfl
  all_goals intro w; fin_cases w <;> simp only [StableHlo.nullary_writes, StableHlo.unary_writes, StableHlo.binary_writes, Finset.mem_singleton] <;> exact StableHlo.devRef_ne_of_ne (by decide)

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not — for any proof data
    whose array is the region-entry contents and whose body leaves the block in place (the window uncut, never idle). -/
theorem before_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The body's two conditions, in closed form over the grid -/

/-- The first `pl.when`: this is the first column step of its row block. -/
abbrev condFirst (i : grid0.Coords) : Prop := (Scalar.cmpi .ne (Scalar.extui (Scalar.cmpi .eq (BitVec.ofNat 32 (i 1).val) 0#32)) 0#32) = 1#1
theorem hcondFirst : ∀ t : Fin cfg0.N, condFirst (grid0.coords t) ↔ t.val % 8 = 0 :=
  (by decide +kernel : ∀ t : Fin grid0.N, condFirst (grid0.coords t) ↔ t.val % 8 = 0)
/-- The second `pl.when`: this is the last column step of its row block. -/
abbrev condLast (i : grid0.Coords) : Prop := k0_cond2 i = 1#1
theorem hcondLast : ∀ t : Fin cfg0.N, condLast (grid0.coords t) ↔ t.val % 8 = 7 :=
  (by decide +kernel : ∀ t : Fin grid0.N, condLast (grid0.coords t) ↔ t.val % 8 = 7)

/-! ## Where the windows are idle -/

theorem liveAt_0 : ∀ t : Fin cfg0.N, cfg0.idle 0 (grid0.coords t) = false := by decide +kernel
theorem liveAt_1 : ∀ t : Fin cfg0.N, cfg0.idle 1 (grid0.coords t) = false := by decide +kernel
theorem liveAt_2 : ∀ t : Fin cfg0.N, cfg0.idle 2 (grid0.coords t) = false := by decide +kernel
theorem liveAt_3 : ∀ t : Fin cfg0.N, cfg0.idle 3 (grid0.coords t) = false := by decide +kernel
/-- The output block is stored at the last column step only: elsewhere the window is idle and not written back. -/
theorem idleAt_4 : ∀ t : Fin cfg0.N, ¬condLast (grid0.coords t) → cfg0.idle 4 (grid0.coords t) = true := by decide +kernel
theorem noFlush_4 : ∀ t : Fin cfg0.N, ¬condLast (grid0.coords t) → (cfg0.win 4).flush t = false := by decide +kernel
theorem liveAt_4 : ∀ t : Fin cfg0.N, condLast (grid0.coords t) → cfg0.idle 4 (grid0.coords t) = false := by decide +kernel

/-! ## The staging memrefs at a point, and the two running sums' buffers -/

abbrev ms_0 (t : Fin cfg0.N) : Memref sig .tc .vmem S1024x256 .bf16 := win0_0.stage (cfg0.slots t 0)
abbrev hs_0 (t : Fin cfg0.N) : (ms_0 t).IsWhole := hstage0_0 ((cfg0.slots t 0).cast nbuf0_0)
abbrev ms_1 (t : Fin cfg0.N) : Memref sig .tc .vmem S8192x256 .bf16 := win0_1.stage (cfg0.slots t 1)
abbrev hs_1 (t : Fin cfg0.N) : (ms_1 t).IsWhole := hstage0_1 ((cfg0.slots t 1).cast nbuf0_1)
abbrev ms_2 (t : Fin cfg0.N) : Memref sig .tc .vmem S1024x1 .i32 := win0_2.stage (cfg0.slots t 2)
abbrev hs_2 (t : Fin cfg0.N) : (ms_2 t).IsWhole := hstage0_2 ((cfg0.slots t 2).cast nbuf0_2)
abbrev ms_3 (t : Fin cfg0.N) : Memref sig .tc .vmem S1x1024 .i32 := win0_3.stage (cfg0.slots t 3)
abbrev hs_3 (t : Fin cfg0.N) : (ms_3 t).IsWhole := hstage0_3 ((cfg0.slots t 3).cast nbuf0_3)
abbrev ms_4 (t : Fin cfg0.N) : Memref sig .tc .vmem S1024x1 .f32 := win0_4.stage (cfg0.slots t 4)
abbrev hs_4 (t : Fin cfg0.N) : (ms_4 t).IsWhole := hstage0_4 ((cfg0.slots t 4).cast nbuf0_4)
/-- The running sum of the same-label terms, and of all terms: whole scoped buffers of the kernel's own. -/
abbrev scPos : Memref sig .tc .vmem S1024x1 .f32 := Memref.whole cc0_scratch0
abbrev scTot : Memref sig .tc .vmem S1024x1 .f32 := Memref.whole cc0_scratch1
/-- One staging buffer of the output window, through which its contents are stated. -/
abbrev VOut : View sig .tc .vmem S1024x1 .f32 := (Memref.whole cc0_stg4_0 : Memref sig .tc .vmem S1024x1 .f32).view

/-- The class's invariant with the two running sums' buffers owned at some contents. -/
theorem PhiA_eq (c : Dev nD) :
    (Pipeline.ΦA spec0 c : sProp 𝕄)
      = iprop(iprop((∃ d, owns (c : Thread nD τ) scPos fullShare d) ∗ (∃ d, owns (c : Thread nD τ) scTot fullShare d)) ∗ (∃ r, prngReg c r)) := by
  unfold Pipeline.ΦA; rw [scopedRest0_eq]; simp only [scPos, scTot, owns_whole]; try rfl

end Cert.KernelIdeal.Hand

end
-- ==== Proof.KI.RunFirst.lean ====
import proofs.«117188_j4672924418475_2_alg».proof.Proof.KI.Kit

/-! The body's run at the first column step of a row block: the two running sums are zeroed, then take the step's partial row sums; the output block is left as found. What each buffer ends with is found by running the body: the stored pieces, last first. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 2000000 in
/-- On whole staging memrefs — the four inputs at their contents, the output's at contents handed back untouched, the two running sums' buffers at
    anything — the body runs to its end holding the inputs as they were and each stored buffer with its pieces written. -/
noncomputable def runFirst (c : Dev nD) (i : grid0.Coords) (arg2 : Memref sig .tc .vmem S1024x256 .bf16) (harg2 : arg2.IsWhole) (arg3 : Memref sig .tc .vmem S8192x256 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc0 : condFirst i) (hc1 : ¬condLast i)
    (x0 : Vec F S1024x256 .bf16) (x1 : Vec F S8192x256 .bf16) (x2 : Vec F S1024x1 .i32) (x3 : Vec F S1x1024 .i32) :
    Σ' (LS0 : List (View.Piece (Elt F) S1024x1 .f32)), { LS1 : List (View.Piece (Elt F) S1024x1 .f32) //
      ∀ (xi4 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare xi4 ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3
                ∗ owns (c : Thread nD τ) arg6 fullShare xi4
                ∗ (∃ f, arg7.view.loc (c : Thread nD τ) ↦[arg7.view.set]{fullShare} arg7.view.writes (Elt F) f LS0)
                ∗ (∃ f, arg8.view.loc (c : Thread nD τ) ↦[arg8.view.set]{fullShare} arg8.view.writes (Elt F) f LS1)) -∗ K ⟨⟩))
          ⊢ wp frame (wpE (defs₀ (F := F)) Variants.none c none) E (cc0__contrastive_kernel i arg2 harg2 arg3 harg3 arg4 harg4 arg5 harg5 arg6 harg6 arg7 harg7 arg8 harg8) K } := by
  refine ⟨?_, ?_, fun xi4 E K => ?run⟩
  case run =>
    simp only [cc0__contrastive_kernel_eq_skeleton]; unfold cc0__contrastive_kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, %hfs0, HS0⟩, ⟨%ds1, %fs1, %hfs1, HS1⟩, Hk⟩
    obtain rfl := harg2.eq_unread hf0; obtain rfl := harg3.eq_unread hf1; obtain rfl := harg4.eq_unread hf2; obtain rfl := harg5.eq_unread hf3
    obtain rfl := harg6.eq_unread hf4; obtain rfl := harg7.eq_unread hfs0; obtain rfl := harg8.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS0]
    · iexists _; iexact HS0
    · iexists _; iexact HS1

end Cert.KernelIdeal.Hand

end
-- ==== Proof.KI.RunMid.lean ====
import proofs.«117188_j4672924418475_2_alg».proof.Proof.KI.Kit

/-! The body's run at a middle column step: the two running sums take the step's partial row sums; the output block is left as found. What each buffer ends with is found by running the body: the stored pieces, last first. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 2000000 in
/-- On whole staging memrefs — the four inputs at their contents, the output's at contents handed back untouched, the two running sums' buffers at
    what the step before left — the body runs to its end holding the inputs as they were and each stored buffer with its pieces written. -/
noncomputable def runMid (c : Dev nD) (i : grid0.Coords) (arg2 : Memref sig .tc .vmem S1024x256 .bf16) (harg2 : arg2.IsWhole) (arg3 : Memref sig .tc .vmem S8192x256 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc0 : ¬condFirst i) (hc1 : ¬condLast i)
    (x0 : Vec F S1024x256 .bf16) (x1 : Vec F S8192x256 .bf16) (x2 : Vec F S1024x1 .i32) (x3 : Vec F S1x1024 .i32) (xs0 xs1 : Vec F S1024x1 .f32) :
    Σ' (LS0 : List (View.Piece (Elt F) S1024x1 .f32)), { LS1 : List (View.Piece (Elt F) S1024x1 .f32) //
      ∀ (xi4 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare xi4 ∗ owns (c : Thread nD τ) arg7 fullShare xs0 ∗ owns (c : Thread nD τ) arg8 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3
                ∗ owns (c : Thread nD τ) arg6 fullShare xi4
                ∗ (∃ f, arg7.view.loc (c : Thread nD τ) ↦[arg7.view.set]{fullShare} arg7.view.writes (Elt F) f LS0)
                ∗ (∃ f, arg8.view.loc (c : Thread nD τ) ↦[arg8.view.set]{fullShare} arg8.view.writes (Elt F) f LS1)) -∗ K ⟨⟩))
          ⊢ wp frame (wpE (defs₀ (F := F)) Variants.none c none) E (cc0__contrastive_kernel i arg2 harg2 arg3 harg3 arg4 harg4 arg5 harg5 arg6 harg6 arg7 harg7 arg8 harg8) K } := by
  refine ⟨?_, ?_, fun xi4 E K => ?run⟩
  case run =>
    simp only [cc0__contrastive_kernel_eq_skeleton]; unfold cc0__contrastive_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3
    obtain rfl := harg6.eq_unread hf4; obtain rfl := harg7.eq_unread hfs0; obtain rfl := harg8.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS0]
    · iexists _; iexact HS0
    · iexists _; iexact HS1

end Cert.KernelIdeal.Hand

end
-- ==== Proof.KI.RunLast.lean ====
import proofs.«117188_j4672924418475_2_alg».proof.Proof.KI.Kit

/-! The body's run at the last column step of a row block: the two running sums take the step's partial row sums, and the output block is stored with the difference of their logarithms. What each buffer ends with is found by running the body: the stored pieces, last first. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 2000000 in
/-- On whole staging memrefs — the four inputs at their contents, the output's at anything, the two running sums' buffers at
    what the step before left — the body runs to its end holding the inputs as they were and each stored buffer with its pieces written. -/
noncomputable def runLast (c : Dev nD) (i : grid0.Coords) (arg2 : Memref sig .tc .vmem S1024x256 .bf16) (harg2 : arg2.IsWhole) (arg3 : Memref sig .tc .vmem S8192x256 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc0 : ¬condFirst i) (hc1 : condLast i)
    (x0 : Vec F S1024x256 .bf16) (x1 : Vec F S8192x256 .bf16) (x2 : Vec F S1024x1 .i32) (x3 : Vec F S1x1024 .i32) (xs0 xs1 : Vec F S1024x1 .f32) :
    Σ' (L4 : List (View.Piece (Elt F) S1024x1 .f32)) (LS0 : List (View.Piece (Elt F) S1024x1 .f32)), { LS1 : List (View.Piece (Elt F) S1024x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ (∃ d, owns (c : Thread nD τ) arg6 fullShare d) ∗ owns (c : Thread nD τ) arg7 fullShare xs0 ∗ owns (c : Thread nD τ) arg8 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3
                ∗ (∃ f, arg6.view.loc (c : Thread nD τ) ↦[arg6.view.set]{fullShare} arg6.view.writes (Elt F) f L4)
                ∗ (∃ f, arg7.view.loc (c : Thread nD τ) ↦[arg7.view.set]{fullShare} arg7.view.writes (Elt F) f LS0)
                ∗ (∃ f, arg8.view.loc (c : Thread nD τ) ↦[arg8.view.set]{fullShare} arg8.view.writes (Elt F) f LS1)) -∗ K ⟨⟩))
          ⊢ wp frame (wpE (defs₀ (F := F)) Variants.none c none) E (cc0__contrastive_kernel i arg2 harg2 arg3 harg3 arg4 harg4 arg5 harg5 arg6 harg6 arg7 harg7 arg8 harg8) K } := by
  refine ⟨?_, ?_, ?_, fun E K => ?run⟩
  case run =>
    simp only [cc0__contrastive_kernel_eq_skeleton]; unfold cc0__contrastive_kernel_skel
    unfold owns
    iintro ⟨⟨%f0, %hf0, H0⟩, ⟨%f1, %hf1, H1⟩, ⟨%f2, %hf2, H2⟩, ⟨%f3, %hf3, H3⟩, ⟨%d4, %f4, %hf4, H4⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3
    obtain rfl := harg6.eq_unread hf4; obtain rfl := harg7.eq_unread hfs0; obtain rfl := harg8.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; iexact H4
    isplitl [HS0]
    · iexists _; iexact HS0
    · iexists _; iexact HS1

end Cert.KernelIdeal.Hand

end
-- ==== Proof.KI.Data.lean ====
import proofs.«117188_j4672924418475_2_alg».proof.Proof.KI.RunFirst
import proofs.«117188_j4672924418475_2_alg».proof.Proof.KI.RunMid
import proofs.«117188_j4672924418475_2_alg».proof.Proof.KI.RunLast

/-!
# What the output block and the two running sums hold after each grid point

Point by point: at the first column step of a row block the running sums are what that step's run leaves from zero;
at every later step, what the step's run leaves from the sums the step before left; at the last step the output
block is what that run stores. Between row blocks nothing is carried: the first step starts from zero again.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## Per case: what the run leaves -/

/-- First step: its pieces for the same-label running sum cover the buffer. -/
theorem coverFirst_pos (c : Dev nD) (i : grid0.Coords) (arg2 : Memref sig .tc .vmem S1024x256 .bf16) (harg2 : arg2.IsWhole) (arg3 : Memref sig .tc .vmem S8192x256 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc0 : condFirst i) (hc1 : ¬condLast i) (x0 : Vec F S1024x256 .bf16) (x1 : Vec F S8192x256 .bf16) (x2 : Vec F S1024x1 .i32) (x3 : Vec F S1x1024 .i32) (y : S1024x1.Idx) :
    ∃ pc ∈ (runFirst c i arg2 harg2 arg3 harg3 arg4 harg4 arg5 harg5 arg6 harg6 arg7 harg7 arg8 harg8 hc0 hc1 x0 x1 x2 x3).1, y ∈ pc.1.set :=
  View.cover_of_tiledL (runFirst c i arg2 harg2 arg3 harg3 arg4 harg4 arg5 harg5 arg6 harg6 arg7 harg7 arg8 harg8 hc0 hc1 x0 x1 x2 x3).1 S1024x1.size (by sl_kernel_rfl) y
/-- What the first step leaves in the same-label running sum: its pieces read back. -/
def posFirst (c : Dev nD) (i : grid0.Coords) (arg2 : Memref sig .tc .vmem S1024x256 .bf16) (harg2 : arg2.IsWhole) (arg3 : Memref sig .tc .vmem S8192x256 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc0 : condFirst i) (hc1 : ¬condLast i) (x0 : Vec F S1024x256 .bf16) (x1 : Vec F S8192x256 .bf16) (x2 : Vec F S1024x1 .i32) (x3 : Vec F S1x1024 .i32) : Vec F S1024x1 .f32 :=
  scPos.view.read (Elt F) (scPos.view.writes (Elt F) scPos.view.junk (runFirst c i arg2 harg2 arg3 harg3 arg4 harg4 arg5 harg5 arg6 harg6 arg7 harg7 arg8 harg8 hc0 hc1 x0 x1 x2 x3).1)
/-- First step: its pieces for the all-terms running sum cover the buffer. -/
theorem coverFirst_tot (c : Dev nD) (i : grid0.Coords) (arg2 : Memref sig .tc .vmem S1024x256 .bf16) (harg2 : arg2.IsWhole) (arg3 : Memref sig .tc .vmem S8192x256 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc0 : condFirst i) (hc1 : ¬condLast i) (x0 : Vec F S1024x256 .bf16) (x1 : Vec F S8192x256 .bf16) (x2 : Vec F S1024x1 .i32) (x3 : Vec F S1x1024 .i32) (y : S1024x1.Idx) :
    ∃ pc ∈ (runFirst c i arg2 harg2 arg3 harg3 arg4 harg4 arg5 harg5 arg6 harg6 arg7 harg7 arg8 harg8 hc0 hc1 x0 x1 x2 x3).2.1, y ∈ pc.1.set :=
  View.cover_of_tiledL (runFirst c i arg2 harg2 arg3 harg3 arg4 harg4 arg5 harg5 arg6 harg6 arg7 harg7 arg8 harg8 hc0 hc1 x0 x1 x2 x3).2.1 S1024x1.size (by sl_kernel_rfl) y
/-- What the first step leaves in the all-terms running sum. -/
def totFirst (c : Dev nD) (i : grid0.Coords) (arg2 : Memref sig .tc .vmem S1024x256 .bf16) (harg2 : arg2.IsWhole) (arg3 : Memref sig .tc .vmem S8192x256 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc0 : condFirst i) (hc1 : ¬condLast i) (x0 : Vec F S1024x256 .bf16) (x1 : Vec F S8192x256 .bf16) (x2 : Vec F S1024x1 .i32) (x3 : Vec F S1x1024 .i32) : Vec F S1024x1 .f32 :=
  scTot.view.read (Elt F) (scTot.view.writes (Elt F) scTot.view.junk (runFirst c i arg2 harg2 arg3 harg3 arg4 harg4 arg5 harg5 arg6 harg6 arg7 harg7 arg8 harg8 hc0 hc1 x0 x1 x2 x3).2.1)

/-- Mid step: its pieces for the same-label running sum cover the buffer. -/
theorem coverMid_pos (c : Dev nD) (i : grid0.Coords) (arg2 : Memref sig .tc .vmem S1024x256 .bf16) (harg2 : arg2.IsWhole) (arg3 : Memref sig .tc .vmem S8192x256 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc0 : ¬condFirst i) (hc1 : ¬condLast i) (x0 : Vec F S1024x256 .bf16) (x1 : Vec F S8192x256 .bf16) (x2 : Vec F S1024x1 .i32) (x3 : Vec F S1x1024 .i32) (xs0 xs1 : Vec F S1024x1 .f32) (y : S1024x1.Idx) :
    ∃ pc ∈ (runMid c i arg2 harg2 arg3 harg3 arg4 harg4 arg5 harg5 arg6 harg6 arg7 harg7 arg8 harg8 hc0 hc1 x0 x1 x2 x3 xs0 xs1).1, y ∈ pc.1.set :=
  View.cover_of_tiledL (runMid c i arg2 harg2 arg3 harg3 arg4 harg4 arg5 harg5 arg6 harg6 arg7 harg7 arg8 harg8 hc0 hc1 x0 x1 x2 x3 xs0 xs1).1 S1024x1.size (by sl_kernel_rfl) y
/-- What the mid step leaves in the same-label running sum: its pieces read back. -/
def posMid (c : Dev nD) (i : grid0.Coords) (arg2 : Memref sig .tc .vmem S1024x256 .bf16) (harg2 : arg2.IsWhole) (arg3 : Memref sig .tc .vmem S8192x256 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc0 : ¬condFirst i) (hc1 : ¬condLast i) (x0 : Vec F S1024x256 .bf16) (x1 : Vec F S8192x256 .bf16) (x2 : Vec F S1024x1 .i32) (x3 : Vec F S1x1024 .i32) (xs0 xs1 : Vec F S1024x1 .f32) : Vec F S1024x1 .f32 :=
  scPos.view.read (Elt F) (scPos.view.writes (Elt F) scPos.view.junk (runMid c i arg2 harg2 arg3 harg3 arg4 harg4 arg5 harg5 arg6 harg6 arg7 harg7 arg8 harg8 hc0 hc1 x0 x1 x2 x3 xs0 xs1).1)
/-- Mid step: its pieces for the all-terms running sum cover the buffer. -/
theorem coverMid_tot (c : Dev nD) (i : grid0.Coords) (arg2 : Memref sig .tc .vmem S1024x256 .bf16) (harg2 : arg2.IsWhole) (arg3 : Memref sig .tc .vmem S8192x256 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc0 : ¬condFirst i) (hc1 : ¬condLast i) (x0 : Vec F S1024x256 .bf16) (x1 : Vec F S8192x256 .bf16) (x2 : Vec F S1024x1 .i32) (x3 : Vec F S1x1024 .i32) (xs0 xs1 : Vec F S1024x1 .f32) (y : S1024x1.Idx) :
    ∃ pc ∈ (runMid c i arg2 harg2 arg3 harg3 arg4 harg4 arg5 harg5 arg6 harg6 arg7 harg7 arg8 harg8 hc0 hc1 x0 x1 x2 x3 xs0 xs1).2.1, y ∈ pc.1.set :=
  View.cover_of_tiledL (runMid c i arg2 harg2 arg3 harg3 arg4 harg4 arg5 harg5 arg6 harg6 arg7 harg7 arg8 harg8 hc0 hc1 x0 x1 x2 x3 xs0 xs1).2.1 S1024x1.size (by sl_kernel_rfl) y
/-- What the mid step leaves in the all-terms running sum. -/
def totMid (c : Dev nD) (i : grid0.Coords) (arg2 : Memref sig .tc .vmem S1024x256 .bf16) (harg2 : arg2.IsWhole) (arg3 : Memref sig .tc .vmem S8192x256 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc0 : ¬condFirst i) (hc1 : ¬condLast i) (x0 : Vec F S1024x256 .bf16) (x1 : Vec F S8192x256 .bf16) (x2 : Vec F S1024x1 .i32) (x3 : Vec F S1x1024 .i32) (xs0 xs1 : Vec F S1024x1 .f32) : Vec F S1024x1 .f32 :=
  scTot.view.read (Elt F) (scTot.view.writes (Elt F) scTot.view.junk (runMid c i arg2 harg2 arg3 harg3 arg4 harg4 arg5 harg5 arg6 harg6 arg7 harg7 arg8 harg8 hc0 hc1 x0 x1 x2 x3 xs0 xs1).2.1)

/-- Last step: its pieces for the same-label running sum cover the buffer. -/
theorem coverLast_pos (c : Dev nD) (i : grid0.Coords) (arg2 : Memref sig .tc .vmem S1024x256 .bf16) (harg2 : arg2.IsWhole) (arg3 : Memref sig .tc .vmem S8192x256 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc0 : ¬condFirst i) (hc1 : condLast i) (x0 : Vec F S1024x256 .bf16) (x1 : Vec F S8192x256 .bf16) (x2 : Vec F S1024x1 .i32) (x3 : Vec F S1x1024 .i32) (xs0 xs1 : Vec F S1024x1 .f32) (y : S1024x1.Idx) :
    ∃ pc ∈ (runLast c i arg2 harg2 arg3 harg3 arg4 harg4 arg5 harg5 arg6 harg6 arg7 harg7 arg8 harg8 hc0 hc1 x0 x1 x2 x3 xs0 xs1).2.1, y ∈ pc.1.set :=
  View.cover_of_tiledL (runLast c i arg2 harg2 arg3 harg3 arg4 harg4 arg5 harg5 arg6 harg6 arg7 harg7 arg8 harg8 hc0 hc1 x0 x1 x2 x3 xs0 xs1).2.1 S1024x1.size (by sl_kernel_rfl) y
/-- What the last step leaves in the same-label running sum: its pieces read back. -/
def posLast (c : Dev nD) (i : grid0.Coords) (arg2 : Memref sig .tc .vmem S1024x256 .bf16) (harg2 : arg2.IsWhole) (arg3 : Memref sig .tc .vmem S8192x256 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc0 : ¬condFirst i) (hc1 : condLast i) (x0 : Vec F S1024x256 .bf16) (x1 : Vec F S8192x256 .bf16) (x2 : Vec F S1024x1 .i32) (x3 : Vec F S1x1024 .i32) (xs0 xs1 : Vec F S1024x1 .f32) : Vec F S1024x1 .f32 :=
  scPos.view.read (Elt F) (scPos.view.writes (Elt F) scPos.view.junk (runLast c i arg2 harg2 arg3 harg3 arg4 harg4 arg5 harg5 arg6 harg6 arg7 harg7 arg8 harg8 hc0 hc1 x0 x1 x2 x3 xs0 xs1).2.1)
/-- Last step: its pieces for the all-terms running sum cover the buffer. -/
theorem coverLast_tot (c : Dev nD) (i : grid0.Coords) (arg2 : Memref sig .tc .vmem S1024x256 .bf16) (harg2 : arg2.IsWhole) (arg3 : Memref sig .tc .vmem S8192x256 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc0 : ¬condFirst i) (hc1 : condLast i) (x0 : Vec F S1024x256 .bf16) (x1 : Vec F S8192x256 .bf16) (x2 : Vec F S1024x1 .i32) (x3 : Vec F S1x1024 .i32) (xs0 xs1 : Vec F S1024x1 .f32) (y : S1024x1.Idx) :
    ∃ pc ∈ (runLast c i arg2 harg2 arg3 harg3 arg4 harg4 arg5 harg5 arg6 harg6 arg7 harg7 arg8 harg8 hc0 hc1 x0 x1 x2 x3 xs0 xs1).2.2.1, y ∈ pc.1.set :=
  View.cover_of_tiledL (runLast c i arg2 harg2 arg3 harg3 arg4 harg4 arg5 harg5 arg6 harg6 arg7 harg7 arg8 harg8 hc0 hc1 x0 x1 x2 x3 xs0 xs1).2.2.1 S1024x1.size (by sl_kernel_rfl) y
/-- What the last step leaves in the all-terms running sum. -/
def totLast (c : Dev nD) (i : grid0.Coords) (arg2 : Memref sig .tc .vmem S1024x256 .bf16) (harg2 : arg2.IsWhole) (arg3 : Memref sig .tc .vmem S8192x256 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc0 : ¬condFirst i) (hc1 : condLast i) (x0 : Vec F S1024x256 .bf16) (x1 : Vec F S8192x256 .bf16) (x2 : Vec F S1024x1 .i32) (x3 : Vec F S1x1024 .i32) (xs0 xs1 : Vec F S1024x1 .f32) : Vec F S1024x1 .f32 :=
  scTot.view.read (Elt F) (scTot.view.writes (Elt F) scTot.view.junk (runLast c i arg2 harg2 arg3 harg3 arg4 harg4 arg5 harg5 arg6 harg6 arg7 harg7 arg8 harg8 hc0 hc1 x0 x1 x2 x3 xs0 xs1).2.2.1)

/-- Last step: its one store into the output block covers it. -/
theorem coverLast_out (c : Dev nD) (i : grid0.Coords) (arg2 : Memref sig .tc .vmem S1024x256 .bf16) (harg2 : arg2.IsWhole) (arg3 : Memref sig .tc .vmem S8192x256 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc0 : ¬condFirst i) (hc1 : condLast i) (x0 : Vec F S1024x256 .bf16) (x1 : Vec F S8192x256 .bf16) (x2 : Vec F S1024x1 .i32) (x3 : Vec F S1x1024 .i32) (xs0 xs1 : Vec F S1024x1 .f32) (y : S1024x1.Idx) :
    ∃ pc ∈ (runLast c i arg2 harg2 arg3 harg3 arg4 harg4 arg5 harg5 arg6 harg6 arg7 harg7 arg8 harg8 hc0 hc1 x0 x1 x2 x3 xs0 xs1).1, y ∈ pc.1.set :=
  View.cover_of_tiledL (runLast c i arg2 harg2 arg3 harg3 arg4 harg4 arg5 harg5 arg6 harg6 arg7 harg7 arg8 harg8 hc0 hc1 x0 x1 x2 x3 xs0 xs1).1 S1024x1.size (by sl_kernel_rfl) y
/-- What the last step leaves in the output block. -/
def outLast (c : Dev nD) (i : grid0.Coords) (arg2 : Memref sig .tc .vmem S1024x256 .bf16) (harg2 : arg2.IsWhole) (arg3 : Memref sig .tc .vmem S8192x256 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc0 : ¬condFirst i) (hc1 : condLast i) (x0 : Vec F S1024x256 .bf16) (x1 : Vec F S8192x256 .bf16) (x2 : Vec F S1024x1 .i32) (x3 : Vec F S1x1024 .i32) (xs0 xs1 : Vec F S1024x1 .f32) : Vec F S1024x1 .f32 :=
  VOut.read (Elt F) (VOut.writes (Elt F) VOut.junk (runLast c i arg2 harg2 arg3 harg3 arg4 harg4 arg5 harg5 arg6 harg6 arg7 harg7 arg8 harg8 hc0 hc1 x0 x1 x2 x3 xs0 xs1).1)
/-- At a step that stores nothing into the output block nothing is stated of it: a placeholder nothing consults. -/
def outIdle : Vec F S1024x1 .f32 := VOut.read (Elt F) VOut.junk

/-! ## Point by point -/

/-- After the body at position `n`: the output block's buffer, the same-label running sum, the all-terms running sum. -/
def outsAt (c : Dev nD) : (n : ℕ) → n < cfg0.N → Vec F S1024x1 .f32 × Vec F S1024x1 .f32 × Vec F S1024x1 .f32
  | 0, hn => have h0 : (0 : ℕ) % 8 = 0 := rfl
    (outIdle, posFirst c (grid0.coords ⟨0, hn⟩) (ms_0 ⟨0, hn⟩) (hs_0 ⟨0, hn⟩) (ms_1 ⟨0, hn⟩) (hs_1 ⟨0, hn⟩) (ms_2 ⟨0, hn⟩) (hs_2 ⟨0, hn⟩) (ms_3 ⟨0, hn⟩) (hs_3 ⟨0, hn⟩) (ms_4 ⟨0, hn⟩) (hs_4 ⟨0, hn⟩) scPos (Memref.isWhole_whole _) scTot (Memref.isWhole_whole _) ((hcondFirst ⟨0, hn⟩).mpr h0) (fun h => absurd ((hcondLast ⟨0, hn⟩).mp h) (by show ¬ ((0 : ℕ) % 8 = 7); omega)) (iblk m c 0 ⟨0, hn⟩) (iblk m c 1 ⟨0, hn⟩) (iblk m c 2 ⟨0, hn⟩) (iblk m c 3 ⟨0, hn⟩), totFirst c (grid0.coords ⟨0, hn⟩) (ms_0 ⟨0, hn⟩) (hs_0 ⟨0, hn⟩) (ms_1 ⟨0, hn⟩) (hs_1 ⟨0, hn⟩) (ms_2 ⟨0, hn⟩) (hs_2 ⟨0, hn⟩) (ms_3 ⟨0, hn⟩) (hs_3 ⟨0, hn⟩) (ms_4 ⟨0, hn⟩) (hs_4 ⟨0, hn⟩) scPos (Memref.isWhole_whole _) scTot (Memref.isWhole_whole _) ((hcondFirst ⟨0, hn⟩).mpr h0) (fun h => absurd ((hcondLast ⟨0, hn⟩).mp h) (by show ¬ ((0 : ℕ) % 8 = 7); omega)) (iblk m c 0 ⟨0, hn⟩) (iblk m c 1 ⟨0, hn⟩) (iblk m c 2 ⟨0, hn⟩) (iblk m c 3 ⟨0, hn⟩))
  | n + 1, hn =>
    if h0 : (n + 1) % 8 = 0 then
      (outIdle, posFirst c (grid0.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) (ms_4 ⟨n + 1, hn⟩) (hs_4 ⟨n + 1, hn⟩) scPos (Memref.isWhole_whole _) scTot (Memref.isWhole_whole _) ((hcondFirst ⟨n + 1, hn⟩).mpr h0) (fun h => absurd ((hcondLast ⟨n + 1, hn⟩).mp h) (by show ¬ ((n + 1) % 8 = 7); omega)) (iblk m c 0 ⟨n + 1, hn⟩) (iblk m c 1 ⟨n + 1, hn⟩) (iblk m c 2 ⟨n + 1, hn⟩) (iblk m c 3 ⟨n + 1, hn⟩), totFirst c (grid0.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) (ms_4 ⟨n + 1, hn⟩) (hs_4 ⟨n + 1, hn⟩) scPos (Memref.isWhole_whole _) scTot (Memref.isWhole_whole _) ((hcondFirst ⟨n + 1, hn⟩).mpr h0) (fun h => absurd ((hcondLast ⟨n + 1, hn⟩).mp h) (by show ¬ ((n + 1) % 8 = 7); omega)) (iblk m c 0 ⟨n + 1, hn⟩) (iblk m c 1 ⟨n + 1, hn⟩) (iblk m c 2 ⟨n + 1, hn⟩) (iblk m c 3 ⟨n + 1, hn⟩))
    else if h1 : (n + 1) % 8 = 7 then
      (outLast c (grid0.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) (ms_4 ⟨n + 1, hn⟩) (hs_4 ⟨n + 1, hn⟩) scPos (Memref.isWhole_whole _) scTot (Memref.isWhole_whole _) (fun h => h0 ((hcondFirst ⟨n + 1, hn⟩).mp h)) ((hcondLast ⟨n + 1, hn⟩).mpr h1) (iblk m c 0 ⟨n + 1, hn⟩) (iblk m c 1 ⟨n + 1, hn⟩) (iblk m c 2 ⟨n + 1, hn⟩) (iblk m c 3 ⟨n + 1, hn⟩) (outsAt c n (Nat.lt_of_succ_lt hn)).2.1 (outsAt c n (Nat.lt_of_succ_lt hn)).2.2, posLast c (grid0.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) (ms_4 ⟨n + 1, hn⟩) (hs_4 ⟨n + 1, hn⟩) scPos (Memref.isWhole_whole _) scTot (Memref.isWhole_whole _) (fun h => h0 ((hcondFirst ⟨n + 1, hn⟩).mp h)) ((hcondLast ⟨n + 1, hn⟩).mpr h1) (iblk m c 0 ⟨n + 1, hn⟩) (iblk m c 1 ⟨n + 1, hn⟩) (iblk m c 2 ⟨n + 1, hn⟩) (iblk m c 3 ⟨n + 1, hn⟩) (outsAt c n (Nat.lt_of_succ_lt hn)).2.1 (outsAt c n (Nat.lt_of_succ_lt hn)).2.2, totLast c (grid0.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) (ms_4 ⟨n + 1, hn⟩) (hs_4 ⟨n + 1, hn⟩) scPos (Memref.isWhole_whole _) scTot (Memref.isWhole_whole _) (fun h => h0 ((hcondFirst ⟨n + 1, hn⟩).mp h)) ((hcondLast ⟨n + 1, hn⟩).mpr h1) (iblk m c 0 ⟨n + 1, hn⟩) (iblk m c 1 ⟨n + 1, hn⟩) (iblk m c 2 ⟨n + 1, hn⟩) (iblk m c 3 ⟨n + 1, hn⟩) (outsAt c n (Nat.lt_of_succ_lt hn)).2.1 (outsAt c n (Nat.lt_of_succ_lt hn)).2.2)
    else
      (outIdle, posMid c (grid0.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) (ms_4 ⟨n + 1, hn⟩) (hs_4 ⟨n + 1, hn⟩) scPos (Memref.isWhole_whole _) scTot (Memref.isWhole_whole _) (fun h => h0 ((hcondFirst ⟨n + 1, hn⟩).mp h)) (fun h => h1 ((hcondLast ⟨n + 1, hn⟩).mp h)) (iblk m c 0 ⟨n + 1, hn⟩) (iblk m c 1 ⟨n + 1, hn⟩) (iblk m c 2 ⟨n + 1, hn⟩) (iblk m c 3 ⟨n + 1, hn⟩) (outsAt c n (Nat.lt_of_succ_lt hn)).2.1 (outsAt c n (Nat.lt_of_succ_lt hn)).2.2, totMid c (grid0.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) (ms_4 ⟨n + 1, hn⟩) (hs_4 ⟨n + 1, hn⟩) scPos (Memref.isWhole_whole _) scTot (Memref.isWhole_whole _) (fun h => h0 ((hcondFirst ⟨n + 1, hn⟩).mp h)) (fun h => h1 ((hcondLast ⟨n + 1, hn⟩).mp h)) (iblk m c 0 ⟨n + 1, hn⟩) (iblk m c 1 ⟨n + 1, hn⟩) (iblk m c 2 ⟨n + 1, hn⟩) (iblk m c 3 ⟨n + 1, hn⟩) (outsAt c n (Nat.lt_of_succ_lt hn)).2.1 (outsAt c n (Nat.lt_of_succ_lt hn)).2.2)

theorem outsAt_first (c : Dev nD) (t : Fin cfg0.N) (h0 : t.val % 8 = 0) :
    outsAt m c t.val t.isLt = (outIdle, posFirst c (grid0.coords t) (ms_0 t) (hs_0 t) (ms_1 t) (hs_1 t) (ms_2 t) (hs_2 t) (ms_3 t) (hs_3 t) (ms_4 t) (hs_4 t) scPos (Memref.isWhole_whole _) scTot (Memref.isWhole_whole _) ((hcondFirst t).mpr h0) (fun h => by have := (hcondLast t).mp h; omega) (iblk m c 0 t) (iblk m c 1 t) (iblk m c 2 t) (iblk m c 3 t), totFirst c (grid0.coords t) (ms_0 t) (hs_0 t) (ms_1 t) (hs_1 t) (ms_2 t) (hs_2 t) (ms_3 t) (hs_3 t) (ms_4 t) (hs_4 t) scPos (Memref.isWhole_whole _) scTot (Memref.isWhole_whole _) ((hcondFirst t).mpr h0) (fun h => by have := (hcondLast t).mp h; omega) (iblk m c 0 t) (iblk m c 1 t) (iblk m c 2 t) (iblk m c 3 t)) := by
  obtain ⟨n, hn⟩ := t
  cases n with
  | zero => exact rfl
  | succ n => exact (dif_pos h0).trans rfl

theorem outsAt_mid (c : Dev nD) (t : Fin cfg0.N) (h0 : ¬t.val % 8 = 0) (h1 : ¬t.val % 8 = 7) :
    outsAt m c t.val t.isLt = (outIdle, posMid c (grid0.coords t) (ms_0 t) (hs_0 t) (ms_1 t) (hs_1 t) (ms_2 t) (hs_2 t) (ms_3 t) (hs_3 t) (ms_4 t) (hs_4 t) scPos (Memref.isWhole_whole _) scTot (Memref.isWhole_whole _) (fun h => h0 ((hcondFirst t).mp h)) (fun h => h1 ((hcondLast t).mp h)) (iblk m c 0 t) (iblk m c 1 t) (iblk m c 2 t) (iblk m c 3 t) (outsAt m c (t.val - 1) (Nat.lt_of_le_of_lt (Nat.sub_le _ _) t.isLt)).2.1 (outsAt m c (t.val - 1) (Nat.lt_of_le_of_lt (Nat.sub_le _ _) t.isLt)).2.2, totMid c (grid0.coords t) (ms_0 t) (hs_0 t) (ms_1 t) (hs_1 t) (ms_2 t) (hs_2 t) (ms_3 t) (hs_3 t) (ms_4 t) (hs_4 t) scPos (Memref.isWhole_whole _) scTot (Memref.isWhole_whole _) (fun h => h0 ((hcondFirst t).mp h)) (fun h => h1 ((hcondLast t).mp h)) (iblk m c 0 t) (iblk m c 1 t) (iblk m c 2 t) (iblk m c 3 t) (outsAt m c (t.val - 1) (Nat.lt_of_le_of_lt (Nat.sub_le _ _) t.isLt)).2.1 (outsAt m c (t.val - 1) (Nat.lt_of_le_of_lt (Nat.sub_le _ _) t.isLt)).2.2) := by
  obtain ⟨n, hn⟩ := t
  cases n with
  | zero => exact absurd (Nat.zero_mod _) h0
  | succ n => exact (dif_neg h0).trans ((dif_neg h1).trans rfl)

theorem outsAt_last (c : Dev nD) (t : Fin cfg0.N) (h0 : ¬t.val % 8 = 0) (h1 : t.val % 8 = 7) :
    outsAt m c t.val t.isLt = (outLast c (grid0.coords t) (ms_0 t) (hs_0 t) (ms_1 t) (hs_1 t) (ms_2 t) (hs_2 t) (ms_3 t) (hs_3 t) (ms_4 t) (hs_4 t) scPos (Memref.isWhole_whole _) scTot (Memref.isWhole_whole _) (fun h => h0 ((hcondFirst t).mp h)) ((hcondLast t).mpr h1) (iblk m c 0 t) (iblk m c 1 t) (iblk m c 2 t) (iblk m c 3 t) (outsAt m c (t.val - 1) (Nat.lt_of_le_of_lt (Nat.sub_le _ _) t.isLt)).2.1 (outsAt m c (t.val - 1) (Nat.lt_of_le_of_lt (Nat.sub_le _ _) t.isLt)).2.2, posLast c (grid0.coords t) (ms_0 t) (hs_0 t) (ms_1 t) (hs_1 t) (ms_2 t) (hs_2 t) (ms_3 t) (hs_3 t) (ms_4 t) (hs_4 t) scPos (Memref.isWhole_whole _) scTot (Memref.isWhole_whole _) (fun h => h0 ((hcondFirst t).mp h)) ((hcondLast t).mpr h1) (iblk m c 0 t) (iblk m c 1 t) (iblk m c 2 t) (iblk m c 3 t) (outsAt m c (t.val - 1) (Nat.lt_of_le_of_lt (Nat.sub_le _ _) t.isLt)).2.1 (outsAt m c (t.val - 1) (Nat.lt_of_le_of_lt (Nat.sub_le _ _) t.isLt)).2.2, totLast c (grid0.coords t) (ms_0 t) (hs_0 t) (ms_1 t) (hs_1 t) (ms_2 t) (hs_2 t) (ms_3 t) (hs_3 t) (ms_4 t) (hs_4 t) scPos (Memref.isWhole_whole _) scTot (Memref.isWhole_whole _) (fun h => h0 ((hcondFirst t).mp h)) ((hcondLast t).mpr h1) (iblk m c 0 t) (iblk m c 1 t) (iblk m c 2 t) (iblk m c 3 t) (outsAt m c (t.val - 1) (Nat.lt_of_le_of_lt (Nat.sub_le _ _) t.isLt)).2.1 (outsAt m c (t.val - 1) (Nat.lt_of_le_of_lt (Nat.sub_le _ _) t.isLt)).2.2) := by
  obtain ⟨n, hn⟩ := t
  cases n with
  | zero => exact absurd (Nat.zero_mod _) h0
  | succ n => exact (dif_neg h0).trans ((dif_pos h1).trans rfl)

/-! ## The invariant and the proof data -/

/-- Before position `n`: at the very first point the class's invariant (both running sums' buffers at anything);
    afterwards both buffers at what the point before left, and the generator register at some state. -/
def PhiS (c : Dev nD) : (n : ℕ) → n ≤ cfg0.N → sProp 𝕄
  | 0, _ => Pipeline.ΦA spec0 c
  | n + 1, hn => iprop(iprop(owns (c : Thread nD τ) scPos fullShare ((outsAt m c n hn).2.1) ∗ owns (c : Thread nD τ) scTot fullShare ((outsAt m c n hn).2.2)) ∗ (∃ r, prngReg c r))

theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) :
    PhiS m c (n + 1) hn = iprop(iprop(owns (c : Thread nD τ) scPos fullShare ((outsAt m c n hn).2.1) ∗ owns (c : Thread nD τ) scTot fullShare ((outsAt m c n hn).2.2)) ∗ (∃ r, prngReg c r)) := rfl
theorem PhiS_pos (c : Dev nD) (n : ℕ) (h : n ≤ cfg0.N) (hz : n ≠ 0) :
    PhiS m c n h = iprop(iprop(owns (c : Thread nD τ) scPos fullShare ((outsAt m c (n - 1) (by omega)).2.1) ∗ owns (c : Thread nD τ) scTot fullShare ((outsAt m c (n - 1) (by omega)).2.2)) ∗ (∃ r, prngReg c r)) := by
  cases n with
  | zero => exact absurd rfl hz
  | succ n => rfl

/-- The proof data: the arrays as the region finds them; after the body each input's buffer at its block and the
    output's at `outsAt`; the two windows on the normalised features hold it at one half share each. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt m c t.val t.isLt).1
  Φ t := PhiS m c t.val (Nat.le_of_lt_succ t.isLt)
  q w := match w with
    | ⟨0, _⟩ => fullShare.left
    | ⟨1, _⟩ => fullShare.right
    | _ => fullShare
  owed _ := 0

theorem A_eq (c : Dev nD) (w : Fin cfg0.W) : (dats m 0 c).A w = V m c (Pipeline.arrRef spec0 w) := by
  dsimp only [dats]
theorem PhiS_castSucc (c : Dev nD) (t : Fin cfg0.N) :
    (dats m 0 c).Φ t.castSucc = PhiS m c t.val (Nat.le_of_lt t.isLt) := by
  dsimp only [dats]; simp only [Fin.coe_castSucc]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = (outsAt m c t.val t.isLt).1 := by dsimp only [dats]
theorem before_0 (c : Dev nD) (t : Fin cfg0.N) (d) : (dats m 0 c).before 0 t d = iblk m c 0 t := before_0_of m (dats m 0 c) (A_eq m c 0) (after_0 m c) t d
theorem before_1 (c : Dev nD) (t : Fin cfg0.N) (d) : (dats m 0 c).before 1 t d = iblk m c 1 t := before_1_of m (dats m 0 c) (A_eq m c 1) (after_1 m c) t d
theorem before_2 (c : Dev nD) (t : Fin cfg0.N) (d) : (dats m 0 c).before 2 t d = iblk m c 2 t := before_2_of m (dats m 0 c) (A_eq m c 2) (after_2 m c) t d
theorem before_3 (c : Dev nD) (t : Fin cfg0.N) (d) : (dats m 0 c).before 3 t d = iblk m c 3 t := before_3_of m (dats m 0 c) (A_eq m c 3) (after_3 m c) t d

end Cert.KernelIdeal.Hand

end
-- ==== Proof.KI.Frame.lean ====
import proofs.«117188_j4672924418475_2_alg».proof.Proof.KI.Data
import proofs.«117188_j4672924418475_2_alg».proof.Proof.LibSharedLaunch

/-!
# The body obligation, the run and the frame

At every point the body is handed the four inputs' buffers at their blocks, the output's buffer, and — through the
invariant — the two running sums' buffers at what the point before left; the point's case (first, middle or last
column step) says which run applies, and the run's pieces are what `outsAt` names. The normalised features' array is
held by its two windows at one half share each: the whole buffer splits into the halves at the region's entry and
the halves, still at the same contents, make the whole again at its exit.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms_0 t) fullShare ((dats m 0 c).before 0 t d))
    ∗ (∃ d, owns (c : Thread nD τ) (ms_1 t) fullShare ((dats m 0 c).before 1 t d))
    ∗ (∃ d, owns (c : Thread nD τ) (ms_2 t) fullShare ((dats m 0 c).before 2 t d))
    ∗ (∃ d, owns (c : Thread nD τ) (ms_3 t) fullShare ((dats m 0 c).before 3 t d))
    ∗ (∃ d, owns (c : Thread nD τ) (ms_4 t) fullShare ((dats m 0 c).before 4 t d)))

def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t
    ∗ (dats m 0 c).leavesExact 3 t ∗ (dats m 0 c).leavesExact 4 t)

set_option maxHeartbeats 8000000 in
/-- The body at any point: the inputs' buffers hold their blocks; `t % 8` says which case the point is in; the
    invariant hands the body the two running sums' buffers (at anything at the very first point, else at what the
    point before left) and takes them back at this point's contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3]
  rw [show (dats m 0 c).owesAt () t.succ = (dats m 0 c).owesAt () t.castSucc from rfl]
  rw [show (dats m 0 c).Φ t.succ = PhiS m c (t.val + 1) t.isLt from rfl, PhiS_succ]
  have hN : t.val < 64 := lt_of_lt_of_eq t.isLt (show cfg0.N = 64 from N_0)
  rw [show (dats m 0 c).leavesExact 0 t = owns (c : Thread nD τ) (ms_0 t) fullShare ((dats m 0 c).after 0 t) from by
    unfold Dat.leavesExact; rw [liveAt_0 t], after_0]
  rw [show (dats m 0 c).leavesExact 1 t = owns (c : Thread nD τ) (ms_1 t) fullShare ((dats m 0 c).after 1 t) from by
    unfold Dat.leavesExact; rw [liveAt_1 t], after_1]
  rw [show (dats m 0 c).leavesExact 2 t = owns (c : Thread nD τ) (ms_2 t) fullShare ((dats m 0 c).after 2 t) from by
    unfold Dat.leavesExact; rw [liveAt_2 t], after_2]
  rw [show (dats m 0 c).leavesExact 3 t = owns (c : Thread nD τ) (ms_3 t) fullShare ((dats m 0 c).after 3 t) from by
    unfold Dat.leavesExact; rw [liveAt_3 t], after_3]
  by_cases h0 : t.val % 8 = 0
  · have h1 : ¬t.val % 8 = 7 := by omega
    rw [Dat.leavesExact_idle (dats m 0 c) 4 t (idleAt_4 t (fun h => h1 ((hcondLast t).mp h))) (noFlush_4 t (fun h => h1 ((hcondLast t).mp h)))]
    rw [outsAt_first m c t h0]
    unfold posFirst totFirst; (try dsimp only)
    by_cases hz : t.val = 0
    · rw [PhiS_castSucc m c t, PhiS_zero m c _ _ hz, PhiA_eq]
      iintro ⟨⟨⟨HS0, HS1⟩, Hg⟩, Ho, ⟨%d0, H0⟩, ⟨%d1, H1⟩, ⟨%d2, H2⟩, ⟨%d3, H3⟩, ⟨%d4, H4⟩⟩
      iapply ((runFirst c (grid0.coords t) _ _ _ _ _ _ _ _ _ _ _ _ _ _ ((hcondFirst t).mpr h0) (fun h => h1 ((hcondLast t).mp h)) (iblk m c 0 t) (iblk m c 1 t) (iblk m c 2 t) (iblk m c 3 t)).2.2 _ Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      iintro ⟨H0, H1, H2, H3, H4, ⟨%es0, HS0⟩, ⟨%es1, HS1⟩⟩
      isplitl [HS0 HS1 Hg]
      · isplitl [HS0 HS1]
        · isplitl [HS0]
          · unfold owns; iexists _; isplitr
            swap; · iexact HS0
            ipureintro; exact View.read_writes_of_cover _ _ _ _ _ (coverFirst_pos c _ _ _ _ _ _ _ _ _ _ _ _ _ _ _ _ _ _ _ _ _)
          · unfold owns; iexists _; isplitr
            swap; · iexact HS1
            ipureintro; exact View.read_writes_of_cover _ _ _ _ _ (coverFirst_tot c _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      iexists _; iexact H4
    · rw [PhiS_castSucc m c t, PhiS_pos m c _ _ hz]
      iintro ⟨⟨⟨HS0, HS1⟩, Hg⟩, Ho, ⟨%d0, H0⟩, ⟨%d1, H1⟩, ⟨%d2, H2⟩, ⟨%d3, H3⟩, ⟨%d4, H4⟩⟩
      iapply ((runFirst c (grid0.coords t) _ _ _ _ _ _ _ _ _ _ _ _ _ _ ((hcondFirst t).mpr h0) (fun h => h1 ((hcondLast t).mp h)) (iblk m c 0 t) (iblk m c 1 t) (iblk m c 2 t) (iblk m c 3 t)).2.2 _ Set.univ _)
      isplitl [H0]; · iexact H0
      isplitl [H1]; · iexact H1
      isplitl [H2]; · iexact H2
      isplitl [H3]; · iexact H3
      isplitl [H4]; · iexact H4
      isplitl [HS0]; · iexists _; iexact HS0
      isplitl [HS1]; · iexists _; iexact HS1
      iintro ⟨H0, H1, H2, H3, H4, ⟨%es0, HS0⟩, ⟨%es1, HS1⟩⟩
      isplitl [HS0 HS1 Hg]
      · isplitl [HS0 HS1]
        · isplitl [HS0]
          · unfold owns; iexists _; isplitr
            swap; · iexact HS0
            ipureintro; exact View.read_writes_of_cover _ _ _ _ _ (coverFirst_pos c _ _ _ _ _ _ _ _ _ _ _ _ _ _ _ _ _ _ _ _ _)
          · unfold owns; iexists _; isplitr
            swap; · iexact HS1
            ipureintro; exact View.read_writes_of_cover _ _ _ _ _ (coverFirst_tot c _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      iexists _; iexact H4
  · have hz : t.val ≠ 0 := fun e => h0 (by rw [e])
    by_cases h1 : t.val % 8 = 7
    · rw [show (dats m 0 c).leavesExact 4 t = owns (c : Thread nD τ) (ms_4 t) fullShare ((dats m 0 c).after 4 t) from by
        unfold Dat.leavesExact; rw [liveAt_4 t ((hcondLast t).mpr h1)], after_4]
      rw [outsAt_last m c t h0 h1]
      unfold outLast posLast totLast; (try dsimp only)
      rw [PhiS_castSucc m c t, PhiS_pos m c _ _ hz]
      iintro ⟨⟨⟨HS0, HS1⟩, Hg⟩, Ho, ⟨%d0, H0⟩, ⟨%d1, H1⟩, ⟨%d2, H2⟩, ⟨%d3, H3⟩, ⟨%d4, H4⟩⟩
      iapply ((runLast c (grid0.coords t) _ _ _ _ _ _ _ _ _ _ _ _ _ _ (fun h => h0 ((hcondFirst t).mp h)) ((hcondLast t).mpr h1) (iblk m c 0 t) (iblk m c 1 t) (iblk m c 2 t) (iblk m c 3 t) _ _).2.2.2 Set.univ _)
      isplitl [H0]; · iexact H0
      isplitl [H1]; · iexact H1
      isplitl [H2]; · iexact H2
      isplitl [H3]; · iexact H3
      isplitl [H4]; · iexists _; iexact H4
      isplitl [HS0]; · iexact HS0
      isplitl [HS1]; · iexact HS1
      iintro ⟨H0, H1, H2, H3, ⟨%e4, H4⟩, ⟨%es0, HS0⟩, ⟨%es1, HS1⟩⟩
      isplitl [HS0 HS1 Hg]
      · isplitl [HS0 HS1]
        · isplitl [HS0]
          · unfold owns; iexists _; isplitr
            swap; · iexact HS0
            ipureintro; exact View.read_writes_of_cover _ _ _ _ _ (coverLast_pos c _ _ _ _ _ _ _ _ _ _ _ _ _ _ _ _ _ _ _ _ _ _ _)
          · unfold owns; iexists _; isplitr
            swap; · iexact HS1
            ipureintro; exact View.read_writes_of_cover _ _ _ _ _ (coverLast_tot c _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (coverLast_out c _ _ _ _ _ _ _ _ _ _ _ _ _ _ _ _ _ _ _ _ _ _ _)
    · rw [Dat.leavesExact_idle (dats m 0 c) 4 t (idleAt_4 t (fun h => h1 ((hcondLast t).mp h))) (noFlush_4 t (fun h => h1 ((hcondLast t).mp h)))]
      rw [outsAt_mid m c t h0 h1]
      unfold posMid totMid; (try dsimp only)
      rw [PhiS_castSucc m c t, PhiS_pos m c _ _ hz]
      iintro ⟨⟨⟨HS0, HS1⟩, Hg⟩, Ho, ⟨%d0, H0⟩, ⟨%d1, H1⟩, ⟨%d2, H2⟩, ⟨%d3, H3⟩, ⟨%d4, H4⟩⟩
      iapply ((runMid c (grid0.coords t) _ _ _ _ _ _ _ _ _ _ _ _ _ _ (fun h => h0 ((hcondFirst t).mp h)) (fun h => h1 ((hcondLast t).mp h)) (iblk m c 0 t) (iblk m c 1 t) (iblk m c 2 t) (iblk m c 3 t) _ _).2.2 _ Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      iintro ⟨H0, H1, H2, H3, H4, ⟨%es0, HS0⟩, ⟨%es1, HS1⟩⟩
      isplitl [HS0 HS1 Hg]
      · isplitl [HS0 HS1]
        · isplitl [HS0]
          · unfold owns; iexists _; isplitr
            swap; · iexact HS0
            ipureintro; exact View.read_writes_of_cover _ _ _ _ _ (coverMid_pos c _ _ _ _ _ _ _ _ _ _ _ _ _ _ _ _ _ _ _ _ _ _ _)
          · unfold owns; iexists _; isplitr
            swap; · iexact HS1
            ipureintro; exact View.read_writes_of_cover _ _ _ _ _ (coverMid_tot c _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives the class's back: the running sums' contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA_eq]
  iintro ⟨⟨HS0, HS1⟩, Hg⟩
  isplitl [HS0 HS1]
  · isplitl [HS0]
    · iexists _; iexact HS0
    · iexists _; iexact HS1
  iexact Hg

theorem hout (c : Dev nD) : (dats m 0 c).Φ (Fin.last cfg0.N) ⊢ Pipeline.ΦA spec0 c :=
  Phi_out m c _ (by rw [Fin.val_last]; have : cfg0.N = 64 := N_0; omega)

/-! ## One array, two windows -/

/-- The buffers behind the windows' arrays, each whole, are the windows' holdings at any contents on which the two
    windows of the normalised features agree: that buffer's full share is its two halves. -/
theorem hdeal (c : Dev nD) (Vv : (b : Ref sig .tc) → Buf (Elt F) ((c.tc : Thread nD τ).loc b))
    (G : (w : Fin cfg0.W) → Buf (Elt F) ((cfg0.spec w).arr.view.loc (c.tc : Thread nD τ)))
    (hG : ∀ w, G w = Vv (Pipeline.arrRef spec0 w)) :
    (Pipeline.arrBufs (Ix := Unit) (Name := ℕ) (U := UR sig nD τ) (Lvl := ℕ) spec0 c Vv : sProp 𝕄) ⊣⊢ (dats m 0 c).arrays G := by
  have hb : (Pipeline.arrBufs (Ix := Unit) (Name := ℕ) (U := UR sig nD τ) (Lvl := ℕ) spec0 c Vv : sProp 𝕄)
      = iprop((((c : Thread nD τ).loc main_v5) ↦{fullShare} Vv main_v5) ∗ (((c : Thread nD τ).loc main_v6) ↦{fullShare} Vv main_v6)
          ∗ (((c : Thread nD τ).loc main_v7) ↦{fullShare} Vv main_v7) ∗ (((c : Thread nD τ).loc main_v8) ↦{fullShare} Vv main_v8)) := by
    unfold Pipeline.arrBufs
    exact bigSep_eq_bigSepL_of_eq [main_v5, main_v6, main_v7, main_v8] (by decide) (by decide) _
  have ha : (dats m 0 c).arrays G
      = iprop((((c : Thread nD τ).loc main_v5) ↦{fullShare.left} Vv main_v5) ∗ (((c : Thread nD τ).loc main_v5) ↦{fullShare.right} Vv main_v5)
          ∗ (((c : Thread nD τ).loc main_v6) ↦{fullShare} Vv main_v6) ∗ (((c : Thread nD τ).loc main_v7) ↦{fullShare} Vv main_v7)
          ∗ (((c : Thread nD τ).loc main_v8) ↦{fullShare} Vv main_v8)) := by
    unfold Dat.arrays
    rw [bigSep_W0, hG 0, hG 1, hG 2, hG 3, hG 4, (arr_whole0 0).set_eq_univ, (arr_whole0 2).set_eq_univ,
      (arr_whole0 3).set_eq_univ, (arr_whole0 4).set_eq_univ]
    rfl
  rw [hb, ha]
  constructor
  · iintro ⟨H5, H6, H7, H8⟩
    ihave H5 := (pointsTo_share (PosShare.mem_left_op_right fullShare)).1 $$ H5
    icases H5 with ⟨Ha, Hb⟩
    isplitl [Ha]; · iexact Ha
    isplitl [Hb]; · iexact Hb
    isplitl [H6]; · iexact H6
    isplitl [H7]; · iexact H7
    iexact H8
  · iintro ⟨Ha, Hb, H6, H7, H8⟩
    isplitl [Ha Hb]
    · iapply (pointsTo_share (PosShare.mem_left_op_right fullShare)).2
      isplitl [Ha]; · iexact Ha
      iexact Hb
    isplitl [H6]; · iexact H6
    isplitl [H7]; · iexact H7
    iexact H8

/-! ## The contents at the region's exit -/

open Classical in
/-- Core `c`'s buffer contents when the region is left: the output array at what the write-backs made of it, every
    other buffer as the region found it. -/
def V1 (c : Dev nD) : Valuation τ sig (Elt F) :=
  Function.update (V0 m c) (Proc.devRef .tc main_v8) ((dats m 0 c).arrAt 4 cfg0.N)

theorem hV1 (c : Dev nD) (w : Fin cfg0.W) : (dats m 0 c).arrAt w cfg0.N = V1 m c (Proc.devRef .tc (Pipeline.arrRef spec0 w)) := by
  classical
  unfold V1
  have h8 : ∀ b : Ref sig .tc, b ≠ main_v8 → Function.update (V0 m c) (Proc.devRef .tc main_v8) ((dats m 0 c).arrAt 4 cfg0.N) (Proc.devRef .tc b)
      = V0 m c (Proc.devRef .tc b) :=
    fun b hb => Function.update_of_ne (fun e => hb (Proc.devRef_injective _ e)) _ _
  match w with
  | ⟨0, _⟩ => exact ((dats m 0 c).arrAt_in 0 rfl _).trans (h8 main_v5 (by decide)).symm
  | ⟨1, _⟩ => exact ((dats m 0 c).arrAt_in 1 rfl _).trans (h8 main_v5 (by decide)).symm
  | ⟨2, _⟩ => exact ((dats m 0 c).arrAt_in 2 rfl _).trans (h8 main_v6 (by decide)).symm
  | ⟨3, _⟩ => exact ((dats m 0 c).arrAt_in 3 rfl _).trans (h8 main_v7 (by decide)).symm
  | ⟨4, _⟩ => exact (Function.update_self (Proc.devRef .tc main_v8) _ (V0 m c)).symm

theorem hrest (c : Dev nD) : ∀ b ∈ Pipeline.restRefs sig spec0, V1 m c (Proc.devRef .tc b) = V0 m c (Proc.devRef .tc b) := by
  classical
  intro b hb
  unfold V1
  refine Function.update_of_ne (fun e => ?_) _ _
  have hb' := (Finset.mem_sdiff.mp hb).2
  exact hb' (Finset.mem_image.mpr ⟨4, Finset.mem_univ _, (Proc.devRef_injective _ e).symm⟩)

/-! ## The run and the frame -/

set_option backward.isDefEq.respectTransparency.types false in
/-- Every weakly fair execution of @main terminates, and ends with every array of the pipeline at what the library
    computes from the proof data and every other unscoped buffer as the mean's lines leave it. -/
theorem run_main : θ_run defs (onTc (τ := τ) (main (F := F))) (s₀ m ρ)
    (Pipeline.FramePost cfgs (dats m) 0 (fun c b => StableHlo.after ([hostOps1] : List (List (HloOp τ sig (Elt F)))).flatten (V1 m c) (Proc.devRef .tc b))) :=
  Pipeline.θ_run_frame_around_track_shared cfgs (dats m) (0 : Fin 1) defs₀ Variants.none cellOf_inj winFacts₀0 block_pos0 arr_whole0 stage_whole0 m ρ main
    (hbody := fun c => (body_obligation m c).loose) (howed := fun _ _ => rfl) (V₀ := V0 m) (V₁ := V1 m) (opss := [hostOps1])
    (hsub := sfx_sub) (hfresh := sfx_fresh) (hkeep := sfx_keeps) (hmain := hmain m Variants.none)
    (hdeal := hdeal m) (hA := A_eq m) (hV₁ := hV1 m) (hrest := hrest m) (hin := hin m) (hout := hout m)

end Cert.KernelIdeal.Hand

end
-- ==== Proof.KI.Claim.lean ====
import proofs.«117188_j4672924418475_2_alg».proof.Proof.KI.Frame
import Idealize.ShloMosaic.Lib.StableHlo.Run

/-! The frame: no host line and no write-back touches the two argument arrays, so they end as they began. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.Sem
open Idealize.ShloMosaic.Pipeline (Dat Cfg Window)

variable {F : FTy → Type} [FloatOps F] [Named F]

variable (m : (ℓ : Loc nD τ sig) → Buf (Elt F) ℓ) (ρ : Dev nD → PrngReg)

/-- The lines before the region write neither argument. -/
theorem V0_arg0 (c : Dev nD) : V0 m c (Proc.devRef .tc main_arg0) = m ((c.tc : Thread nD τ).loc main_arg0) := by
  dsimp only [V0]
  simp only [hostOps0, hostOps0_1, List.flatten_cons, List.flatten_nil, List.append_nil, List.cons_append, List.nil_append]
  after_results
theorem V0_arg1 (c : Dev nD) : V0 m c (Proc.devRef .tc main_arg1) = m ((c.tc : Thread nD τ).loc main_arg1) := by
  dsimp only [V0]
  simp only [hostOps0, hostOps0_1, List.flatten_cons, List.flatten_nil, List.append_nil, List.cons_append, List.nil_append]
  after_results

/-- Nor do the mean's lines, and the region writes back into the output array only. -/
theorem kept_arg0 (c : Dev nD) :
    StableHlo.after ([hostOps1] : List (List (HloOp τ sig (Elt F)))).flatten (V1 m c) (Proc.devRef .tc main_arg0) = m ((c.tc : Thread nD τ).loc main_arg0) := by
  have h : StableHlo.after ([hostOps1] : List (List (HloOp τ sig (Elt F)))).flatten (V1 m c) (Proc.devRef .tc main_arg0) = V1 m c (Proc.devRef .tc main_arg0) := by
    simp only [hostOps1, List.flatten_cons, List.flatten_nil, List.append_nil]
    after_results
  rw [h, hrest m c main_arg0 (Pipeline.mem_restRefs_of _ rfl (by decide)), V0_arg0]
theorem kept_arg1 (c : Dev nD) :
    StableHlo.after ([hostOps1] : List (List (HloOp τ sig (Elt F)))).flatten (V1 m c) (Proc.devRef .tc main_arg1) = m ((c.tc : Thread nD τ).loc main_arg1) := by
  have h : StableHlo.after ([hostOps1] : List (List (HloOp τ sig (Elt F)))).flatten (V1 m c) (Proc.devRef .tc main_arg1) = V1 m c (Proc.devRef .tc main_arg1) := by
    simp only [hostOps1, List.flatten_cons, List.flatten_nil, List.append_nil]
    after_results
  rw [h, hrest m c main_arg1 (Pipeline.mem_restRefs_of _ rfl (by decide)), V0_arg1]

/-- Every weakly fair execution of @main terminates, faults nowhere, and leaves the two argument arrays as they were. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_arg0 (Pipeline.mem_restRefs_of _ rfl (by decide))).trans (kept_arg0 m c),
     ((h c).2 main_arg1 (Pipeline.mem_restRefs_of _ rfl (by decide))).trans (kept_arg1 m c)⟩) (run_main m ρ)

end Cert.KernelIdeal.Hand

end
-- ==== Proof.Norm.lean ====
import proofs.«117188_j4672924418475_2_alg».proof.Proof.Gen.ReferenceIdeal
import Idealize.ShloMosaic.Lib.Pipeline.Value
import Idealize.ShloMosaic.Lib.ValueIdx
import Idealize.ShloMosaic.PureOps.Ideal.Laws

noncomputable section

namespace Cert.Contrastive

open Cert.ReferenceIdeal Cert.ReferenceIdeal.Gen Idealize.ShloMosaic Idealize.ShloMosaic.ValueIdx
open scoped BigOperators

/-- The shared normalisation: every row of the array divided by the larger of the row's Euclidean norm
    (the square root of the sum of the squares of its 256 entries) and a tiny positive constant. -/
def normF (X : FVec Ideal S8192x256 .f32) : FVec Ideal S8192x256 .f32 :=
  Host.divf (F := Ideal) X
    (broadcastInDim S8192x256 ![0, 1] bcast_S8192x1_S8192x256_0_1
      (maximumf
        (Host.sqrt (F := Ideal)
          (broadcastInDim S8192x1 ![0] bcast_S8192_S8192x1_0
            (Host.reduceAdd (F := Ideal) (mulf X X) (constant (F := Ideal) S_ .f32 0x00000000#32)
              reducesTo_S8192x256_S8192_d1 h_S_)))
        (broadcastInDim S8192x1 ![] bcast_S_S8192x1 (constant (F := Ideal) S_ .f32 0x2B8CBCCC#32))))

/-! ### The stages of the normalisation read at an index -/

/-- A column vector spread along the rows reads, at row `i` and any column, its entry of row `i`. -/
theorem spread_col_apply {α : Type} (y : S8192x1.Idx → α) (i : Fin 8192) (k : Fin 256) :
    broadcastInDim S8192x256 ![0, 1] bcast_S8192x1_S8192x256_0_1 y (ix2 i k) = y (ix2 i (0 : Fin 1)) :=
  broadcastInDim_apply _ bcast_S8192x1_S8192x256_0_1 y (ix2 i k) (ix2 i (0 : Fin 1)) (fun a => match a with
    | ⟨0, _⟩ => by show i.val = if (8192 : Nat) = 1 then 0 else i.val; rw [if_neg (by decide)]
    | ⟨1, _⟩ => by show 0 = if (1 : Nat) = 1 then 0 else k.val; rw [if_pos rfl])

/-- A vector of row values made a column reads, at row `i`, the value of row `i`. -/
theorem as_col_apply {α : Type} (y : S8192.Idx → α) (i : Fin 8192) (z : Fin 1) :
    broadcastInDim S8192x1 ![0] bcast_S8192_S8192x1_0 y (ix2 i z) = y (ix1 i) :=
  broadcastInDim_apply _ bcast_S8192_S8192x1_0 y (ix2 i z) (ix1 i) (fun a => match a with
    | ⟨0, _⟩ => by show i.val = if (8192 : Nat) = 1 then 0 else i.val; rw [if_neg (by decide)])

/-- A scalar spread over a column reads the scalar everywhere. -/
theorem spread_scalar_apply {α : Type} (y : S_.Idx → α) (j : S8192x1.Idx) :
    broadcastInDim S8192x1 ![] bcast_S_S8192x1 y j = y ix0 :=
  broadcastInDim_apply _ bcast_S_S8192x1 y j ix0 (fun a => a.elim0)

/-- The sum along a row, from an initial value: the initial value plus the sum of the row's 256 entries. -/
theorem row_sum_apply (y : FVec Ideal S8192x256 .f32) (c : S_.Idx → EReal) (i : Fin 8192) :
    Host.reduceAdd (F := Ideal) y c reducesTo_S8192x256_S8192_d1 h_S_ (ix1 i)
      = c (Shape.Idx.first h_S_) + ∑ k : Fin 256, y (ix2 i k) := by
  simp only [Host.reduceAdd, Ideal.hostReduceAdd_def]
  rw [Ideal.hostReduceAdd_single reducesTo_S8192x256_S8192_d1 (by decide)]
  refine congrArg (_ + ·) (Finset.sum_congr rfl fun k _ => ?_)
  exact congrArg y (funext fun a => Fin.ext (by match a with | ⟨0, _⟩ => rfl | ⟨1, _⟩ => rfl))

/-- The sum of the squares of row `i`. -/
def sumSq (X : FVec Ideal S8192x256 .f32) (i : Fin 8192) : EReal := ∑ k : Fin 256, X (ix2 i k) * X (ix2 i k)

/-- The tiny positive constant under the maximum, as an extended real. -/
def tiny : EReal := Ideal.ofBits .f32 0x2B8CBCCC#32

/-- The normalised array at row `i`, column `k`: the entry divided by the larger of the square root of the row's
    sum of squares and the tiny constant. -/
theorem normF_apply (X : FVec Ideal S8192x256 .f32) (i : Fin 8192) (k : Fin 256) :
    normF X (ix2 i k) = Ideal.div (X (ix2 i k)) (max (Ideal.sqrt (sumSq X i)) tiny) := by
  unfold normF
  show Ideal.div (X (ix2 i k)) (broadcastInDim S8192x256 _ bcast_S8192x1_S8192x256_0_1 _ (ix2 i k)) = _
  rw [spread_col_apply]
  show Ideal.div (X (ix2 i k)) (max (Ideal.sqrt (broadcastInDim S8192x1 _ bcast_S8192_S8192x1_0 _ (ix2 i (0 : Fin 1))))
    (broadcastInDim S8192x1 _ bcast_S_S8192x1 _ (ix2 i (0 : Fin 1)))) = _
  rw [as_col_apply, spread_scalar_apply, row_sum_apply]
  show Ideal.div (X (ix2 i k)) (max (Ideal.sqrt (Ideal.ofBits .f32 0x00000000#32 + sumSq X i)) tiny) = _
  rw [Ideal.ofBits_zero_f32, zero_add]

/-! ### Real inputs give real normalised entries -/

/-- A finite sum of real numbers, read in the extended reals, is the real sum. -/
theorem sum_coe_real {ι : Type*} (s : Finset ι) (g : ι → ℝ) :
    ∑ a ∈ s, ((g a : ℝ) : EReal) = ((∑ a ∈ s, g a : ℝ) : EReal) := by
  classical
  induction s using Finset.induction_on with
  | empty => simp
  | insert a s ha ih => rw [Finset.sum_insert ha, Finset.sum_insert ha, ih, EReal.coe_add]

/-- The tiny constant is the positive real `9223372 · 2⁻⁶³` (about `10⁻¹²`). -/
theorem tiny_eq : tiny = (((9223372 : ℝ) * 2 ^ (-63 : ℤ) : ℝ) : EReal) := by
  unfold tiny
  simp [Ideal.ofBits, Ideal.ieee, -EReal.coe_mul]

/-- The tiny constant is a positive real. -/
theorem tiny_pos : ∃ t : ℝ, 0 < t ∧ tiny = (t : EReal) := ⟨_, by positivity, tiny_eq⟩

/-- When every entry of the array is a real number, row `i`'s sum of squares is the (nonnegative) real sum. -/
theorem sumSq_real (X : FVec Ideal S8192x256 .f32) (x : S8192x256.Idx → ℝ) (hx : ∀ j, X j = (x j : EReal))
    (i : Fin 8192) : sumSq X i = ((∑ k : Fin 256, x (ix2 i k) * x (ix2 i k) : ℝ) : EReal) := by
  unfold sumSq
  rw [← sum_coe_real]
  exact Finset.sum_congr rfl fun k _ => by rw [hx, EReal.coe_mul]

/-- When every entry of the array is a real number, so is every entry of the normalised array: a row's sum of squares
    is a nonnegative real, its square root a real, the larger of that and the tiny constant a positive real, and a
    real divided by a positive real is a real. The witness is spelt out for later use. -/
theorem normF_real_apply (X : FVec Ideal S8192x256 .f32) (x : S8192x256.Idx → ℝ) (hx : ∀ j, X j = (x j : EReal))
    (i : Fin 8192) (k : Fin 256) :
    ∃ d : ℝ, 0 < d ∧ normF X (ix2 i k) = ((x (ix2 i k) * (1 / d) : ℝ) : EReal) := by
  obtain ⟨t, ht, htiny⟩ := tiny_pos
  have hnn : (0 : ℝ) ≤ ∑ k' : Fin 256, x (ix2 i k') * x (ix2 i k') :=
    Finset.sum_nonneg fun k' _ => mul_self_nonneg _
  have hpos : (0 : ℝ) < max (Real.sqrt (∑ k' : Fin 256, x (ix2 i k') * x (ix2 i k'))) t := lt_max_of_lt_right ht
  refine ⟨_, hpos, ?_⟩
  rw [normF_apply, sumSq_real X x hx, Ideal.sqrt_coe, if_neg (not_lt.mpr hnn), htiny,
    ← EReal.coe_strictMono.monotone.map_max, hx, Ideal.div_coe hpos.ne', ← EReal.coe_mul]

theorem normF_real (X : FVec Ideal S8192x256 .f32) (hX : ∀ j, ∃ r : ℝ, X j = (r : EReal)) :
    ∀ j, ∃ r : ℝ, normF X j = (r : EReal) := by
  choose x hx using hX
  intro j
  obtain ⟨i, k, rfl⟩ : ∃ (i : Fin 8192) (k : Fin 256), j = ix2 i k := ⟨j 0, j 1, eq_ix2 j⟩
  obtain ⟨d, _, hd⟩ := normF_real_apply X x hx i k
  exact ⟨_, hd⟩

end Cert.Contrastive

end
-- ==== Proof.Spec.lean ====
import Idealize.ShloMosaic.PureOps.Ideal

/-!
# The two computations of the contrastive loss, as functions of the normalised features

`f i k` is entry `k` of the normalised feature row `i` (8192 rows, 256 entries each), `l i` the label of row `i`.
Both sides start from the similarity `sim i j = ∑ k, f i k * f j k` and end in the mean over the rows of a per-row
loss. One side scales the similarity by a constant, keeps per row two sums over the columns taken block by block
(eight blocks of 1024 columns), and takes `log tot - log pos`; the other divides the similarity by the temperature,
sums `e * mask` and `e * (1 - mask)` over all columns at once, and takes `-log (pos / (neg + pos))`.
-/

noncomputable section

namespace Cert.Contrastive

open Idealize.ShloMosaic
open scoped BigOperators

/-- Column `j` of column block `jb`: the index `1024 * jb + j`. -/
def col (jb : Fin 8) (j : Fin 1024) : Fin 8192 := ⟨jb.val * 1024 + j.val, by omega⟩

/-- The scale of the blockwise side: the rational `134217728 / 13421773`, the exact reciprocal of the temperature. -/
def invT : EReal := ((134217728 / 13421773 : ℝ) : EReal)

/-- The temperature: the real number the single-precision pattern `0x3DCCCCCD` denotes (`13421773 / 134217728`). -/
def tempD : EReal := Ideal.ofBits .f32 0x3DCCCCCD#32

/-- The number of rows as a float: what the pattern `0x46000000` denotes (`8192`). -/
def nRows : EReal := Ideal.ofBits .f32 0x46000000#32

/-- The unit of the complementary mask: what the pattern `0x3F800000` denotes (`1`). -/
def oneR : EReal := Ideal.ofBits .f32 0x3F800000#32

variable (f : Fin 8192 → Fin 256 → EReal) (l : Fin 8192 → BitVec 32)

/-- The similarity of rows `i` and `j`: their inner product. -/
def sim (i j : Fin 8192) : EReal := ∑ k : Fin 256, f i k * f j k

/-! ### The blockwise side -/

/-- `exp (sim i j * invT)`. -/
def eK (i j : Fin 8192) : EReal := Ideal.exp (sim f i j * invT)

/-- The same-label part of row `i`'s sum over column block `jb`: a column contributes its exponential when its label
    is row `i`'s, and `0` otherwise. -/
def posBlk (i : Fin 8192) (jb : Fin 8) : EReal :=
  ∑ j : Fin 1024, Scalar.select (IntOp.cmpi .eq (l i) (l (col jb j))) (eK f i (col jb j)) 0

/-- Row `i`'s sum of the exponentials over column block `jb`. -/
def totBlk (i : Fin 8192) (jb : Fin 8) : EReal := ∑ j : Fin 1024, eK f i (col jb j)

/-- Row `i`'s same-label sum: the eight block sums added up. -/
def posK (i : Fin 8192) : EReal := ∑ jb : Fin 8, posBlk f l i jb

/-- Row `i`'s full sum: the eight block sums added up. -/
def totK (i : Fin 8192) : EReal := ∑ jb : Fin 8, totBlk f i jb

/-- Row `i`'s loss: `log tot - log pos`. -/
def lossK (i : Fin 8192) : EReal := Ideal.log (totK f i) - Ideal.log (posK f l i)

/-- The mean of the row losses. -/
def resultK : EReal := Ideal.div (∑ i : Fin 8192, lossK f l i) nRows

/-! ### The all-columns side -/

/-- `exp (sim i j / tempD)`. -/
def eR (i j : Fin 8192) : EReal := Ideal.exp (Ideal.div (sim f i j) tempD)

/-- The mask: `1` when rows `i` and `j` carry the same label, `0` otherwise (the comparison bit read as a number). -/
def maskR (i j : Fin 8192) : EReal := (((IntOp.cmpi .eq (l i) (l j)).toNat : ℝ) : EReal)

/-- Row `i`'s same-label sum: `∑ j, e * mask`. -/
def posR (i : Fin 8192) : EReal := ∑ j : Fin 8192, eR f i j * maskR l i j

/-- Row `i`'s other-label sum: `∑ j, e * (1 - mask)`. -/
def negR (i : Fin 8192) : EReal := ∑ j : Fin 8192, eR f i j * (oneR - maskR l i j)

/-- Row `i`'s full sum, the other-label part first. -/
def totR (i : Fin 8192) : EReal := negR f l i + posR f l i

/-- Row `i`'s loss: `-log (pos / tot)`. -/
def lossR (i : Fin 8192) : EReal := -(Ideal.log (Ideal.div (posR f l i) (totR f l i)))

/-- The mean of the row losses. -/
def resultR : EReal := Ideal.div (∑ i : Fin 8192, lossR f l i) nRows

end Cert.Contrastive

end
-- ==== Proof.KI.HostSides.lean ====
import proofs.«117188_j4672924418475_2_alg».proof.Proof.KI.Frame
import proofs.«117188_j4672924418475_2_alg».proof.Proof.Norm
import proofs.«117188_j4672924418475_2_alg».proof.Proof.Spec
import Idealize.ShloMosaic.Lib.StableHlo.Run
import Idealize.ShloMosaic.Lib.ValueLayout

set_option maxRecDepth 16384

noncomputable section

namespace Cert.KernelIdeal.HandValue

open Cert.KernelIdeal Cert.KernelIdeal.Gen Cert.KernelIdeal.Hand
open Idealize.ShloMosaic Idealize.ShloMosaic.TcCoe Idealize.SL.Sem Idealize.ShloMosaic.StableHlo
open Idealize.ShloMosaic.ValueIdx
open scoped BigOperators

variable (m : (ℓ : Loc nD τ sig) → Buf (Elt Ideal) ℓ) (c : Dev nD)

/-! ### The mean of the row losses -/

/-- The sum of all entries of a one-column array, from zero, divided by the number of rows: the sum of the column's
    8192 entries over the number of rows. -/
theorem mean_apply (A : FVec Ideal S8192x1 .f32) (G : Fin 8192 → EReal) (hG : ∀ i, A (ix2 i (0 : Fin 1)) = G i) :
    Host.divf (F := Ideal)
      (Host.reduceAdd (F := Ideal) A (constant (F := Ideal) S_ .f32 0x00000000#32) reducesTo_S8192x1_S_d0_1 h_S_)
      (constant (F := Ideal) S_ .f32 0x46000000#32)
    = fun _ => Ideal.div (∑ i : Fin 8192, G i) Cert.Contrastive.nRows := by
  funext j
  show Ideal.div (Host.reduceAdd (F := Ideal) A _ reducesTo_S8192x1_S_d0_1 h_S_ j) (Ideal.ofBits .f32 0x46000000#32) = _
  simp only [Host.reduceAdd, Ideal.hostReduceAdd_def]
  rw [Ideal.hostReduceAdd_total reducesTo_S8192x1_S_d0_1 (fun b => b.elim0), sum_idx2]
  show Ideal.div (Ideal.ofBits .f32 0x00000000#32 + ∑ a : Fin 8192, ∑ b : Fin 1, A (ix2 a b)) _ = _
  rw [Ideal.ofBits_zero_f32, zero_add]
  unfold Cert.Contrastive.nRows
  refine congrArg (Ideal.div · _) (Finset.sum_congr rfl fun i _ => ?_)
  rw [Fin.sum_univ_one]
  exact hG i

/-- After the region the program sums the output column and divides by the number of rows. -/
theorem tail_result (G : Fin 8192 → EReal)
    (hG : ∀ i, ((dats m 0 c).arrAt 4 cfg0.N : S8192x1.Idx → EReal) (ix2 i (0 : Fin 1)) = G i) :
    StableHlo.after ([hostOps1] : List (List (HloOp τ sig (Elt Ideal)))).flatten (V1 m c) (Proc.devRef .tc main_v10)
      = fun _ => Ideal.div (∑ i : Fin 8192, G i) Cert.Contrastive.nRows := by
  have hG' : ∀ i, (V1 m c (Proc.devRef .tc main_v8) : S8192x1.Idx → EReal) (ix2 i (0 : Fin 1)) = G i :=
    fun i => (congrFun (hV1 m c 4) (ix2 i (0 : Fin 1))).symm.trans (hG i)
  simp only [hostOps1, List.flatten_cons, List.flatten_nil, List.append_nil]
  after_results
  exact mean_apply _ G hG'

/-! ### The arrays the region finds -/

/-- The operations in front of the region, over a variable array: the shared normalisation, followed by a change of
    float format, which on the extended reals is the identity. -/
theorem prefix_eq (X : FVec Ideal S8192x256 .f32) :
    truncf .bf16
      (Host.divf (F := Ideal) X
        (broadcastInDim S8192x256 ![0, 1] bcast_S8192x1_S8192x256_0_1
          (maximumf
            (Host.sqrt (F := Ideal)
              (broadcastInDim S8192x1 ![0] bcast_S8192_S8192x1_0
                (Host.reduceAdd (F := Ideal) (mulf X X) (constant (F := Ideal) S_ .f32 0x00000000#32)
                  reducesTo_S8192x256_S8192_d1 h_S_)))
            (broadcastInDim S8192x1 ![] bcast_S_S8192x1 (constant (F := Ideal) S_ .f32 0x2B8CBCCC#32)))))
      bitsLt_bf16_f32
    = Cert.Contrastive.normF X := rfl

/-- The features' array as the region finds it: the normalised features. -/
theorem array_v5 :
    (V m c main_v5 : S8192x256.Idx → EReal) = Cert.Contrastive.normF (m ((c.tc : Thread nD τ).loc main_arg0)) := by
  dsimp only [V, V0]
  simp only [hostOps0, hostOps0_1, List.flatten_cons, List.flatten_nil, List.append_nil, List.cons_append,
    List.nil_append]
  after_results
  exact prefix_eq _

theorem entry_v5 (i : Fin 8192) (k : Fin 256) :
    (V m c main_v5 : S8192x256.Idx → EReal) (ix2 i k)
      = Cert.Contrastive.normF (m ((c.tc : Thread nD τ).loc main_arg0)) (ix2 i k) :=
  congrFun (array_v5 m c) (ix2 i k)

/-- The labels as a column, as the region finds them. -/
theorem array_v6 :
    (V m c main_v6 : S8192x1.Idx → BitVec 32)
      = shapeCast S8192x1 (m ((c.tc : Thread nD τ).loc main_arg1) : S8192.Idx → BitVec 32) shapeCasts_S8192_S8192x1 := by
  dsimp only [V, V0]
  simp only [hostOps0, hostOps0_1, List.flatten_cons, List.flatten_nil, List.append_nil, List.cons_append,
    List.nil_append]
  after_results
  rfl

/-- A vector of length `a` recast as an `a`-by-one column reads, at row `i`, the vector's entry `i`: both sit at
    position `i` when the entries are counted row by row. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The label column at row `i` is row `i`'s label. -/
theorem entry_v6 (i : Fin 8192) :
    (V m c main_v6 : S8192x1.Idx → BitVec 32) (ix2 i (0 : Fin 1)) = m ((c.tc : Thread nD τ).loc main_arg1) (ix1 i) := by
  rw [array_v6]
  exact shapeCast_a_a1_apply _ _ _ _

/-- The labels as a row, as the region finds them. -/
theorem array_v7 :
    (V m c main_v7 : S1x8192.Idx → BitVec 32)
      = shapeCast S1x8192 (m ((c.tc : Thread nD τ).loc main_arg1) : S8192.Idx → BitVec 32) shapeCasts_S8192_S1x8192 := by
  dsimp only [V, V0]
  simp only [hostOps0, hostOps0_1, List.flatten_cons, List.flatten_nil, List.append_nil, List.cons_append,
    List.nil_append]
  after_results
  rfl

/-- The label row at column `j` is row `j`'s label. -/
theorem entry_v7 (j : Fin 8192) :
    (V m c main_v7 : S1x8192.Idx → BitVec 32) (ix2 (0 : Fin 1) j) = m ((c.tc : Thread nD τ).loc main_arg1) (ix1 j) := by
  rw [array_v7]
  exact shapeCast_a_1a_apply _ _ _ _

end Cert.KernelIdeal.HandValue

end
-- ==== Proof.KI.ValuePieces.lean ====
import proofs.«117188_j4672924418475_2_alg».proof.Proof.KI.Data
import Idealize.ShloMosaic.Lib.Pipeline.Value
import Idealize.ShloMosaic.Lib.ValueIdx

set_option maxRecDepth 16384

noncomputable section

/-!
# What each run's stored pieces are, as the body's arithmetic of what it loaded

Every buffer the body stores into is stored whole, by one store (after the zeroing store at a first column step), so
what it ends holding is that store's value: the step's partial row sums added to the running sums it loaded — zero at
a first column step, where the load reads the zeroing store back — and, at a last column step, the difference of the
logarithms of the two sums just stored. The column block is the slice of 1024 rows of the whole feature array that
starts at the row the step's coordinate names.
-/

namespace Cert.KernelIdeal.HandValue

open Cert.KernelIdeal Cert.KernelIdeal.Gen Cert.KernelIdeal.Hand
open Idealize.ShloMosaic Idealize.ShloMosaic.TcCoe Idealize.ShloMosaic.Tactic
open Idealize.SL Idealize.SL.Sem
open scoped BigOperators

variable {F : FTy → Type} [FloatOps F] [Named F]

theorem hz : (![0, 0] : Fin 2 → Nat) = fun _ => 0 := funext fun a => by fin_cases a <;> rfl

/-- The column block of a step: the 1024 rows of the whole feature array from the row the step's coordinate names. -/
def colBlk (i : grid0.Coords) (x1 : Vec F S8192x256 .bf16) : Vec F S1024x256 .bf16 :=
  View.ld x1 (Rect.unit (s := S8192x256) (k0_off1 i) S1024x256.size (k0_off1_inb i))

/-- First step, same-label sum: the step's part added to zero. -/
theorem posFirst_eq (c : Dev nD) (i : grid0.Coords) (arg2 : Memref sig .tc .vmem S1024x256 .bf16) (harg2 : arg2.IsWhole) (arg3 : Memref sig .tc .vmem S8192x256 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc0 : condFirst i) (hc1 : ¬condLast i) (x0 : Vec F S1024x256 .bf16) (x1 : Vec F S8192x256 .bf16) (x2 : Vec F S1024x1 .i32) (x3 : Vec F S1x1024 .i32)  :
    posFirst c i arg2 harg2 arg3 harg3 arg4 harg4 arg5 harg5 arg6 harg6 arg7 harg7 arg8 harg8 hc0 hc1 x0 x1 x2 x3  = k0_pay6 (colBlk i x1) x0 x2 x3 k0_pay3 := by
  unfold posFirst
  rw [View.read_writes_eq_canon _ _ _ (coverFirst_pos c i arg2 harg2 arg3 harg3 arg4 harg4 arg5 harg5 arg6 harg6 arg7 harg7 arg8 harg8 hc0 hc1 x0 x1 x2 x3 )]
  unfold runFirst
  dsimp only
  sl_unfold_words
  first | rw [View.canon_unit_zero hz] | rw [View.canon_cons_unit_zero (S := S1024x1) hz]
  simp only [View.readAt_eq_ld, View.readCov_unit_zero (S := S1024x1) _ hz, harg2.read_unread, harg3.read_unread, harg4.read_unread, harg5.read_unread, harg7.read_unread, harg8.read_unread, View.ld_unit_zero (S := S1024x256) hz, View.ld_unit_zero (S := S1024x1) hz, View.ld_unit_zero (S := S1x1024) hz]
  rfl

/-- First step, full sum: the step's part added to zero. -/
theorem totFirst_eq (c : Dev nD) (i : grid0.Coords) (arg2 : Memref sig .tc .vmem S1024x256 .bf16) (harg2 : arg2.IsWhole) (arg3 : Memref sig .tc .vmem S8192x256 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc0 : condFirst i) (hc1 : ¬condLast i) (x0 : Vec F S1024x256 .bf16) (x1 : Vec F S8192x256 .bf16) (x2 : Vec F S1024x1 .i32) (x3 : Vec F S1x1024 .i32)  :
    totFirst c i arg2 harg2 arg3 harg3 arg4 harg4 arg5 harg5 arg6 harg6 arg7 harg7 arg8 harg8 hc0 hc1 x0 x1 x2 x3  = k0_pay1 (k0_pay7 (colBlk i x1) x0 k0_pay4) := by
  unfold totFirst
  rw [View.read_writes_eq_canon _ _ _ (coverFirst_tot c i arg2 harg2 arg3 harg3 arg4 harg4 arg5 harg5 arg6 harg6 arg7 harg7 arg8 harg8 hc0 hc1 x0 x1 x2 x3 )]
  unfold runFirst
  dsimp only
  sl_unfold_words
  first | rw [View.canon_unit_zero hz] | rw [View.canon_cons_unit_zero (S := S1024x1) hz]
  simp only [View.readAt_eq_ld, View.readCov_unit_zero (S := S1024x1) _ hz, harg2.read_unread, harg3.read_unread, harg4.read_unread, harg5.read_unread, harg7.read_unread, harg8.read_unread, View.ld_unit_zero (S := S1024x256) hz, View.ld_unit_zero (S := S1024x1) hz, View.ld_unit_zero (S := S1x1024) hz]
  rfl

/-- Middle step, same-label sum: the step's part added to the sum so far. -/
theorem posMid_eq (c : Dev nD) (i : grid0.Coords) (arg2 : Memref sig .tc .vmem S1024x256 .bf16) (harg2 : arg2.IsWhole) (arg3 : Memref sig .tc .vmem S8192x256 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc0 : ¬condFirst i) (hc1 : ¬condLast i) (x0 : Vec F S1024x256 .bf16) (x1 : Vec F S8192x256 .bf16) (x2 : Vec F S1024x1 .i32) (x3 : Vec F S1x1024 .i32) (xs0 xs1 : Vec F S1024x1 .f32) :
    posMid c i arg2 harg2 arg3 harg3 arg4 harg4 arg5 harg5 arg6 harg6 arg7 harg7 arg8 harg8 hc0 hc1 x0 x1 x2 x3 xs0 xs1 = k0_pay6 (colBlk i x1) x0 x2 x3 xs0 := by
  unfold posMid
  rw [View.read_writes_eq_canon _ _ _ (coverMid_pos c i arg2 harg2 arg3 harg3 arg4 harg4 arg5 harg5 arg6 harg6 arg7 harg7 arg8 harg8 hc0 hc1 x0 x1 x2 x3 xs0 xs1)]
  unfold runMid
  dsimp only
  sl_unfold_words
  first | rw [View.canon_unit_zero hz] | rw [View.canon_cons_unit_zero (S := S1024x1) hz]
  simp only [View.readAt_eq_ld, View.readCov_unit_zero (S := S1024x1) _ hz, harg2.read_unread, harg3.read_unread, harg4.read_unread, harg5.read_unread, harg7.read_unread, harg8.read_unread, View.ld_unit_zero (S := S1024x256) hz, View.ld_unit_zero (S := S1024x1) hz, View.ld_unit_zero (S := S1x1024) hz]
  rfl

/-- Middle step, full sum. -/
theorem totMid_eq (c : Dev nD) (i : grid0.Coords) (arg2 : Memref sig .tc .vmem S1024x256 .bf16) (harg2 : arg2.IsWhole) (arg3 : Memref sig .tc .vmem S8192x256 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc0 : ¬condFirst i) (hc1 : ¬condLast i) (x0 : Vec F S1024x256 .bf16) (x1 : Vec F S8192x256 .bf16) (x2 : Vec F S1024x1 .i32) (x3 : Vec F S1x1024 .i32) (xs0 xs1 : Vec F S1024x1 .f32) :
    totMid c i arg2 harg2 arg3 harg3 arg4 harg4 arg5 harg5 arg6 harg6 arg7 harg7 arg8 harg8 hc0 hc1 x0 x1 x2 x3 xs0 xs1 = k0_pay1 (k0_pay7 (colBlk i x1) x0 xs1) := by
  unfold totMid
  rw [View.read_writes_eq_canon _ _ _ (coverMid_tot c i arg2 harg2 arg3 harg3 arg4 harg4 arg5 harg5 arg6 harg6 arg7 harg7 arg8 harg8 hc0 hc1 x0 x1 x2 x3 xs0 xs1)]
  unfold runMid
  dsimp only
  sl_unfold_words
  first | rw [View.canon_unit_zero hz] | rw [View.canon_cons_unit_zero (S := S1024x1) hz]
  simp only [View.readAt_eq_ld, View.readCov_unit_zero (S := S1024x1) _ hz, harg2.read_unread, harg3.read_unread, harg4.read_unread, harg5.read_unread, harg7.read_unread, harg8.read_unread, View.ld_unit_zero (S := S1024x256) hz, View.ld_unit_zero (S := S1024x1) hz, View.ld_unit_zero (S := S1x1024) hz]
  rfl

/-- Last step, same-label sum. -/
theorem posLast_eq (c : Dev nD) (i : grid0.Coords) (arg2 : Memref sig .tc .vmem S1024x256 .bf16) (harg2 : arg2.IsWhole) (arg3 : Memref sig .tc .vmem S8192x256 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc0 : ¬condFirst i) (hc1 : condLast i) (x0 : Vec F S1024x256 .bf16) (x1 : Vec F S8192x256 .bf16) (x2 : Vec F S1024x1 .i32) (x3 : Vec F S1x1024 .i32) (xs0 xs1 : Vec F S1024x1 .f32) :
    posLast c i arg2 harg2 arg3 harg3 arg4 harg4 arg5 harg5 arg6 harg6 arg7 harg7 arg8 harg8 hc0 hc1 x0 x1 x2 x3 xs0 xs1 = k0_pay6 (colBlk i x1) x0 x2 x3 xs0 := by
  unfold posLast
  rw [View.read_writes_eq_canon _ _ _ (coverLast_pos c i arg2 harg2 arg3 harg3 arg4 harg4 arg5 harg5 arg6 harg6 arg7 harg7 arg8 harg8 hc0 hc1 x0 x1 x2 x3 xs0 xs1)]
  unfold runLast
  dsimp only
  sl_unfold_words
  first | rw [View.canon_unit_zero hz] | rw [View.canon_cons_unit_zero (S := S1024x1) hz]
  simp only [View.readAt_eq_ld, View.readCov_unit_zero (S := S1024x1) _ hz, harg2.read_unread, harg3.read_unread, harg4.read_unread, harg5.read_unread, harg7.read_unread, harg8.read_unread, View.ld_unit_zero (S := S1024x256) hz, View.ld_unit_zero (S := S1024x1) hz, View.ld_unit_zero (S := S1x1024) hz]
  rfl

/-- Last step, full sum. -/
theorem totLast_eq (c : Dev nD) (i : grid0.Coords) (arg2 : Memref sig .tc .vmem S1024x256 .bf16) (harg2 : arg2.IsWhole) (arg3 : Memref sig .tc .vmem S8192x256 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc0 : ¬condFirst i) (hc1 : condLast i) (x0 : Vec F S1024x256 .bf16) (x1 : Vec F S8192x256 .bf16) (x2 : Vec F S1024x1 .i32) (x3 : Vec F S1x1024 .i32) (xs0 xs1 : Vec F S1024x1 .f32) :
    totLast c i arg2 harg2 arg3 harg3 arg4 harg4 arg5 harg5 arg6 harg6 arg7 harg7 arg8 harg8 hc0 hc1 x0 x1 x2 x3 xs0 xs1 = k0_pay1 (k0_pay7 (colBlk i x1) x0 xs1) := by
  unfold totLast
  rw [View.read_writes_eq_canon _ _ _ (coverLast_tot c i arg2 harg2 arg3 harg3 arg4 harg4 arg5 harg5 arg6 harg6 arg7 harg7 arg8 harg8 hc0 hc1 x0 x1 x2 x3 xs0 xs1)]
  unfold runLast
  dsimp only
  sl_unfold_words
  first | rw [View.canon_unit_zero hz] | rw [View.canon_cons_unit_zero (S := S1024x1) hz]
  simp only [View.readAt_eq_ld, View.readCov_unit_zero (S := S1024x1) _ hz, harg2.read_unread, harg3.read_unread, harg4.read_unread, harg5.read_unread, harg7.read_unread, harg8.read_unread, View.ld_unit_zero (S := S1024x256) hz, View.ld_unit_zero (S := S1024x1) hz, View.ld_unit_zero (S := S1x1024) hz]
  rfl

/-- Last step, output block: the logarithm of the full sum just stored minus that of the same-label sum just stored. -/
theorem outLast_eq (c : Dev nD) (i : grid0.Coords) (arg2 : Memref sig .tc .vmem S1024x256 .bf16) (harg2 : arg2.IsWhole) (arg3 : Memref sig .tc .vmem S8192x256 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc0 : ¬condFirst i) (hc1 : condLast i) (x0 : Vec F S1024x256 .bf16) (x1 : Vec F S8192x256 .bf16) (x2 : Vec F S1024x1 .i32) (x3 : Vec F S1x1024 .i32) (xs0 xs1 : Vec F S1024x1 .f32) :
    outLast c i arg2 harg2 arg3 harg3 arg4 harg4 arg5 harg5 arg6 harg6 arg7 harg7 arg8 harg8 hc0 hc1 x0 x1 x2 x3 xs0 xs1 = k0_pay2 (k0_pay1 (k0_pay7 (colBlk i x1) x0 xs1)) (k0_pay6 (colBlk i x1) x0 x2 x3 xs0) := by
  unfold outLast
  rw [View.read_writes_eq_canon _ _ _ (coverLast_out c i arg2 harg2 arg3 harg3 arg4 harg4 arg5 harg5 arg6 harg6 arg7 harg7 arg8 harg8 hc0 hc1 x0 x1 x2 x3 xs0 xs1)]
  unfold runLast
  dsimp only
  sl_unfold_words
  first | rw [View.canon_unit_zero hz] | rw [View.canon_cons_unit_zero (S := S1024x1) hz]
  simp only [View.readAt_eq_ld, View.readCov_unit_zero (S := S1024x1) _ hz, harg2.read_unread, harg3.read_unread, harg4.read_unread, harg5.read_unread, harg7.read_unread, harg8.read_unread, View.ld_unit_zero (S := S1024x256) hz, View.ld_unit_zero (S := S1024x1) hz, View.ld_unit_zero (S := S1x1024) hz]
  rfl

end Cert.KernelIdeal.HandValue
end
-- ==== Proof.LibSliceRead.lean ====
/-
  A unit-stride slice of a matrix, read at an entry.

  A load of a [p, q] window of an [a, b] matrix through consecutive rows from `off 0` and consecutive columns from
  `off 1` — a static sub-block, or a window whose first row is computed from a grid coordinate — reads, at (r, e),
  the matrix at (off 0 + r, off 1 + e). The target entry is named by the caller together with the two equations
  that say so, so that the offsets may be any expressions.
-/
import Idealize.ShloMosaic.Lib.ValueIdx
import Idealize.ShloMosaic.Lib.Pipeline.Value

noncomputable section

namespace Cert.LibSliceRead

open Idealize.ShloMosaic Idealize.ShloMosaic.ValueIdx

/-- A unit-stride slice of a matrix read at (r, e) is the matrix at (off₀ + r, off₁ + e). -/
theorem ld_unit_ix2 {a b p q : ℕ} {Val : EltTy → Type} {el : EltTy} (x : (⟨2, ![a, b]⟩ : Shape).Idx → Val el) (off : Fin 2 → Nat)
    (inb : ∀ ax, off ax + (![p, q] : Fin 2 → Nat) ax ≤ (⟨2, ![a, b]⟩ : Shape).size ax) (r : Fin p) (e : Fin q)
    (i : Fin a) (j : Fin b) (hi : i.val = off 0 + r.val) (hj : j.val = off 1 + e.val) :
    View.ld x (Rect.unit (s := ⟨2, ![a, b]⟩) off ![p, q] inb) (ix2 r e) = x (ix2 i j) := by
  show x ((Rect.unit (s := ⟨2, ![a, b]⟩) off ![p, q] inb).emb (ix2 r e)) = _
  refine congrArg x (funext fun ax => Fin.ext ?_)
  match ax with
  | ⟨0, _⟩ => show off 0 + 1 * r.val = i.val; omega
  | ⟨1, _⟩ => show off 1 + 1 * e.val = j.val; omega

end Cert.LibSliceRead

end
-- ==== Proof.KI.ValueBlocks.lean ====
import proofs.«117188_j4672924418475_2_alg».proof.Proof.KI.ValuePieces
import proofs.«117188_j4672924418475_2_alg».proof.Proof.LibSliceRead

set_option maxRecDepth 16384

noncomputable section

/-!
# The blocks the body is handed, as entries of the arrays the region finds

At point `t` the grid is at row block `t / 8` and column step `t % 8`. The first window's block is rows
`1024 (t / 8) + r` of the normalised features; the second window is the whole of that array, of which the body takes
rows `1024 (t % 8) + j`; the third is the labels of the row block, the fourth the labels of the column step.
-/

namespace Cert.KernelIdeal.HandValue

open Cert.KernelIdeal Cert.KernelIdeal.Gen Cert.KernelIdeal.Hand
open Idealize.ShloMosaic Idealize.ShloMosaic.TcCoe Idealize.ShloMosaic.Tactic Idealize.ShloMosaic.ValueIdx
open Idealize.SL Idealize.SL.Sem
open scoped BigOperators

variable {F : FTy → Type} [FloatOps F] [Named F]
variable (m : (ℓ : Loc nD τ sig) → Buf (Elt F) ℓ)

/-- Row `r` of block `b` of 1024 rows (the block counted modulo 8, so that the index is total). -/
def rowN (b : ℕ) (r : Fin 1024) : Fin 8192 := ⟨(b % 8) * 1024 + r.val, by have := r.isLt; omega⟩

/-- A point's number is below 64. -/
theorem pt_lt (t : Fin cfg0.N) : t.val < 64 := lt_of_lt_of_eq t.isLt N_0

/-- The windows' block indices and the body's slice offset at each point, decided over the grid. -/
theorem idx_facts : ∀ t : Fin cfg0.N,
    win0_0.index t (0 : Fin 2) = t.val / 8 ∧ win0_0.index t (1 : Fin 2) = 0
    ∧ win0_1.index t (0 : Fin 2) = 0 ∧ win0_1.index t (1 : Fin 2) = 0
    ∧ win0_2.index t (0 : Fin 2) = t.val / 8 ∧ win0_2.index t (1 : Fin 2) = 0
    ∧ win0_3.index t (0 : Fin 2) = 0 ∧ win0_3.index t (1 : Fin 2) = t.val % 8
    ∧ win0_4.index t (0 : Fin 2) = t.val / 8 ∧ win0_4.index t (1 : Fin 2) = 0
    ∧ k0_off1 (grid0.coords t) 0 = (t.val % 8) * 1024 ∧ k0_off1 (grid0.coords t) 1 = 0 :=
  (by decide +kernel : ∀ t : Fin grid0.N, _)

/-- The row block of the features at point `t`: rows `1024 (t / 8) + r`. -/
theorem iblk0_apply (c : Dev nD) (t : Fin cfg0.N) (r : Fin 1024) (k : Fin 256) :
    (iblk m c 0 t : Vec F S1024x256 .bf16) (ix2 r k)
      = (V m c main_v5 : S8192x256.Idx → Elt F .bf16) (ix2 (rowN (t.val / 8) r) k) := by
  obtain ⟨e0, e1, -⟩ := idx_facts t
  have ht := pt_lt t
  unfold iblk
  rw [View.read_apply]
  show V m c main_v5 _ = V m c main_v5 _
  refine congrArg (V m c main_v5) (funext fun a => Fin.ext ?_)
  match a with
  | ⟨0, _⟩ => show win0_0.index t (0 : Fin 2) * 1024 + 1 * r.val = (t.val / 8 % 8) * 1024 + r.val; rw [e0]; omega
  | ⟨1, _⟩ => show win0_0.index t (1 : Fin 2) * 256 + 1 * k.val = k.val; rw [e1]; omega

/-- The second window's block is the whole array. -/
theorem iblk1_apply (c : Dev nD) (t : Fin cfg0.N) (i : Fin 8192) (k : Fin 256) :
    (iblk m c 1 t : Vec F S8192x256 .bf16) (ix2 i k) = (V m c main_v5 : S8192x256.Idx → Elt F .bf16) (ix2 i k) := by
  obtain ⟨-, -, e0, e1, -⟩ := idx_facts t
  unfold iblk
  rw [View.read_apply]
  show V m c main_v5 _ = V m c main_v5 _
  refine congrArg (V m c main_v5) (funext fun a => Fin.ext ?_)
  match a with
  | ⟨0, _⟩ => show win0_1.index t (0 : Fin 2) * 8192 + 1 * i.val = i.val; rw [e0]; omega
  | ⟨1, _⟩ => show win0_1.index t (1 : Fin 2) * 256 + 1 * k.val = k.val; rw [e1]; omega

/-- The column block the body slices out of it at point `t`: rows `1024 (t % 8) + j`. -/
theorem colBlk_apply (c : Dev nD) (t : Fin cfg0.N) (j : Fin 1024) (k : Fin 256) :
    colBlk (grid0.coords t) (iblk m c 1 t : Vec F S8192x256 .bf16) (ix2 j k)
      = (V m c main_v5 : S8192x256.Idx → Elt F .bf16) (ix2 (rowN (t.val % 8) j) k) := by
  obtain ⟨-, -, -, -, -, -, -, -, -, -, o0, o1⟩ := idx_facts t
  unfold colBlk
  refine (Cert.LibSliceRead.ld_unit_ix2 (a := 8192) (b := 256) (p := 1024) (q := 256) _ (k0_off1 (grid0.coords t))
    (k0_off1_inb (grid0.coords t)) j k (rowN (t.val % 8) j) k ?_ ?_).trans (iblk1_apply m c t _ k)
  · show (t.val % 8 % 8) * 1024 + j.val = k0_off1 (grid0.coords t) 0 + j.val; rw [o0]; omega
  · show k.val = k0_off1 (grid0.coords t) 1 + k.val; rw [o1]; omega

/-- The labels of the row block at point `t`. -/
theorem iblk2_apply (c : Dev nD) (t : Fin cfg0.N) (r : Fin 1024) :
    (iblk m c 2 t : Vec F S1024x1 .i32) (ix2 r (0 : Fin 1))
      = (V m c main_v6 : S8192x1.Idx → Elt F .i32) (ix2 (rowN (t.val / 8) r) (0 : Fin 1)) := by
  obtain ⟨-, -, -, -, e0, e1, -⟩ := idx_facts t
  have ht := pt_lt t
  unfold iblk
  rw [View.read_apply]
  show V m c main_v6 _ = V m c main_v6 _
  refine congrArg (V m c main_v6) (funext fun a => Fin.ext ?_)
  match a with
  | ⟨0, _⟩ => show win0_2.index t (0 : Fin 2) * 1024 + 1 * r.val = (t.val / 8 % 8) * 1024 + r.val; rw [e0]; omega
  | ⟨1, _⟩ => show win0_2.index t (1 : Fin 2) * 1 + 1 * 0 = 0; rw [e1]

/-- The labels of the column step at point `t`. -/
theorem iblk3_apply (c : Dev nD) (t : Fin cfg0.N) (j : Fin 1024) :
    (iblk m c 3 t : Vec F S1x1024 .i32) (ix2 (0 : Fin 1) j)
      = (V m c main_v7 : S1x8192.Idx → Elt F .i32) (ix2 (0 : Fin 1) (rowN (t.val % 8) j)) := by
  obtain ⟨-, -, -, -, -, -, e0, e1, -⟩ := idx_facts t
  unfold iblk
  rw [View.read_apply]
  show V m c main_v7 _ = V m c main_v7 _
  refine congrArg (V m c main_v7) (funext fun a => Fin.ext ?_)
  match a with
  | ⟨0, _⟩ => show win0_3.index t (0 : Fin 2) * 1 + 1 * 0 = 0; rw [e0]
  | ⟨1, _⟩ => show win0_3.index t (1 : Fin 2) * 1024 + 1 * j.val = (t.val % 8 % 8) * 1024 + j.val; rw [e1]; omega

end Cert.KernelIdeal.HandValue
end
-- ==== Proof.LibIndexReads.lean ====
/-
  Vector and layout operations read at an index, for any extents.

  Each lemma names the one entry of the operand that an operation's result holds at a given entry, the indices written
  by their coordinates:
    * the logistic function, lane by lane;
    * a matrix product [M, K] × [N, K] with the right operand contracted on its LAST axis, into the zero accumulator:
      entry (r, e) is Σ_k lhs[r, k] · rhs[e, k];
    * a float sum over the LEADING axis of an [a, b, c] array: entry (i, j) is Σ_f src[f, i, j];
    * an array [1, b, c] broadcast along its unit axis to [a, b, c];
    * a matrix reshaped to a matrix, an [a, b, 1, 1] tensor flattened to a matrix, a vector folded into a matrix: the entry
      with the same row-major position;
    * the transpose with permutation [2, 3, 0, 1] of a rank-4 tensor: the two leading axes swapped with the two
      trailing ones.
-/
import Idealize.ShloMosaic.Lib.ValueLayout
import Idealize.ShloMosaic.Lib.Pipeline.Value
import Idealize.ShloMosaic.PureOps.Ideal.Laws

noncomputable section

open scoped BigOperators

namespace Cert.LibIndexReads

open Idealize.ShloMosaic Idealize.ShloMosaic.ValueIdx

variable {α : Type}

/-- The logistic function applied lane by lane. -/
theorem logistic_apply {s : Shape} {φ : FTy} (x : FVec Ideal s φ) (i : s.Idx) : logistic x i = Ideal.logistic (x i) := rfl

/-- Entry (r, e) of an [M, K] × [N, K] product contracted on both last axes, into the zero accumulator, is
    Σ_k lhs[r, k] · rhs[e, k]. -/
theorem matmul_transposedRhs_zero_apply {M K N : ℕ} {φ₁ φ₂ : FTy} (d : DotDims ⟨2, ![M, K]⟩ ⟨2, ![N, K]⟩ ⟨2, ![M, N]⟩)
    (hd : d = DotDims.transposedRhs M K N) (prec : Option ContractPrecision)
    (lhs : FVec Ideal ⟨2, ![M, K]⟩ φ₁) (rhs : FVec Ideal ⟨2, ![N, K]⟩ φ₂) (r : Fin M) (e : Fin N) :
    FloatOps.matmul d prec lhs rhs (constant ⟨2, ![M, N]⟩ .f32 0x00000000#32) (ix2 r e)
      = ∑ k : Fin K, lhs (ix2 r k) * rhs (ix2 e k) := by
  subst hd
  rw [Ideal.matmul_constant_zero_apply, ← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx (ix2 r e) ((contrEquiv1 (DotDims.transposedRhs M K N) K rfl rfl).symm k) = ix2 r k :=
    funext fun a => Fin.ext (by
      match a with
      | ⟨0, _⟩ => rfl
      | ⟨1, _⟩ => exact hk)
  have er : (DotDims.transposedRhs M K N).rhsIdx (ix2 r e) ((contrEquiv1 (DotDims.transposedRhs M K N) K rfl rfl).symm k) = ix2 e k :=
    funext fun a => Fin.ext (by
      match a with
      | ⟨0, _⟩ => rfl
      | ⟨1, _⟩ => exact hk)
  rw [el, er]

/-- A float sum over the leading axis of an [a, b, c] array reads, at (i, j), the sum over f of the entries (f, i, j). -/
theorem multiReduction_add_axis0_apply {a b c : ℕ} {φ : FTy} (src : FVec Ideal ⟨3, ![a, b, c]⟩ φ) (acc : BitVec φ.bits)
    (h : (⟨3, ![a, b, c]⟩ : Shape).Reduces [0] ⟨2, ![b, c]⟩) (hφ : FKind.Formats φ) (hacc : acc = FKind.add.neutral φ hφ)
    (i : Fin b) (j : Fin c) :
    multiReduction .add [0] ⟨2, ![b, c]⟩ src acc h hφ hacc (ix2 i j) = ∑ f : Fin a, src (ix3 f i j) := by
  refine (Ideal.multiReduction_add_single src acc h hφ hacc (ix2 i j)).trans ?_
  exact Finset.sum_congr rfl fun f _ => congrArg src (funext fun d => Fin.ext (by
    match d with
    | ⟨0, _⟩ => rfl
    | ⟨1, _⟩ => rfl
    | ⟨2, _⟩ => rfl))

/-- A [1, b, c] array broadcast to [a, b, c] reads, at (p, i, j), the operand's one slab at (i, j). -/
theorem broadcastTo_1bc_abc_apply {a b c : ℕ} (v : (⟨3, ![1, b, c]⟩ : Shape).Idx → α)
    (h : (⟨3, ![1, b, c]⟩ : Shape).Broadcasts ⟨3, ![a, b, c]⟩) (p : Fin a) (i : Fin b) (j : Fin c) :
    broadcastTo ⟨3, ![a, b, c]⟩ v h (ix3 p i j) = v (ix3 (0 : Fin 1) i j) := by
  refine broadcastTo_apply v h (ix3 p i j) (ix3 (0 : Fin 1) i j) fun ax => ?_
  match ax with
  | ⟨0, _⟩ => rfl
  | ⟨1, _⟩ =>
    show i.val = if b = 1 then 0 else i.val
    split
    · have := i.isLt; omega
    · rfl
  | ⟨2, _⟩ =>
    show j.val = if c = 1 then 0 else j.val
    split
    · have := j.isLt; omega
    · rfl

/-- An [r, l] matrix reshaped to [s, c] reads, at (i, j), the operand at the entry with the same row-major position. -/
theorem shapeCast_matrix_apply {r l s c : ℕ} (x : (⟨2, ![r, l]⟩ : Shape).Idx → α)
    (h : (⟨2, ![r, l]⟩ : Shape).ShapeCasts ⟨2, ![s, c]⟩) (i : Fin s) (j : Fin c) (i' : Fin r) (j' : Fin l)
    (hk : i'.val * l + j'.val = i.val * c + j.val) :
    shapeCast ⟨2, ![s, c]⟩ x h (ix2 i j) = x (ix2 i' j') :=
  shapeCast_apply x h _ _ (by
    rw [Shape.rowMajor_val_two, Shape.rowMajor_val_two]
    exact hk)

/-- An [a, b, 1, 1] tensor reshaped to a matrix reads, at an entry whose row-major position is s·b + k, entry (s, k, 0, 0). -/
theorem shapeCast_ab11_matrix_apply {a b r l : ℕ} (x : (⟨4, ![a, b, 1, 1]⟩ : Shape).Idx → α)
    (h : (⟨4, ![a, b, 1, 1]⟩ : Shape).ShapeCasts ⟨2, ![r, l]⟩) (i : Fin r) (j : Fin l) (s : Fin a) (k : Fin b)
    (hk : s.val * b + k.val = i.val * l + j.val) :
    shapeCast ⟨2, ![r, l]⟩ x h (ix2 i j) = x (ix4 s k (0 : Fin 1) (0 : Fin 1)) :=
  shapeCast_apply x h _ _ (by
    rw [Shape.rowMajor_val_four, Shape.rowMajor_val_two]
    show ((s.val * b + k.val) * 1 + 0) * 1 + 0 = i.val * l + j.val
    omega)

/-- A vector folded into a matrix reads, at an entry whose row-major position is k, entry k. -/
theorem shapeCast_vec_matrix_apply {a r l : ℕ} (x : (⟨1, ![a]⟩ : Shape).Idx → α)
    (h : (⟨1, ![a]⟩ : Shape).ShapeCasts ⟨2, ![r, l]⟩) (i : Fin r) (j : Fin l) (k : Fin a)
    (hk : k.val = i.val * l + j.val) :
    shapeCast ⟨2, ![r, l]⟩ x h (ix2 i j) = x (ix1 k) :=
  shapeCast_apply x h _ _ (by
    rw [Shape.rowMajor_val_one, Shape.rowMajor_val_two]
    exact hk)

/-- The transpose with permutation [2, 3, 0, 1] of an [a, b, c, d] tensor reads, at (i, j, n, k), entry (n, k, i, j). -/
theorem transpose_2301_apply {a b c d : ℕ} (x : (⟨4, ![a, b, c, d]⟩ : Shape).Idx → α)
    (h : (⟨4, ![a, b, c, d]⟩ : Shape).Transposes [2, 3, 0, 1] ⟨4, ![c, d, a, b]⟩)
    (i : Fin c) (j : Fin d) (n : Fin a) (k : Fin b) :
    transpose ⟨4, ![c, d, a, b]⟩ [2, 3, 0, 1] x h (ix4 i j n k) = x (ix4 n k i j) :=
  transpose_apply _ x h _ _ (fun e => by
    match e with
    | ⟨0, _⟩ => rfl
    | ⟨1, _⟩ => rfl
    | ⟨2, _⟩ => rfl
    | ⟨3, _⟩ => rfl)

end Cert.LibIndexReads

end
-- ==== Proof.LibKeepdims.lean ====
/-
  A sum along the rows of a matrix, kept as a column and spread back over the columns, read at an index.

  `jnp.sum(x, axis=-1, keepdims=True) + y` for an `[a, b]` matrix `x` and an `[a, c]` matrix `y` is three vector
  operations: a reduction `[a, b] → [a]` over the last axis, a cast `[a] → [a, 1]` that makes the sums a column, and
  a broadcast `[a, 1] → [a, c]` that repeats the column along every row.  Read at `(i, j)` the three compose to
  `Σ_f x[i, f]`: the result does not depend on `j`.  The three lemmas below read one operation each at an index
  written by its coordinates, for any extents `a`, `b`, `c` and any element type.
-/
import Idealize.ShloMosaic.Lib.ValueLayout
import Idealize.ShloMosaic.PureOps.Ideal.Laws

noncomputable section

open scoped BigOperators

namespace Cert.LibKeepdims

open Idealize.ShloMosaic Idealize.ShloMosaic.ValueIdx

variable {α : Type}

/-- A vector `[a]` cast to a column `[a, 1]` reads, at `(i, u)`, the vector at `i`, whatever the unit coordinate
    `u`: both positions are the `i`-th in row-major order. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, c]` reads, at `(i, j)`, the column's entry of row `i`. -/
theorem broadcastTo_a1_ac_apply {a c : ℕ} (v : (⟨2, ![a, 1]⟩ : Shape).Idx → α) (h : (⟨2, ![a, 1]⟩ : Shape).Broadcasts ⟨2, ![a, c]⟩)
    (i : Fin a) (j : Fin c) : broadcastTo ⟨2, ![a, c]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ =>
    show 0 = if (1 : ℕ) = 1 then 0 else j.val
    rw [if_pos rfl]

/-- On the extended reals a float sum over the last axis of an `[a, b]` matrix reads, at row `i`, the sum of that
    row's entries: the index over `i` with coordinate `f` put back on the summed axis is `(i, f)`. -/
theorem multiReduction_add_lastAxis_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (i : Fin a) :
    multiReduction .add [1] ⟨1, ![a]⟩ src acc h hφ hacc (ix1 i) = ∑ f : Fin b, src (ix2 i f) := by
  refine (Ideal.multiReduction_add_single src acc h hφ hacc (ix1 i)).trans ?_
  exact Finset.sum_congr rfl fun f _ => congrArg src (funext fun d => Fin.ext (by
    match d with
    | ⟨0, _⟩ => rfl
    | ⟨1, _⟩ => rfl))

/-- The three composed: the row sums of `x`, kept as a column and broadcast to `c` columns, read `Σ_f x[i, f]` at
    every `(i, j)`. -/
theorem rowSum_keepdims_broadcast_apply {a b c : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (hc : (⟨1, ![a]⟩ : Shape).ShapeCasts ⟨2, ![a, 1]⟩) (hb : (⟨2, ![a, 1]⟩ : Shape).Broadcasts ⟨2, ![a, c]⟩)
    (i : Fin a) (j : Fin c) :
    broadcastTo ⟨2, ![a, c]⟩ (shapeCast ⟨2, ![a, 1]⟩ (multiReduction .add [1] ⟨1, ![a]⟩ src acc h hφ hacc) hc) hb (ix2 i j)
      = ∑ f : Fin b, src (ix2 i f) :=
  (broadcastTo_a1_ac_apply _ hb i j).trans
    ((shapeCast_a_a1_apply _ hc i 0).trans (multiReduction_add_lastAxis_apply src acc h hφ hacc i))

end Cert.LibKeepdims

end
-- ==== Proof.KI.Payloads.lean ====
import proofs.«117188_j4672924418475_2_alg».proof.Proof.Gen.KernelIdeal.Skeleton
import proofs.«117188_j4672924418475_2_alg».proof.Proof.Spec
import proofs.«117188_j4672924418475_2_alg».proof.Proof.LibIndexReads
import proofs.«117188_j4672924418475_2_alg».proof.Proof.LibKeepdims
import Idealize.ShloMosaic.Lib.ValueLayout
import Idealize.ShloMosaic.PureOps.Ideal.Laws
import Idealize.ShloMosaic.PureOps.IdealRules

/-!
# The body's arithmetic, read entry by entry on the extended reals

One step of the blockwise computation takes a block of 1024 rows and a block of 1024 columns of the normalised features,
forms the 1024 × 1024 block of inner products, scales it by the reciprocal temperature and exponentiates it. Row by row it
then adds to one running sum the exponentials of the columns that carry the row's own label, and to another running sum
all of them. The last step turns the two sums of a row into `log tot - log pos`. Each lemma below reads one of these
values at one entry, with the indices written by their coordinates.
-/

noncomputable section

open scoped BigOperators

namespace Cert.KernelIdeal.Pay

open Cert.KernelIdeal Cert.KernelIdeal.Gen Idealize.ShloMosaic Idealize.ShloMosaic.ValueIdx

/-- The reciprocal temperature: the name the scale carries denotes the rational `134217728 / 13421773`. -/
theorem named_invT :
    Named.named (F := Ideal) Cert.KernelIdeal.κ "inv_temperature" (φ := .f32) 0x41200000#32 = Cert.Contrastive.invT :=
  IdealRules.named_const.ideal_named_scalar _ _ _ _ rfl

/-- Entry `(r, j)` of the block of inner products: row `r` of the row block against row `j` of the column block. -/
def simBlk (v8 v6 : Vec Ideal S1024x256 .bf16) (r j : Fin 1024) : EReal :=
  ∑ k : Fin 256, v8 (ix2 r k) * v6 (ix2 j k)

/-- The exponential of the scaled inner product. -/
def expBlk (v8 v6 : Vec Ideal S1024x256 .bf16) (r j : Fin 1024) : EReal :=
  Ideal.exp (simBlk v8 v6 r j * Cert.Contrastive.invT)

/-- The product of the row block with the transposed column block, into the zero accumulator, at `(r, j)`: the inner
    product of the two rows. The reshapes of the operands to their own shape change nothing. -/
theorem sim_apply (v6 v8 : Vec Ideal S1024x256 .bf16) (r j : Fin 1024) :
    matmul (F := Ideal) (φ₁ := .bf16) (φ₂ := .bf16) dot_S1024x256_S1024x256_S1024x1024_1_1_0_0_n_n none
        (shapeCast S1024x256 v8 shapeCasts_S1024x256_S1024x256) (shapeCast S1024x256 v6 shapeCasts_S1024x256_S1024x256)
        (constant S1024x1024 .f32 0x00000000#32) (ix2 r j)
      = simBlk v8 v6 r j := by
  rw [shapeCast_self, shapeCast_self]
  exact Cert.LibIndexReads.matmul_transposedRhs_zero_apply (M := 1024) (K := 256) (N := 1024)
    dot_S1024x256_S1024x256_S1024x1024_1_1_0_0_n_n rfl none v8 v6 r j

/-- The block of exponentials at `(r, j)`. -/
theorem pay5_apply (v6 v8 : Vec Ideal S1024x256 .bf16) (r j : Fin 1024) :
    k0_pay5 v6 v8 (ix2 r j) = expBlk v8 v6 r j :=
  congrArg Ideal.exp (congrArg₂ (· * ·) (sim_apply v6 v8 r j) named_invT)

/-- The row sums of a 1024 × 1024 block, kept as a column, at row `r`: the sum of that row's entries. -/
theorem rowSum_apply (x : FVec Ideal S1024x1024 .f32) (r : Fin 1024) :
    shapeCast S1024x1 (multiReduction (F := Ideal) .add [1] S1024 x 0x00000000#32 reduces_S1024x1024_S1024 (.inl rfl) rfl)
        shapeCasts_S1024_S1024x1 (ix2 r 0)
      = ∑ j : Fin 1024, x (ix2 r j) :=
  (Cert.LibKeepdims.shapeCast_a_a1_apply _ shapeCasts_S1024_S1024x1 r 0).trans
    (Cert.LibKeepdims.multiReduction_add_lastAxis_apply x _ _ _ _ r)

/-- The column of row labels spread over the columns reads, at `(r, j)`, the label of row `r`. -/
theorem rowLabel_apply (v14 : Vec Ideal S1024x1 .i32) (r j : Fin 1024) :
    broadcastTo S1024x1024 (shapeCast S1024x1 v14 shapeCasts_S1024x1_S1024x1) broadcasts_S1024x1_S1024x1024 (ix2 r j)
      = v14 (ix2 r 0) := by
  rw [shapeCast_self]
  exact Cert.LibKeepdims.broadcastTo_a1_ac_apply _ _ r j

/-- The row of column labels spread over the rows reads, at `(r, j)`, the label of column `j`. -/
theorem colLabel_apply (v16 : Vec Ideal S1x1024 .i32) (r j : Fin 1024) :
    broadcastTo S1024x1024 (shapeCast S1x1024 v16 shapeCasts_S1x1024_S1x1024) broadcasts_S1x1024_S1024x1024 (ix2 r j)
      = v16 (ix2 0 j) := by
  rw [shapeCast_self]
  exact broadcastTo_1b_ab_apply _ _ r j

/-- The same-label running sum after the step, at row `r`: the sum before plus, over the columns of the block, the
    exponential where the column's label is the row's and `0` elsewhere. -/
theorem pay6_apply (v6 v8 : Vec Ideal S1024x256 .bf16) (v14 : Vec Ideal S1024x1 .i32) (v16 : Vec Ideal S1x1024 .i32)
    (v21 : Vec Ideal S1024x1 .f32) (r : Fin 1024) :
    k0_pay6 v6 v8 v14 v16 v21 (ix2 r 0)
      = v21 (ix2 r 0) + ∑ j : Fin 1024,
          Scalar.select (IntOp.cmpi .eq (v14 (ix2 r 0)) (v16 (ix2 0 j))) (expBlk v8 v6 r j) 0 := by
  unfold k0_pay6
  refine (congrFun (shapeCast_self _ _) _).trans ?_
  refine congrArg (v21 (ix2 r 0) + ·) ?_
  refine (rowSum_apply _ r).trans ?_
  refine Finset.sum_congr rfl fun j _ => ?_
  refine (select_apply _ _ _ _).trans ?_
  refine congr (congr (congrArg Scalar.select ?_) (pay5_apply v6 v8 r j)) Ideal.ofBits_zero_f32
  exact congr (congrArg (IntOp.cmpi .eq) (rowLabel_apply v14 r j)) (colLabel_apply v16 r j)

/-- The full running sum after the step, at row `r`: the sum before plus the block's exponentials of that row. -/
theorem pay7_apply (v6 v8 : Vec Ideal S1024x256 .bf16) (v30 : Vec Ideal S1024x1 .f32) (r : Fin 1024) :
    k0_pay1 (k0_pay7 v6 v8 v30) (ix2 r 0) = v30 (ix2 r 0) + ∑ j : Fin 1024, expBlk v8 v6 r j := by
  unfold k0_pay1 k0_pay7
  refine (congrFun (shapeCast_self _ _) _).trans ?_
  refine congrArg (v30 (ix2 r 0) + ·) ?_
  refine (rowSum_apply _ r).trans ?_
  exact Finset.sum_congr rfl fun j _ => pay5_apply v6 v8 r j

/-- The same-label running sum starts at zero. -/
theorem pay3_apply (r : Fin 1024) : k0_pay3 (F := Ideal) (ix2 r 0) = 0 := by
  unfold k0_pay3
  refine (congrFun (shapeCast_self _ _) _).trans ?_
  exact Ideal.ofBits_zero_f32

/-- The full running sum starts at zero. -/
theorem pay4_apply (r : Fin 1024) : k0_pay4 (F := Ideal) (ix2 r 0) = 0 := by
  unfold k0_pay4
  refine (congrFun (shapeCast_self _ _) _).trans ?_
  exact Ideal.ofBits_zero_f32

/-- The row's loss: the logarithm of the full sum minus the logarithm of the same-label sum. -/
theorem pay2_apply (v40 v42 : Vec Ideal S1024x1 .f32) (r : Fin 1024) :
    k0_pay2 v40 v42 (ix2 r 0) = Ideal.log (v40 (ix2 r 0)) - Ideal.log (v42 (ix2 r 0)) := rfl

end Cert.KernelIdeal.Pay

end
-- ==== Proof.KI.ValueInv.lean ====
import proofs.«117188_j4672924418475_2_alg».proof.Proof.KI.ValueBlocks
import proofs.«117188_j4672924418475_2_alg».proof.Proof.KI.Payloads

set_option maxRecDepth 16384

noncomputable section

/-!
# The two running sums after each column step, and the row losses

After column step `s` of a row block, row `r` of the two running sums holds the sum, over the column blocks
`0 … s`, of that block's part of the row's same-label sum and of its full sum: the first step adds its part to zero,
every later step adds its part to what the step before left. At the last step the eight parts are all there, and the
output block takes the logarithm of the full sum minus the logarithm of the same-label sum.
-/

namespace Cert.KernelIdeal.HandValue

open Cert.KernelIdeal Cert.KernelIdeal.Gen Cert.KernelIdeal.Hand
open Idealize.ShloMosaic Idealize.ShloMosaic.TcCoe Idealize.ShloMosaic.Tactic Idealize.ShloMosaic.ValueIdx
open Idealize.SL Idealize.SL.Sem
open scoped BigOperators

open Cert.Contrastive

variable (f : Fin 8192 → Fin 256 → EReal) (l : Fin 8192 → BitVec 32)

/-- Column block `s`'s part of row `i`'s same-label sum (the block counted by a natural number). -/
def posStep (i : Fin 8192) (s : ℕ) : EReal :=
  ∑ j : Fin 1024, Scalar.select (IntOp.cmpi .eq (l i) (l (rowN s j))) (eK f i (rowN s j)) 0

/-- Column block `s`'s part of row `i`'s full sum. -/
def totStep (i : Fin 8192) (s : ℕ) : EReal := ∑ j : Fin 1024, eK f i (rowN s j)

theorem rowN_val (jb : Fin 8) (j : Fin 1024) : rowN jb.val j = col jb j :=
  Fin.ext (by show (jb.val % 8) * 1024 + j.val = jb.val * 1024 + j.val; have := jb.isLt; omega)

/-- The eight parts of the same-label sum make the row's same-label sum. -/
theorem sum_posStep (i : Fin 8192) : ∑ s ∈ Finset.range 8, posStep f l i s = posK f l i := by
  rw [Finset.sum_range]
  unfold posK posBlk posStep
  exact Finset.sum_congr rfl fun jb _ => Finset.sum_congr rfl fun j _ => by rw [rowN_val]

/-- The eight parts of the full sum make the row's full sum. -/
theorem sum_totStep (i : Fin 8192) : ∑ s ∈ Finset.range 8, totStep f i s = totK f i := by
  rw [Finset.sum_range]
  unfold totK totBlk totStep
  exact Finset.sum_congr rfl fun jb _ => Finset.sum_congr rfl fun j _ => by rw [rowN_val]

section Step

variable (x0 cb : Vec Ideal S1024x256 .bf16) (x2 : Vec Ideal S1024x1 .i32) (x3 : Vec Ideal S1x1024 .i32) (b s : ℕ)
variable (h0 : ∀ (r : Fin 1024) (k : Fin 256), x0 (ix2 r k) = f (rowN b r) k)
variable (hcb : ∀ (j : Fin 1024) (k : Fin 256), cb (ix2 j k) = f (rowN s j) k)
variable (h2 : ∀ r : Fin 1024, x2 (ix2 r (0 : Fin 1)) = l (rowN b r))
variable (h3 : ∀ j : Fin 1024, x3 (ix2 (0 : Fin 1) j) = l (rowN s j))

include h0 hcb in
/-- An entry of the step's block of exponentials is the exponential of the scaled similarity of the two rows. -/
theorem expBlk_eq (r j : Fin 1024) : Pay.expBlk x0 cb r j = eK f (rowN b r) (rowN s j) := by
  unfold Pay.expBlk Pay.simBlk eK sim
  exact congrArg (fun z => Ideal.exp (z * invT)) (Finset.sum_congr rfl fun k _ => by rw [h0, hcb])

include h0 hcb h2 h3 in
/-- The same-label sum after a step: the sum before plus the step's part. -/
theorem pos_step_apply (xs0 : Vec Ideal S1024x1 .f32) (r : Fin 1024) :
    k0_pay6 cb x0 x2 x3 xs0 (ix2 r (0 : Fin 1)) = xs0 (ix2 r (0 : Fin 1)) + posStep f l (rowN b r) s := by
  refine (Pay.pay6_apply cb x0 x2 x3 xs0 r).trans (congrArg (xs0 (ix2 r (0 : Fin 1)) + ·) ?_)
  unfold posStep
  exact Finset.sum_congr rfl fun j _ => by rw [h2, h3, expBlk_eq f x0 cb b s h0 hcb]

include h0 hcb in
/-- The full sum after a step: the sum before plus the step's part. -/
theorem tot_step_apply (xs1 : Vec Ideal S1024x1 .f32) (r : Fin 1024) :
    k0_pay1 (k0_pay7 cb x0 xs1) (ix2 r (0 : Fin 1)) = xs1 (ix2 r (0 : Fin 1)) + totStep f (rowN b r) s := by
  refine (Pay.pay7_apply cb x0 xs1 r).trans (congrArg (xs1 (ix2 r (0 : Fin 1)) + ·) ?_)
  unfold totStep
  exact Finset.sum_congr rfl fun j _ => by rw [expBlk_eq f x0 cb b s h0 hcb]

end Step

variable (m : (ℓ : Loc nD τ sig) → Buf (Elt Ideal) ℓ) (c : Dev nD)
variable (hf : ∀ (i : Fin 8192) (k : Fin 256), (V m c main_v5 : S8192x256.Idx → EReal) (ix2 i k) = f i k)
variable (hl6 : ∀ i : Fin 8192, (V m c main_v6 : S8192x1.Idx → BitVec 32) (ix2 i (0 : Fin 1)) = l i)
variable (hl7 : ∀ j : Fin 8192, (V m c main_v7 : S1x8192.Idx → BitVec 32) (ix2 (0 : Fin 1) j) = l j)

include hf hl6 hl7 in
/-- After point `n` — column step `n % 8` of row block `n / 8` — row `r` of each running sum is the sum of the parts
    of the column blocks `0 … n % 8`. -/
theorem sums_at : ∀ (n : ℕ) (hn : n < cfg0.N) (r : Fin 1024),
    (outsAt m c n hn).2.1 (ix2 r (0 : Fin 1)) = ∑ s ∈ Finset.range (n % 8 + 1), posStep f l (rowN (n / 8) r) s
    ∧ (outsAt m c n hn).2.2 (ix2 r (0 : Fin 1)) = ∑ s ∈ Finset.range (n % 8 + 1), totStep f (rowN (n / 8) r) s := by
  intro n
  induction n with
  | zero =>
    intro hn r
    have b0 : ∀ (r : Fin 1024) (k : Fin 256), (iblk m c 0 ⟨0, hn⟩ : Vec Ideal S1024x256 .bf16) (ix2 r k) = f (rowN (0 / 8) r) k :=
      fun r k => (iblk0_apply m c ⟨0, hn⟩ r k).trans (hf _ _)
    have b1 : ∀ (j : Fin 1024) (k : Fin 256), colBlk (grid0.coords ⟨0, hn⟩) (iblk m c 1 ⟨0, hn⟩ : Vec Ideal S8192x256 .bf16) (ix2 j k) = f (rowN (0 % 8) j) k :=
      fun j k => (colBlk_apply m c ⟨0, hn⟩ j k).trans (hf _ _)
    have b2 : ∀ r : Fin 1024, (iblk m c 2 ⟨0, hn⟩ : Vec Ideal S1024x1 .i32) (ix2 r (0 : Fin 1)) = l (rowN (0 / 8) r) :=
      fun r => (iblk2_apply m c ⟨0, hn⟩ r).trans (hl6 _)
    have b3 : ∀ j : Fin 1024, (iblk m c 3 ⟨0, hn⟩ : Vec Ideal S1x1024 .i32) (ix2 (0 : Fin 1) j) = l (rowN (0 % 8) j) :=
      fun j => (iblk3_apply m c ⟨0, hn⟩ j).trans (hl7 _)
    rw [outsAt_first m c ⟨0, hn⟩ rfl]
    dsimp only
    rw [posFirst_eq, totFirst_eq]
    constructor
    · refine (pos_step_apply f l _ _ _ _ (0 / 8) (0 % 8) b0 b1 b2 b3 _ r).trans ?_
      rw [Pay.pay3_apply, zero_add]
      exact (Finset.sum_range_one _).symm
    · refine (tot_step_apply f _ _ (0 / 8) (0 % 8) b0 b1 _ r).trans ?_
      rw [Pay.pay4_apply, zero_add]
      exact (Finset.sum_range_one _).symm
  | succ n ih =>
    intro hn r
    have b0 : ∀ (r : Fin 1024) (k : Fin 256), (iblk m c 0 ⟨n + 1, hn⟩ : Vec Ideal S1024x256 .bf16) (ix2 r k) = f (rowN ((n + 1) / 8) r) k :=
      fun r k => (iblk0_apply m c ⟨n + 1, hn⟩ r k).trans (hf _ _)
    have b1 : ∀ (j : Fin 1024) (k : Fin 256), colBlk (grid0.coords ⟨n + 1, hn⟩) (iblk m c 1 ⟨n + 1, hn⟩ : Vec Ideal S8192x256 .bf16) (ix2 j k) = f (rowN ((n + 1) % 8) j) k :=
      fun j k => (colBlk_apply m c ⟨n + 1, hn⟩ j k).trans (hf _ _)
    have b2 : ∀ r : Fin 1024, (iblk m c 2 ⟨n + 1, hn⟩ : Vec Ideal S1024x1 .i32) (ix2 r (0 : Fin 1)) = l (rowN ((n + 1) / 8) r) :=
      fun r => (iblk2_apply m c ⟨n + 1, hn⟩ r).trans (hl6 _)
    have b3 : ∀ j : Fin 1024, (iblk m c 3 ⟨n + 1, hn⟩ : Vec Ideal S1x1024 .i32) (ix2 (0 : Fin 1) j) = l (rowN ((n + 1) % 8) j) :=
      fun j => (iblk3_apply m c ⟨n + 1, hn⟩ j).trans (hl7 _)
    by_cases h0 : (n + 1) % 8 = 0
    · rw [outsAt_first m c ⟨n + 1, hn⟩ h0]
      dsimp only
      rw [posFirst_eq, totFirst_eq]
      constructor
      · refine (pos_step_apply f l _ _ _ _ ((n + 1) / 8) ((n + 1) % 8) b0 b1 b2 b3 _ r).trans ?_
        rw [Pay.pay3_apply, zero_add, h0]
        exact (Finset.sum_range_one _).symm
      · refine (tot_step_apply f _ _ ((n + 1) / 8) ((n + 1) % 8) b0 b1 _ r).trans ?_
        rw [Pay.pay4_apply, zero_add, h0]
        exact (Finset.sum_range_one _).symm
    · have hq : (n + 1) / 8 = n / 8 := by omega
      have hr : (n + 1) % 8 = n % 8 + 1 := by omega
      obtain ⟨ihp, iht⟩ := ih (Nat.lt_of_succ_lt hn) r
      by_cases h1 : (n + 1) % 8 = 7
      · rw [outsAt_last m c ⟨n + 1, hn⟩ h0 h1]
        dsimp only
        rw [posLast_eq, totLast_eq]
        constructor
        · refine (pos_step_apply f l _ _ _ _ ((n + 1) / 8) ((n + 1) % 8) b0 b1 b2 b3 _ r).trans ?_
          rw [Finset.sum_range_succ _ ((n + 1) % 8), hr, hq, ← ihp]; rfl
        · refine (tot_step_apply f _ _ ((n + 1) / 8) ((n + 1) % 8) b0 b1 _ r).trans ?_
          rw [Finset.sum_range_succ _ ((n + 1) % 8), hr, hq, ← iht]; rfl
      · rw [outsAt_mid m c ⟨n + 1, hn⟩ h0 h1]
        dsimp only
        rw [posMid_eq, totMid_eq]
        constructor
        · refine (pos_step_apply f l _ _ _ _ ((n + 1) / 8) ((n + 1) % 8) b0 b1 b2 b3 _ r).trans ?_
          rw [Finset.sum_range_succ _ ((n + 1) % 8), hr, hq, ← ihp]; rfl
        · refine (tot_step_apply f _ _ ((n + 1) / 8) ((n + 1) % 8) b0 b1 _ r).trans ?_
          rw [Finset.sum_range_succ _ ((n + 1) % 8), hr, hq, ← iht]; rfl

/-- At a last column step the output block's row `r` is the logarithm of the full sum the step leaves minus the
    logarithm of the same-label sum it leaves. -/
theorem out_at_last (n : ℕ) (hn : n < cfg0.N) (h0 : ¬n % 8 = 0) (h1 : n % 8 = 7) (r : Fin 1024) :
    (outsAt m c n hn).1 (ix2 r (0 : Fin 1))
      = Ideal.log ((outsAt m c n hn).2.2 (ix2 r (0 : Fin 1))) - Ideal.log ((outsAt m c n hn).2.1 (ix2 r (0 : Fin 1))) := by
  rw [outsAt_last m c ⟨n, hn⟩ h0 h1]
  dsimp only
  rw [outLast_eq, posLast_eq, totLast_eq]
  exact Pay.pay2_apply _ _ r

include hf hl6 hl7 in
/-- So at a last column step the output block's row `r` is the loss of row `r` of the row block. -/
theorem out_last_eq (n : ℕ) (hn : n < cfg0.N) (h1 : n % 8 = 7) (r : Fin 1024) :
    (outsAt m c n hn).1 (ix2 r (0 : Fin 1)) = lossK f l (rowN (n / 8) r) := by
  obtain ⟨hp, ht⟩ := sums_at f l m c hf hl6 hl7 n hn r
  rw [out_at_last m c n hn (by omega) h1 r, hp, ht, h1]
  unfold lossK
  rw [sum_posStep, sum_totStep]

end Cert.KernelIdeal.HandValue
end
-- ==== Proof.KI.ValueOut.lean ====
import proofs.«117188_j4672924418475_2_alg».proof.Proof.KI.ValueInv

set_option maxRecDepth 16384

noncomputable section

/-!
# The array of row losses

A last column step writes its output block back: rows `1024 b … 1024 b + 1023` of the result column, for row block
`b`. Each of those blocks holds the losses of its rows, the eight of them cover the column, so the column ends holding
every row's loss.
-/

namespace Cert.KernelIdeal.HandValue

open Cert.KernelIdeal Cert.KernelIdeal.Gen Cert.KernelIdeal.Hand
open Idealize.ShloMosaic Idealize.ShloMosaic.TcCoe Idealize.ShloMosaic.Tactic Idealize.ShloMosaic.ValueIdx
open Idealize.SL Idealize.SL.Sem
open scoped BigOperators

open Cert.Contrastive

section
variable (f : Fin 8192 → Fin 256 → EReal) (l : Fin 8192 → BitVec 32)
variable (m : (ℓ : Loc nD τ sig) → Buf (Elt Ideal) ℓ) (c : Dev nD)
variable (hf : ∀ (i : Fin 8192) (k : Fin 256), (V m c main_v5 : S8192x256.Idx → EReal) (ix2 i k) = f i k)
variable (hl6 : ∀ i : Fin 8192, (V m c main_v6 : S8192x1.Idx → BitVec 32) (ix2 i (0 : Fin 1)) = l i)
variable (hl7 : ∀ j : Fin 8192, (V m c main_v7 : S1x8192.Idx → BitVec 32) (ix2 (0 : Fin 1) j) = l j)

/-- The row losses as a column. -/
def lossArr : S8192x1.Idx → EReal := fun i => lossK f l ⟨(i 0).val, idx2_lt0 i⟩

include hf hl6 hl7 in
/-- What a last column step writes back is its block of the column of row losses. -/
theorem flushed_eq (t : Fin cfg0.N) (hfl : (cfg0.win 4).flush t = true) :
    (dats m 0 c).flushed 4 t = ((cfg0.win 4).blk t).view.read (Elt Ideal) (lossArr f l) := by
  have h7 : t.val % 8 = 7 := (flush0_4 t).mp hfl
  obtain ⟨-, -, -, -, -, -, -, -, e0, e1, -, -⟩ := idx_facts t
  have ht := pt_lt t
  show (cfg0.win 4).cut (grid0.coords t) ((dats m 0 c).after 4 t) = _
  rw [after_4]
  funext y
  obtain ⟨r, z, rfl⟩ : ∃ (r : Fin 1024) (z : Fin 1), y = ix2 r z := ⟨y 0, y 1, eq_ix2 y⟩
  obtain rfl : z = 0 := Subsingleton.elim _ _
  rw [View.read_apply]
  show (outsAt m c t.val t.isLt).1 (ix2 r (0 : Fin 1)) = lossArr f l (((cfg0.win 4).blk t).view.emb (ix2 r (0 : Fin 1)))
  rw [out_last_eq f l m c hf hl6 hl7 t.val t.isLt h7 r]
  unfold lossArr
  refine congrArg (lossK f l) (Fin.ext ?_)
  show (t.val / 8 % 8) * 1024 + r.val = win0_4.index t (0 : Fin 2) * 1024 + 1 * r.val
  rw [e0]; omega

/-- Every row of the column lies in the block some last column step writes back: row `i` in that of row block `i / 1024`. -/
theorem covered (i : S8192x1.Idx) :
    ∃ t : Fin cfg0.N, (cfg0.win 4).flush t = true ∧ i ∈ ((cfg0.win 4).blk t).view.set := by
  have hi0 : (i 0).val < 8192 := idx2_lt0 i
  have hi1 : (i 1).val < 1 := idx2_lt1 i
  obtain ⟨t, htv⟩ : ∃ t : Fin cfg0.N, t.val = 8 * ((i 0).val / 1024) + 7 :=
    ⟨⟨8 * ((i 0).val / 1024) + 7, lt_of_lt_of_eq (b := 64) (by omega) N_0.symm⟩, rfl⟩
  obtain ⟨-, -, -, -, -, -, -, -, e0, e1, -, -⟩ := idx_facts t
  refine ⟨t, (flush0_4 t).mpr (by omega), ?_⟩
  show i ∈ ((View.whole main_v8).slice (win0_4.rect t)).set
  rw [View.set_slice_whole, Rect.mem_set_unit]
  intro a
  match a with
  | ⟨0, _⟩ =>
    show win0_4.index t (0 : Fin 2) * 1024 ≤ (i 0).val ∧ (i 0).val < win0_4.index t (0 : Fin 2) * 1024 + 1024
    rw [e0]; omega
  | ⟨1, _⟩ =>
    show win0_4.index t (1 : Fin 2) * 1 ≤ (i 1).val ∧ (i 1).val < win0_4.index t (1 : Fin 2) * 1 + 1
    rw [e1]; omega

include hf hl6 hl7 in
/-- The result column after the region: every row's loss. -/
theorem arr_final : (dats m 0 c).arrAt 4 cfg0.N = lossArr f l :=
  (dats m 0 c).arrAt_eq_of_cover 4 (lossArr f l) (fun t ht => flushed_eq f l m c hf hl6 hl7 t ht) covered

include hf hl6 hl7 in
theorem arr_final_apply (i : Fin 8192) : (dats m 0 c).arrAt 4 cfg0.N (ix2 i (0 : Fin 1)) = lossK f l i := by
  rw [arr_final f l m c hf hl6 hl7]; rfl

end

/-- The result column after the region, over the arrays the region finds: row `i` holds the loss of row `i` computed
    from the normalised features and the labels — given that the row of labels and the column of labels are the same
    labels. -/
theorem arr_out (m : (ℓ : Loc nD τ sig) → Buf (Elt Ideal) ℓ) (c : Dev nD)
    (hlab : ∀ j : Fin 8192, (V m c main_v7 : S1x8192.Idx → BitVec 32) (ix2 (0 : Fin 1) j)
      = (V m c main_v6 : S8192x1.Idx → BitVec 32) (ix2 j (0 : Fin 1))) (i : Fin 8192) :
    (dats m 0 c).arrAt 4 cfg0.N (ix2 i (0 : Fin 1))
      = lossK (fun i k => (V m c main_v5 : S8192x256.Idx → EReal) (ix2 i k))
          (fun i => (V m c main_v6 : S8192x1.Idx → BitVec 32) (ix2 i (0 : Fin 1))) i :=
  arr_final_apply _ _ m c (fun _ _ => rfl) (fun _ => rfl) hlab i

end Cert.KernelIdeal.HandValue
end
-- ==== Proof.KI.Value.lean ====
import proofs.«117188_j4672924418475_2_alg».proof.Proof.KI.Claim
import proofs.«117188_j4672924418475_2_alg».proof.Proof.KI.HostSides
import proofs.«117188_j4672924418475_2_alg».proof.Proof.KI.ValueOut

/-!
The kernel's result. When the region is entered the windows' arrays hold the normalised features and the labels laid
out as a column and as a row; the region leaves, in row `i` of its output, `log tot i - log pos i`; the mean's lines
then sum the rows and divide by their number. So the result buffer holds the specification's number, and the
arguments are as they were.
-/

noncomputable section

namespace Cert.KernelIdeal.HandValue

open Cert.KernelIdeal Cert.KernelIdeal.Gen Cert.KernelIdeal.Hand
open Idealize.ShloMosaic Idealize.ShloMosaic.TcCoe Idealize.SL.Sem ValueIdx

theorem kernel_value (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v10)
          = (fun _ => Cert.Contrastive.resultK (fun i k => Cert.Contrastive.normF (m ((c.tc : Thread nD τ).loc main_arg0)) (ix2 i k))
              (fun i => m ((c.tc : Thread nD τ).loc main_arg1) (ix1 i)))
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  refine (θ_run (defs (F := Ideal)) _ _).mono (fun r h c =>
    ⟨?_, ((h c).2 main_arg0 (Pipeline.mem_restRefs_of _ rfl (by decide))).trans (kept_arg0 m c),
      ((h c).2 main_arg1 (Pipeline.mem_restRefs_of _ rfl (by decide))).trans (kept_arg1 m c)⟩) (run_main (F := Ideal) m ρ)
  -- the labels' row layout and column layout hold the same labels
  have hlab : ∀ j : Fin 8192, V m c main_v7 (ix2 0 j) = V m c main_v6 (ix2 j 0) := fun j => (entry_v7 m c j).trans (entry_v6 m c j).symm
  have hf : (fun (i : Fin 8192) (k : Fin 256) => V m c main_v5 (ix2 i k))
      = fun i k => Cert.Contrastive.normF (m ((c.tc : Thread nD τ).loc main_arg0)) (ix2 i k) :=
    funext fun i => funext fun k => entry_v5 m c i k
  have hl : (fun i : Fin 8192 => V m c main_v6 (ix2 i 0)) = fun i => m ((c.tc : Thread nD τ).loc main_arg1) (ix1 i) :=
    funext fun i => entry_v6 m c i
  refine ((h c).2 main_v10 (Pipeline.mem_restRefs_of _ rfl (by decide))).trans ?_
  show StableHlo.after ([hostOps1] : List (List (HloOp τ sig (Elt Ideal)))).flatten (V1 m c) (Proc.devRef .tc main_v10) = _
  rw [tail_result m c _ (arr_out m c hlab), hf, hl]
  rfl

end Cert.KernelIdeal.HandValue

end
-- ==== Proof.RefValue.lean ====
import proofs.«117188_j4672924418475_2_alg».proof.Proof.Gen.ReferenceIdeal.Read
import proofs.«117188_j4672924418475_2_alg».proof.Proof.Norm
import proofs.«117188_j4672924418475_2_alg».proof.Proof.Spec

noncomputable section

namespace Cert.ReferenceIdeal.RefValue

open Cert.ReferenceIdeal Cert.ReferenceIdeal.Gen Cert.ReferenceIdeal.Read Cert.Contrastive
open Idealize.ShloMosaic Idealize.ShloMosaic.ValueIdx
open scoped BigOperators

/-- The normalised features by row and column. -/
abbrev feat (X : FVec Ideal S8192x256 .f32) : Fin 8192 → Fin 256 → EReal := fun i k => normF X (ix2 i k)

/-- The labels by row. -/
abbrev lab (L : IVec S8192 32) : Fin 8192 → BitVec 32 := fun i => L (ix1 i)

/-- A row index is its one coordinate. -/
def rowEquiv : S8192.Idx ≃ Fin 8192 where
  toFun i := i 0
  invFun a := ix1 a
  left_inv i := (eq_ix1 i).symm
  right_inv _ := rfl

/-- A sum over the row indices is the sum over the rows' numbers. -/
theorem sum_rows {M : Type*} [AddCommMonoid M] (g : S8192.Idx → M) : ∑ j, g j = ∑ a : Fin 8192, g (ix1 a) := by
  rw [← Equiv.sum_comp rowEquiv.symm g]
  rfl

/-- The fourth stage of the program is the shared normalisation. -/
theorem stage4_eq (X : FVec Ideal S8192x256 .f32) : val_main_v4 (F := Ideal) X = normF X := rfl

/-- The matrix product of the normalised features with their transpose, at row `i` and column `j`, is the inner
    product of the normalised rows `i` and `j`. -/
theorem sim_apply (X : FVec Ideal S8192x256 .f32) (i j : Fin 8192) :
    val_main_v6 (F := Ideal) X (ix2 i j) = sim (feat X) i j := by
  have el : ∀ k : Fin 256, lidx_main_v6 (ix2 i j) k = ix2 i k := fun k =>
    funext fun a => Fin.ext (by match a with | ⟨0, _⟩ => rfl | ⟨1, _⟩ => rfl)
  have er : ∀ k : Fin 256, idx_main_v5 (ridx_main_v6 (ix2 i j) k) = ix2 j k := fun k =>
    funext fun a => Fin.ext (by match a with | ⟨0, _⟩ => rfl | ⟨1, _⟩ => rfl)
  rw [val_main_v6_apply]
  unfold sim
  refine Finset.sum_congr rfl fun k _ => ?_
  rw [val_main_v5_apply, el, er, stage4_eq]

/-- The exponential of the similarity divided by the temperature. -/
theorem e_apply (X : FVec Ideal S8192x256 .f32) (i j : Fin 8192) :
    val_main_v9 (F := Ideal) X (ix2 i j) = eR (feat X) i j := by
  rw [val_main_v9_apply, val_main_v8_apply, val_main_v7_apply, val_main_cst_0_apply, sim_apply]
  rfl

/-- The mask: the bit "rows `i` and `j` carry the same label" read as a number. -/
theorem mask_apply (L : IVec S8192 32) (i j : Fin 8192) :
    val_main_v15 (F := Ideal) L (ix2 i j) = maskR (lab L) i j := by
  have e1 : idx_main_v10 (idx_main_v12 (ix2 i j)) = ix1 i :=
    funext fun a => Fin.ext (by match a with | ⟨0, _⟩ => rfl)
  have e2 : idx_main_v11 (idx_main_v13 (ix2 i j)) = ix1 j :=
    funext fun a => Fin.ext (by match a with | ⟨0, _⟩ => rfl)
  rw [val_main_v15_apply, val_main_v14_apply, val_main_v12_apply, val_main_v13_apply, val_main_v10_apply,
    val_main_v11_apply, e1, e2]
  rfl

/-- Row `i`'s same-label sum. -/
theorem pos_apply (X : FVec Ideal S8192x256 .f32) (L : IVec S8192 32) (i : Fin 8192) :
    val_main_v17 (F := Ideal) X L (ix1 i) = posR (feat X) (lab L) i := by
  have ei : ∀ k : Fin 8192, idx_main_v17 (ix1 i) k = ix2 i k := fun k =>
    funext fun a => Fin.ext (by match a with | ⟨0, _⟩ => rfl | ⟨1, _⟩ => rfl)
  rw [val_main_v17_apply, val_main_cst_1_apply, Ideal.ofBits_def, Ideal.ofBits_zero_f32, zero_add]
  unfold posR
  refine Finset.sum_congr rfl fun k _ => ?_
  rw [ei, val_main_v16_apply, e_apply, mask_apply]
  rfl

/-- Row `i`'s other-label sum. -/
theorem neg_apply (X : FVec Ideal S8192x256 .f32) (L : IVec S8192 32) (i : Fin 8192) :
    val_main_v21 (F := Ideal) X L (ix1 i) = negR (feat X) (lab L) i := by
  have ei : ∀ k : Fin 8192, idx_main_v21 (ix1 i) k = ix2 i k := fun k =>
    funext fun a => Fin.ext (by match a with | ⟨0, _⟩ => rfl | ⟨1, _⟩ => rfl)
  rw [val_main_v21_apply, val_main_cst_3_apply, Ideal.ofBits_def, Ideal.ofBits_zero_f32, zero_add]
  unfold negR
  refine Finset.sum_congr rfl fun k _ => ?_
  rw [ei, val_main_v20_apply, val_main_v19_apply, val_main_v18_apply, val_main_cst_2_apply, e_apply, mask_apply]
  rfl

/-- Row `i`'s loss. -/
theorem loss_apply (X : FVec Ideal S8192x256 .f32) (L : IVec S8192 32) (i : Fin 8192) :
    val_main_v25 (F := Ideal) X L (ix1 i) = lossR (feat X) (lab L) i := by
  rw [val_main_v25_apply, val_main_v24_apply, val_main_v23_apply, val_main_v22_apply, pos_apply, neg_apply]
  rfl

/-- The program's result is the mean of the row losses of the all-columns computation, taken of the normalised
    features and the labels. -/
theorem result_eq (X : FVec Ideal S8192x256 .f32) (L : IVec S8192 32) :
    val_main_v27 (F := Ideal) X L
      = fun _ => resultR (fun i k => normF X (ix2 i k)) (fun i => L (ix1 i)) := by
  funext j
  rw [val_main_v27_apply, val_main_v26_apply, val_main_cst_4_apply, val_main_cst_5_apply, sum_rows]
  simp only [Ideal.ofBits_def, Ideal.ofBits_zero_f32, zero_add, Ideal.hostDivf_def]
  unfold resultR nRows
  exact congrArg (Ideal.div · _) (Finset.sum_congr rfl fun i _ => loss_apply X L i)

end Cert.ReferenceIdeal.RefValue

end
-- ==== Proof.Finite.lean ====
import proofs.«117188_j4672924418475_2_alg».proof.Pre_finite_inputs
import proofs.«117188_j4672924418475_2_alg».proof.Proof.Gen.Pre_finite_inputs
import Idealize.ShloMosaic.Lib.ReduceAll
import Idealize.ShloMosaic.Lib.ValueIdx
import Idealize.ShloMosaic.PureOps.Ideal.Laws

noncomputable section

namespace Cert.Contrastive

open Idealize.ShloMosaic

/-- The precondition says that every entry of the features is smaller in absolute value than `+∞`. An extended real
    with that property is neither infinity, so it is a real number. -/
theorem finite_of_pre [Cert.Pre_finite_inputs.Facts] (X : FVec Ideal Cert.Pre_finite_inputs.S8192x256 .f32)
    (L : IVec Cert.Pre_finite_inputs.S8192 32)
    (h : Cert.Pre_finite_inputs.fn (F := Ideal) X L = (fun _ => 1#1)) : ∀ j, ∃ r : ℝ, X j = (r : EReal) := by
  intro j
  haveI : Subsingleton Cert.Pre_finite_inputs.S_.Idx := ⟨fun a b => funext fun d => d.elim0⟩
  have h0 := congrFun h ValueIdx.ix0
  dsimp only [Cert.Pre_finite_inputs.fn] at h0
  have hj := Host.reduce_andi_all _ _ _ _ _ h0 j
  have htop : Ideal.ofBits .f32 0x7F800000#32 = ⊤ := by simp [Ideal.ofBits, Ideal.ieee]
  have hj' : Ideal.cmp .olt (max (X j) (-(X j))) ⊤ = 1#1 := by rw [← htop]; exact hj
  generalize X j = x at hj' ⊢
  induction x using EReal.rec with
  | bot => simp [Ideal.cmp] at hj'
  | coe r => exact ⟨r, rfl⟩
  | top => simp [Ideal.cmp] at hj'

end Cert.Contrastive

end
-- ==== Proof.Bridge.lean ====
import proofs.«117188_j4672924418475_2_alg».proof.Proof.Spec

/-!
# The two computations of the contrastive loss agree on real features

The exponentials agree entry by entry because dividing by the temperature is multiplying by its reciprocal. The
masked products are the selected exponentials, the two masked sums add up to the full sum, and a sum over all 8192
columns is the sum of its eight block sums, so the two sides hold the same per-row sums `pos` and `tot`. When
the features are real both sums are positive reals (the diagonal column carries the row's own label), and then
`log tot - log pos = -log (pos / tot)`.
-/

noncomputable section

namespace Cert.Contrastive

open Idealize.ShloMosaic
open scoped BigOperators

/-! ### The constants -/

/-- The temperature's pattern denotes `13421773 / 134217728`. -/
theorem tempD_eq : tempD = ((13421773 / 134217728 : ℝ) : EReal) := by
  unfold tempD
  simp [Ideal.ofBits, Ideal.ieee, -EReal.coe_mul]; norm_num

/-- The pattern of `1.0` denotes `1`. -/
theorem oneR_eq : oneR = 1 := by
  unfold oneR
  simp [Ideal.ofBits, Ideal.ieee, -EReal.coe_mul]; norm_num

/-! ### General facts about finite sums of extended reals -/

/-- The coercion of a finite sum of reals is the sum of the coercions. -/
theorem coe_finset_sum {ι : Type*} (s : Finset ι) (g : ι → ℝ) :
    ((∑ i ∈ s, g i : ℝ) : EReal) = ∑ i ∈ s, (g i : EReal) := by
  classical
  induction s using Finset.induction_on with
  | empty => simp
  | insert a s ha ih => rw [Finset.sum_insert ha, Finset.sum_insert ha, EReal.coe_add, ih]

/-- A sum over the 8192 columns is the sum of the sums over the eight blocks of 1024 columns. -/
theorem sum_blocks {M : Type*} [AddCommMonoid M] (F : Fin 8192 → M) :
    ∑ j : Fin 8192, F j = ∑ jb : Fin 8, ∑ j : Fin 1024, F (col jb j) := by
  rw [← Fintype.sum_prod_type']
  refine (Fintype.sum_equiv (finProdFinEquiv (m := 8) (n := 1024)) (fun p => F (col p.1 p.2)) F ?_).symm
  rintro ⟨jb, j⟩
  congr 1
  apply Fin.ext
  simp [col, finProdFinEquiv]
  omega

/-! ### The exponentials agree -/

/-- Dividing by the temperature is multiplying by its reciprocal, so the two exponentials are one. -/
theorem eR_eq_eK (f : Fin 8192 → Fin 256 → EReal) (i j : Fin 8192) : eR f i j = eK f i j := by
  unfold eR eK invT
  rw [tempD_eq, Ideal.div_coe (by norm_num)]
  congr 3
  norm_num

/-! ### The mask and the selection -/

/-- The comparison bit is `1` exactly when the labels are equal. -/
theorem cmpi_eq_one_iff (a b : BitVec 32) : IntOp.cmpi .eq a b = 1 ↔ a = b := by
  unfold IntOp.cmpi
  by_cases h : a = b
  · simp [h]
  · have hb : (a == b) = false := beq_eq_false_iff_ne.2 h
    simp [h, hb]

/-- Selecting on the comparison bit is a case split on the equality of the labels. -/
theorem select_cmpi (a b : BitVec 32) (x y : EReal) :
    Scalar.select (IntOp.cmpi .eq a b) x y = if a = b then x else y := by
  by_cases h : a = b
  · rw [if_pos h, Scalar.select, if_pos ((cmpi_eq_one_iff a b).2 h)]
  · rw [if_neg h, Scalar.select, if_neg (mt (cmpi_eq_one_iff a b).1 h)]

/-- The mask is `1` on equal labels and `0` otherwise. -/
theorem maskR_eq (l : Fin 8192 → BitVec 32) (i j : Fin 8192) :
    maskR l i j = if l i = l j then 1 else 0 := by
  unfold maskR
  by_cases h : l i = l j
  · rw [if_pos h, (cmpi_eq_one_iff _ _).2 h]; simp
  · rw [if_neg h]
    rcases BitVec.eq_zero_or_eq_one (IntOp.cmpi .eq (l i) (l j)) with h0 | h1
    · rw [h0]; simp
    · exact absurd ((cmpi_eq_one_iff _ _).1 h1) h

variable (f : Fin 8192 → Fin 256 → EReal) (l : Fin 8192 → BitVec 32)

/-- The masked sum is the sum of the selected exponentials. -/
theorem posR_eq (i : Fin 8192) :
    posR f l i = ∑ j : Fin 8192, if l i = l j then eK f i j else 0 := by
  unfold posR
  refine Finset.sum_congr rfl fun j _ => ?_
  rw [maskR_eq, eR_eq_eK]
  split_ifs <;> simp

/-- The complementary masked sum is the sum of the exponentials of the other labels. -/
theorem negR_eq (i : Fin 8192) :
    negR f l i = ∑ j : Fin 8192, if l i = l j then 0 else eK f i j := by
  unfold negR
  refine Finset.sum_congr rfl fun j _ => ?_
  rw [maskR_eq, eR_eq_eK, oneR_eq]
  split_ifs
  · have h11 : (1 : EReal) - 1 = 0 := by
      rw [← EReal.coe_one, ← EReal.coe_sub, sub_self, EReal.coe_zero]
    rw [h11, mul_zero]
  · rw [sub_zero, mul_one]

/-- The two masked sums add up to the full sum of the exponentials. -/
theorem totR_eq (i : Fin 8192) : totR f l i = ∑ j : Fin 8192, eK f i j := by
  unfold totR
  rw [negR_eq, posR_eq, ← Finset.sum_add_distrib]
  refine Finset.sum_congr rfl fun j _ => ?_
  split_ifs <;> simp

/-- The eight block sums of selected exponentials add up to the sum over all columns. -/
theorem posK_eq (i : Fin 8192) :
    posK f l i = ∑ j : Fin 8192, if l i = l j then eK f i j else 0 := by
  unfold posK posBlk
  rw [sum_blocks]
  refine Finset.sum_congr rfl fun jb _ => Finset.sum_congr rfl fun j _ => ?_
  rw [select_cmpi]

/-- The eight block sums of exponentials add up to the sum over all columns. -/
theorem totK_eq (i : Fin 8192) : totK f i = ∑ j : Fin 8192, eK f i j := by
  unfold totK totBlk
  rw [sum_blocks]

/-! ### Real features: everything is a positive real -/

/-- On real features each exponential is a positive real. -/
theorem eK_real (hf : ∀ i k, ∃ r : ℝ, f i k = (r : EReal)) (i j : Fin 8192) :
    ∃ r : ℝ, 0 < r ∧ eK f i j = (r : EReal) := by
  choose g hg using hf
  refine ⟨Real.exp ((∑ k : Fin 256, g i k * g j k) * (134217728 / 13421773)), Real.exp_pos _, ?_⟩
  unfold eK sim invT
  simp only [hg, ← EReal.coe_mul]
  rw [← coe_finset_sum, ← EReal.coe_mul, Ideal.exp_coe]

/-- The logarithm identity on positive reals, at the extended reals: `log t - log p = -log (p / t)`. -/
theorem log_sub_log (p t : ℝ) (hp : 0 < p) (ht : 0 < t) :
    Ideal.log (t : EReal) - Ideal.log (p : EReal) = -(Ideal.log (Ideal.div (p : EReal) (t : EReal))) := by
  rw [Ideal.div_coe ht.ne', ← EReal.coe_mul, Ideal.log_coe, Ideal.log_coe, Ideal.log_coe,
    if_neg (not_le.2 ht), if_neg (not_le.2 hp), if_neg (not_le.2 (mul_pos hp (one_div_pos.2 ht))),
    ← EReal.coe_sub, ← EReal.coe_neg]
  congr 1
  rw [mul_one_div, Real.log_div hp.ne' ht.ne']
  ring

/-- On real features the two row losses agree. -/
theorem loss_eq (hf : ∀ i k, ∃ r : ℝ, f i k = (r : EReal)) (i : Fin 8192) :
    lossK f l i = lossR f l i := by
  choose a ha_pos ha using eK_real f hf
  have hpos : posK f l i = ((∑ j : Fin 8192, if l i = l j then a i j else 0 : ℝ) : EReal) := by
    rw [posK_eq, coe_finset_sum]
    refine Finset.sum_congr rfl fun j _ => ?_
    split_ifs
    · exact ha i j
    · exact EReal.coe_zero.symm
  have htot : totK f i = ((∑ j : Fin 8192, a i j : ℝ) : EReal) := by
    rw [totK_eq, coe_finset_sum]
    exact Finset.sum_congr rfl fun j _ => ha i j
  have hp : 0 < ∑ j : Fin 8192, if l i = l j then a i j else 0 := by
    refine Finset.sum_pos' (fun j _ => ?_) ⟨i, Finset.mem_univ _, ?_⟩
    · split_ifs
      · exact (ha_pos i j).le
      · exact le_rfl
    · rw [if_pos rfl]; exact ha_pos i i
  have ht : 0 < ∑ j : Fin 8192, a i j :=
    Finset.sum_pos (fun j _ => ha_pos i j) ⟨i, Finset.mem_univ _⟩
  unfold lossK lossR
  have hposR : posR f l i = posK f l i := (posR_eq f l i).trans (posK_eq f l i).symm
  have htotR : totR f l i = totK f i := (totR_eq f l i).trans (totK_eq f i).symm
  rw [hposR, htotR, hpos, htot]
  exact log_sub_log _ _ hp ht

/-- On real features the two computations give the same mean loss. -/
theorem result_eq (hf : ∀ i k, ∃ r : ℝ, f i k = (r : EReal)) : resultK f l = resultR f l := by
  unfold resultK resultR
  congr 1
  exact Finset.sum_congr rfl fun i _ => loss_eq f l hf i

/-! ### The block sums written out -/

/-- Row `i`'s same-label sum as the eight block sums added from the left. -/
theorem posK_unroll (i : Fin 8192) :
    posK f l i = posBlk f l i 0 + posBlk f l i 1 + posBlk f l i 2 + posBlk f l i 3 + posBlk f l i 4
      + posBlk f l i 5 + posBlk f l i 6 + posBlk f l i 7 := by
  unfold posK
  exact Fin.sum_univ_eight _

/-- Row `i`'s full sum as the eight block sums added from the left. -/
theorem totK_unroll (i : Fin 8192) :
    totK f i = totBlk f i 0 + totBlk f i 1 + totBlk f i 2 + totBlk f i 3 + totBlk f i 4
      + totBlk f i 5 + totBlk f i 6 + totBlk f i 7 := by
  unfold totK
  exact Fin.sum_univ_eight _

/-- The row count's pattern denotes `8192`. -/
theorem nRows_eq : nRows = ((8192 : ℝ) : EReal) := by
  unfold nRows
  simp [Ideal.ofBits, Ideal.ieee, -EReal.coe_mul]; norm_num

end Cert.Contrastive

end
-- ==== Proof.lean ====
/-
  A supervised-contrastive loss over 8192 feature rows of width 256 with integer labels. Both programs first divide
  each row by max(its Euclidean norm, 1e-12); call the result f, and sim i j = ∑ k, f i k * f j k.

  The kernel walks an 8×8 grid of 1024×1024 tiles of the similarity matrix: per tile it forms exp(sim * c), adds the
  tile's row sums into two running sums kept across a row of tiles — one over all columns, one over the columns whose
  label equals the row's — and after the last tile of a row writes log(total) - log(same-label). The host takes the
  mean over the rows. The reference forms the whole 8192×8192 matrix exp(sim / D), a 0/1 mask of equal labels, the
  two masked row sums, and the mean of -log(same / (other + same)).

  c is the kernel's folded reciprocal of the temperature: the source writes scale = 1.0 / TEMPERATURE, and the
  constant is named "inv_temperature", at the ideal instance exactly 1 / D for D the reference's own f32 word for 0.1;
  so sim * c = sim / D on the reals. With every feature finite every f i k is a real number, every exponential a
  positive real, the diagonal term makes each same-label sum positive, e * mask is the select, e * (1 - mask) + e * mask
  = e, a sum over 8192 columns is the sum over 8 blocks of 1024, and log t - log p = -log(p / t) for positive reals.

  The two windows through which the kernel reads f — a row block, and the whole array of which it slices a column
  block — sit on ONE array: each holds it at one half share.
-/
import proofs.«117188_j4672924418475_2_alg».proof.Defs
import proofs.«117188_j4672924418475_2_alg».proof.Proof.Gen.Kernel
import proofs.«117188_j4672924418475_2_alg».proof.Proof.Gen.KernelIdeal
import proofs.«117188_j4672924418475_2_alg».proof.Proof.Gen.ReferenceIdeal
import proofs.«117188_j4672924418475_2_alg».proof.Proof.Gen.Pre_finite_inputs
import proofs.«117188_j4672924418475_2_alg».proof.Proof.Gen.ReferenceIdeal.Run
import proofs.«117188_j4672924418475_2_alg».proof.Proof.Gen.ReferenceIdeal.Read
import proofs.«117188_j4672924418475_2_alg».proof.Proof.K.Claim
import proofs.«117188_j4672924418475_2_alg».proof.Proof.KI.Claim
import proofs.«117188_j4672924418475_2_alg».proof.Proof.KI.Value
import proofs.«117188_j4672924418475_2_alg».proof.Proof.RefValue
import proofs.«117188_j4672924418475_2_alg».proof.Proof.Finite
import proofs.«117188_j4672924418475_2_alg».proof.Proof.Norm
import proofs.«117188_j4672924418475_2_alg».proof.Proof.Bridge
import Idealize.ShloMosaic.Adequacy
import Idealize.ShloMosaic.Init

noncomputable section

namespace Cert.Proof

open Idealize.ShloMosaic Idealize.ShloMosaic.TcCoe Idealize.SL.Sem

/-- The word-level kernel runs to the end, faults nowhere, and leaves its arguments as they were. -/
theorem frame_kernel : Cert.frame_Kernel := fun m ρ _ => Cert.Kernel.Hand.frame (F := Bits) m ρ

/-- So does the idealized kernel. -/
theorem frame_kernelIdeal : Cert.frame_KernelIdeal := fun m ρ _ => Cert.KernelIdeal.Hand.frame (F := Ideal) m ρ

/-- The reference is host operations only: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The one rewrite of the ideal pass: the folded reciprocal 10.0 is read as 1 / D, which rounds to it. -/
theorem preserves : Cert.preserves_Kernel_KernelIdeal :=
  IdealRules.named_const.statement Cert.KernelIdeal.κ "inv_temperature" .f32 0x41200000#32 ((134217728 / 13421773 : ℝ) : EReal) rfl

/-- From memories agreeing on the arguments, the kernel's mean and the reference's are one extended real. -/
theorem algebraic : Cert.algebraic_KernelIdeal_ReferenceIdeal := by
  intro m ρ m' ρ' hpre hagree
  refine ⟨_, Cert.KernelIdeal.HandValue.kernel_value m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v27_eq, Cert.ReferenceIdeal.RefValue.result_eq, (hagree c).1, (hagree c).2]
  funext _
  exact (Cert.Contrastive.result_eq _ _ fun i k =>
    Cert.Contrastive.normF_real _ (Cert.Contrastive.finite_of_pre _ _ (hpre c)) (ValueIdx.ix2 i k)).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
